-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S64x32x32x32 : Shape := ⟨4, ![64, 32, 32, 32]⟩
abbrev S2048x512 : Shape := ⟨2, ![2048, 512]⟩
abbrev S2048x32x32x32 : Shape := ⟨4, ![2048, 32, 32, 32]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S64x32x32x32 : S_.BroadcastsInDim S64x32x32x32 (![] : Fin 0 → Fin S64x32x32x32.rank)
  reducesTo_S64x32x32x32_S_d0_1_2_3 : S64x32x32x32.ReducesTo [0, 1, 2, 3] S_
  bcast_S_S2048x512 : S_.BroadcastsInDim S2048x512 (![] : Fin 0 → Fin S2048x512.rank)
  reducesTo_S2048x512_S_d0_1 : S2048x512.ReducesTo [0, 1] S_
  bcast_S_S2048x32x32x32 : S_.BroadcastsInDim S2048x32x32x32 (![] : Fin 0 → Fin S2048x32x32x32.rank)
  reducesTo_S2048x32x32x32_S_d0_1_2_3 : S2048x32x32x32.ReducesTo [0, 1, 2, 3] S_

variable [Facts]

def fn_part1 {F : FTy → Type} [FloatOps F] (main_v13 : IVec S_ 1) (main_v16 : IVec S2048x32x32x32 1) : IVec S_ 1 :=
  let main_c_5 : IVec S_ 1 := constantI S_ 1 1#1
  let main_v17 : IVec S_ 1 := (fun x v => Host.reduce IntOp.andi x v reducesTo_S2048x32x32x32_S_d0_1_2_3 h_S_) main_v16 main_c_5
  let main_v18 : IVec S_ 1 := andi main_v13 main_v17
  main_v18

def fn {F : FTy → Type} [FloatOps F] (main_arg0 : FVec F S64x512 .f32) (main_arg1 : FVec F S64x32x32x32 .f32) (main_arg2 : FVec F S2048x512 .f32) (main_arg3 : FVec F S2048x32x32x32 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S64x32x32x32 .f32 := Host.absf main_arg1
  let main_cst_0 : FVec F S_ .f32 := constant S_ .f32 0x7F800000#32
  let main_v5 : FVec F S64x32x32x32 .f32 := broadcastInDim S64x32x32x32 ![] bcast_S_S64x32x32x32 main_cst_0
  let main_v6 : IVec S64x32x32x32 1 := cmpf .olt main_v4 main_v5
  let main_c_1 : IVec S_ 1 := constantI S_ 1 1#1
  let main_v7 : IVec S_ 1 := (fun x v => Host.reduce IntOp.andi x v reducesTo_S64x32x32x32_S_d0_1_2_3 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x32x32x32 .f32 := Host.absf main_arg3
  let main_cst_4 : FVec F S_ .f32 := constant S_ .f32 0x7F800000#32
  let main_v15 : FVec F S2048x32x32x32 .f32 := broadcastInDim S2048x32x32x32 ![] bcast_S_S2048x32x32x32 main_cst_4
  let main_v16 : IVec S2048x32x32x32 1 := cmpf .olt main_v14 main_v15
  fn_part1 (F := F) main_v13 main_v16
-- ==== Kernel.lean ====
abbrev S64x512 : Shape := ⟨2, ![64, 512]⟩
abbrev S64x32x32x32 : Shape := ⟨4, ![64, 32, 32, 32]⟩
abbrev S2048x512 : Shape := ⟨2, ![2048, 512]⟩
abbrev S2048x32x32x32 : Shape := ⟨4, ![2048, 32, 32, 32]⟩
abbrev S64x32768 : Shape := ⟨2, ![64, 32768]⟩
abbrev S2048x32768 : Shape := ⟨2, ![2048, 32768]⟩
abbrev S64x2048 : Shape := ⟨2, ![64, 2048]⟩
abbrev S2048 : Shape := ⟨1, ![2048]⟩
abbrev S512x2048 : Shape := ⟨2, ![512, 2048]⟩
abbrev S512 : Shape := ⟨1, ![512]⟩
abbrev S_ : Shape := ⟨0, ![]⟩
abbrev S64 : Shape := ⟨1, ![64]⟩
abbrev S64x1 : Shape := ⟨2, ![64, 1]⟩
abbrev S1x2048 : Shape := ⟨2, ![1, 2048]⟩
abbrev S2048x1 : Shape := ⟨2, ![2048, 1]⟩

abbrev nBuf : Space → Nat
  | .hbm => 98
  | .vmem => 13
  | .smem => 0
  | _ => 0

abbrev bufTy : (tb : Table) → Fin (tcTables nBuf tb) → BufTy
  | .hbm, ⟨0, _⟩ => ⟨S64x512, .f32⟩
  | .hbm, ⟨1, _⟩ => ⟨S64x32x32x32, .f32⟩
  | .hbm, ⟨2, _⟩ => ⟨S2048x512, .f32⟩
  | .hbm, ⟨3, _⟩ => ⟨S2048x32x32x32, .f32⟩
  | .hbm, ⟨4, _⟩ => ⟨S64x32768, .f32⟩
  | .hbm, ⟨5, _⟩ => ⟨S2048x32768, .f32⟩
  | .hbm, ⟨6, _⟩ => ⟨S64x2048, .f32⟩
  | .hbm, ⟨7, _⟩ => ⟨S2048, .f32⟩
  | .hbm, ⟨8, _⟩ => ⟨S64x32768, .f32⟩
  | .hbm, ⟨9, _⟩ => ⟨S_, .f32⟩
  | .hbm, ⟨10, _⟩ => ⟨S64, .f32⟩
  | .hbm, ⟨11, _⟩ => ⟨S64x1, .f32⟩
  | .hbm, ⟨12, _⟩ => ⟨S1x2048, .f32⟩
  | .hbm, ⟨13, _⟩ => ⟨S64x2048, .f32⟩
  | .hbm, ⟨14, _⟩ => ⟨S64x2048, .f32⟩
  | .hbm, ⟨15, _⟩ => ⟨S64x2048, .f32⟩
  | .hbm, ⟨16, _⟩ => ⟨S_, .f32⟩
  | .hbm, ⟨17, _⟩ => ⟨S64x2048, .f32⟩
  | .hbm, ⟨18, _⟩ => ⟨S64x2048, .f32⟩
  | .hbm, ⟨19, _⟩ => ⟨S64x2048, .f32⟩
  | .hbm, ⟨20, _⟩ => ⟨S_, .f32⟩
  | .hbm, ⟨21, _⟩ => ⟨S64x2048, .f32⟩
  | .hbm, ⟨22, _⟩ => ⟨S64x2048, .f32⟩
  | .hbm, ⟨23, _⟩ => ⟨S_, .f32⟩
  | .hbm, ⟨24, _⟩ => ⟨S64x2048, .f32⟩
  | .hbm, ⟨25, _⟩ => ⟨S64x2048, .f32⟩
  | .hbm, ⟨26, _⟩ => ⟨S_, .f32⟩
  | .hbm, ⟨27, _⟩ => ⟨S64x2048, .f32⟩
  | .hbm, ⟨28, _⟩ => ⟨S64x2048, .i1⟩
  | .hbm, ⟨29, _⟩ => ⟨S_, .f32⟩
  | .hbm, ⟨30, _⟩ => ⟨S64x2048, .f32⟩
  | .hbm, ⟨31, _⟩ => ⟨S64x2048, .i1⟩
  | .hbm, ⟨32, _⟩ => ⟨S64x2048, .f32⟩
  | .hbm, ⟨33, _⟩ => ⟨S64x512, .f32⟩
  | .hbm, ⟨34, _⟩ => ⟨S_, .f32⟩
  | .hbm, ⟨35, _⟩ => ⟨S64, .f32⟩
  | .hbm, ⟨36, _⟩ => ⟨S64x1, .f32⟩
  | .hbm, ⟨37, _⟩ => ⟨S64x1, .f32⟩
  | .hbm, ⟨38, _⟩ => ⟨S_, .f32⟩
  | .hbm, ⟨39, _⟩ => ⟨S64x1, .f32⟩
  | .hbm, ⟨40, _⟩ => ⟨S64x1, .f32⟩
  | .hbm, ⟨41, _⟩ => ⟨S2048x512, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S1x2048, .f32⟩
  | .hbm, ⟨50, _⟩ => ⟨S64x2048, .f32⟩
  | .hbm, ⟨51, _⟩ => ⟨S64x2048, .f32⟩
  | .hbm, ⟨52, _⟩ => ⟨S64x2048, .f32⟩
  | .hbm, ⟨53, _⟩ => ⟨S64x2048, .f32⟩
  | .hbm, ⟨54, _⟩ => ⟨S_, .f32⟩
  | .hbm, ⟨55, _⟩ => ⟨S64x2048, .f32⟩
  | .hbm, ⟨56, _⟩ => ⟨S64x2048, .f32⟩
  | .hbm, ⟨57, _⟩ => ⟨S_, .f32⟩
  | .hbm, ⟨58, _⟩ => ⟨S_, .f32⟩
  | .hbm, ⟨59, _⟩ => ⟨S64x2048, .f32⟩
  | .hbm, ⟨60, _⟩ => ⟨S64x2048, .f32⟩
  | .hbm, ⟨61, _⟩ => ⟨S_, .f32⟩
  | .hbm, ⟨62, _⟩ => ⟨S64, .f32⟩
  | .hbm, ⟨63, _⟩ => ⟨S_, .f32⟩
  | .hbm, ⟨64, _⟩ => ⟨S_, .f32⟩
  | .hbm, ⟨65, _⟩ => ⟨S64x2048, .f32⟩
  | .hbm, ⟨66, _⟩ => ⟨S64x2048, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S_, .i1⟩
  | .hbm, ⟨77, _⟩ => ⟨S64, .i1⟩
  | .hbm, ⟨78, _⟩ => ⟨S_, .i1⟩
  | .hbm, ⟨79, _⟩ => ⟨S64, .i1⟩
  | .hbm, ⟨80, _⟩ => ⟨S64, .i1⟩
  | .hbm, ⟨81, _⟩ => ⟨S64, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .i1⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .local _ .vmem, ⟨0, _⟩ => ⟨S64x2048, .f32⟩
  | .local _ .vmem, ⟨1, _⟩ => ⟨S64x2048, .f32⟩
  | .local _ .vmem, ⟨2, _⟩ => ⟨S512x2048, .f32⟩
  | .local _ .vmem, ⟨3, _⟩ => ⟨S512x2048, .f32⟩
  | .local _ .vmem, ⟨4, _⟩ => ⟨S64x512, .f32⟩
  | .local _ .vmem, ⟨5, _⟩ => ⟨S64x512, .f32⟩
  | .local _ .vmem, ⟨6, _⟩ => ⟨S512, .f32⟩
  | .local _ .vmem, ⟨7, _⟩ => ⟨S512, .f32⟩
  | .local _ .vmem, ⟨8, _⟩ => ⟨S64x512, .f32⟩
  | .local _ .vmem, ⟨9, _⟩ => ⟨S512, .f32⟩
  | .local _ .vmem, ⟨10, _⟩ => ⟨S64x512, .f32⟩
  | .local _ .vmem, ⟨11, _⟩ => ⟨S2048x512, .f32⟩
  | .local _ .vmem, ⟨12, _⟩ => ⟨S64x2048, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_call0_v2 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_call1_v2 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_call2_v0 : Ref sig .tc := ⟨.hbm, 58, rfl⟩
abbrev main_call2_v1 : Ref sig .tc := ⟨.hbm, 59, rfl⟩
abbrev main_v35 : Ref sig .tc := ⟨.hbm, 60, rfl⟩
abbrev main_cst_9 : Ref sig .tc := ⟨.hbm, 61, rfl⟩
abbrev main_v36 : Ref sig .tc := ⟨.hbm, 62, rfl⟩
abbrev main_cst_10 : Ref sig .tc := ⟨.hbm, 63, rfl⟩
abbrev main_call3_v0 : Ref sig .tc := ⟨.hbm, 64, rfl⟩
abbrev main_call3_v1 : Ref sig .tc := ⟨.hbm, 65, rfl⟩
abbrev main_v37 : Ref sig .tc := ⟨.hbm, 66, rfl⟩
abbrev main_cst_11 : Ref sig .tc := ⟨.hbm, 67, rfl⟩
abbrev main_v38 : Ref sig .tc := ⟨.hbm, 68, rfl⟩
abbrev main_v39 : Ref sig .tc := ⟨.hbm, 69, rfl⟩
abbrev main_cst_12 : Ref sig .tc := ⟨.hbm, 70, rfl⟩
abbrev main_v40 : Ref sig .tc := ⟨.hbm, 71, rfl⟩
abbrev main_v41 : Ref sig .tc := ⟨.hbm, 72, rfl⟩
abbrev main_cst_13 : Ref sig .tc := ⟨.hbm, 73, rfl⟩
abbrev main_v42 : Ref sig .tc := ⟨.hbm, 74, rfl⟩
abbrev main_v43 : Ref sig .tc := ⟨.hbm, 75, rfl⟩
abbrev main_c : Ref sig .tc := ⟨.hbm, 76, rfl⟩
abbrev main_v44 : Ref sig .tc := ⟨.hbm, 77, rfl⟩
abbrev main_c_14 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_15 : Ref sig .tc := ⟨.hbm, 82, rfl⟩
abbrev main_v48 : Ref sig .tc := ⟨.hbm, 83, rfl⟩
abbrev main_cst_16 : Ref sig .tc := ⟨.hbm, 84, rfl⟩
abbrev main_call4_v0 : Ref sig .tc := ⟨.hbm, 85, rfl⟩
abbrev main_call4_v1 : Ref sig .tc := ⟨.hbm, 86, rfl⟩
abbrev main_v49 : Ref sig .tc := ⟨.hbm, 87, rfl⟩
abbrev main_cst_17 : Ref sig .tc := ⟨.hbm, 88, rfl⟩
abbrev main_v50 : Ref sig .tc := ⟨.hbm, 89, rfl⟩
abbrev main_cst_18 : Ref sig .tc := ⟨.hbm, 90, rfl⟩
abbrev main_v51 : Ref sig .tc := ⟨.hbm, 91, rfl⟩
abbrev main_cst_19 : Ref sig .tc := ⟨.hbm, 92, rfl⟩
abbrev main_v52 : Ref sig .tc := ⟨.hbm, 93, rfl⟩
abbrev main_v53 : Ref sig .tc := ⟨.hbm, 94, rfl⟩
abbrev main_cst_20 : Ref sig .tc := ⟨.hbm, 95, rfl⟩
abbrev main_call5_v0 : Ref sig .tc := ⟨.hbm, 96, rfl⟩
abbrev main_v54 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S64x32x32x32_S64x32768 : S64x32x32x32.ShapeCasts S64x32768
  shapeCasts_S2048x32x32x32_S2048x32768 : S2048x32x32x32.ShapeCasts S2048x32768
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512_S512_0 : ∀ a, (![0] : Fin 1 → Nat) a + S512.size a ≤ S512.size a
  h_S512 : 0 < S512.numel
  shapeCasts_S512_S512 : S512.ShapeCasts S512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  transposes_S512x2048_p1_0_S2048x512 : S512x2048.Transposes [1, 0] S2048x512
  reduces_S512x2048_S512 : S512x2048.Reduces [1] S512
  reducesTo_S64x32768_S64_d1 : S64x32768.ReducesTo [1] S64
  h_S_ : 0 < S_.numel
  bcast_S64_S64x1_0 : S64.BroadcastsInDim S64x1 (![0] : Fin 1 → Fin S64x1.rank)
  bcast_S2048_S1x2048_1 : S2048.BroadcastsInDim S1x2048 (![1] : Fin 1 → Fin S1x2048.rank)
  bcast_S64x1_S64x2048_0_1 : S64x1.BroadcastsInDim S64x2048 (![0, 1] : Fin 2 → Fin S64x2048.rank)
  bcast_S1x2048_S64x2048_0_1 : S1x2048.BroadcastsInDim S64x2048 (![0, 1] : Fin 2 → Fin S64x2048.rank)
  bcast_S_S64x2048 : S_.BroadcastsInDim S64x2048 (![] : Fin 0 → Fin S64x2048.rank)
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  transposes_S2048x512_p1_0_S512x2048 : S2048x512.Transposes [1, 0] S512x2048
  reducesTo_S64x512_S64_d1 : S64x512.ReducesTo [1] S64
  bcast_S_S64x1 : S_.BroadcastsInDim S64x1 (![] : Fin 0 → Fin S64x1.rank)
  reducesTo_S2048x512_S2048_d1 : S2048x512.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  shapeCasts_S2048x1_S1x2048 : S2048x1.ShapeCasts S1x2048
  reducesTo_S64x2048_S64_d1 : S64x2048.ReducesTo [1] S64
  bcast_S_S64 : S_.BroadcastsInDim S64 (![] : Fin 0 → Fin S64.rank)
  reducesTo_S64_S_d0 : S64.ReducesTo [0] S_
  dot_S64x2048_S2048x512_S64x512_1_0_0_1_n_n_wf : DotDims.WF S64x2048 S2048x512 S64x512 [1] [0] [0] [1] [] []
  dot_S64x512_S512x2048_S64x2048_1_0_0_1_n_n_wf : DotDims.WF S64x512 S512x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x32768.size a
  hwx0_0 : ∀ i : grid0.Coords, EltTy.bits .f32 = 32 ∨ (Rect.block (s := S64x32768) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x32768.size a
  hwx0_1 : ∀ i : grid0.Coords, EltTy.bits .f32 = 32 ∨ (Rect.block (s := S2048x32768) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x2048.size a
  hwx0_2 : ∀ i : grid0.Coords, EltTy.bits .f32 = 32 ∨ (Rect.block (s := S64x2048) S64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S2048.size a
  hwx0_3 : ∀ i : grid0.Coords, EltTy.bits .f32 = 32 ∨ (Rect.block (s := S2048) S512.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x512.size a ≤ S64x512.size a
  hwx1_0 : ∀ i : grid1.Coords, EltTy.bits .f32 = 32 ∨ (Rect.block (s := S64x512) S64x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x512.size a
  hwx1_1 : ∀ i : grid1.Coords, EltTy.bits .f32 = 32 ∨ (Rect.block (s := S2048x512) S2048x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x2048.size a ≤ S64x2048.size a
  hwx1_2 : ∀ i : grid1.Coords, EltTy.bits .f32 = 32 ∨ (Rect.block (s := S64x2048) S64x2048.size (cc1_transform_2 i) (hinb1_2 i)).WholeWords (EltTy.packing .f32)

variable [Facts₀]

def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf
def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf

abbrev win0_0 : Pipeline.Window sig grid0 :=
  Pipeline.Window.ofSpec (Memref.whole main_v0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S64x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S64x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2048x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S64x2048.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x512 : Shape := ⟨2, ![64, 512]⟩
abbrev S64x32x32x32 : Shape := ⟨4, ![64, 32, 32, 32]⟩
abbrev S2048x512 : Shape := ⟨2, ![2048, 512]⟩
abbrev S2048x32x32x32 : Shape := ⟨4, ![2048, 32, 32, 32]⟩
abbrev S64x32768 : Shape := ⟨2, ![64, 32768]⟩
abbrev S2048x32768 : Shape := ⟨2, ![2048, 32768]⟩
abbrev S_ : Shape := ⟨0, ![]⟩
abbrev S64 : Shape := ⟨1, ![64]⟩
abbrev S2048 : Shape := ⟨1, ![2048]⟩
abbrev S64x1 : Shape := ⟨2, ![64, 1]⟩
abbrev S1x2048 : Shape := ⟨2, ![1, 2048]⟩
abbrev S64x2048 : Shape := ⟨2, ![64, 2048]⟩
abbrev S32768x2048 : Shape := ⟨2, ![32768, 2048]⟩
abbrev S2048x1 : Shape := ⟨2, ![2048, 1]⟩
abbrev S512x2048 : Shape := ⟨2, ![512, 2048]⟩

abbrev nBuf : Space → Nat
  | .hbm => 101
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S64x32x32x32, .f32⟩
  | .hbm, ⟨2, _⟩ => ⟨S2048x512, .f32⟩
  | .hbm, ⟨3, _⟩ => ⟨S2048x32x32x32, .f32⟩
  | .hbm, ⟨4, _⟩ => ⟨S64x32768, .f32⟩
  | .hbm, ⟨5, _⟩ => ⟨S2048x32768, .f32⟩
  | .hbm, ⟨6, _⟩ => ⟨S64x32768, .f32⟩
  | .hbm, ⟨7, _⟩ => ⟨S_, .f32⟩
  | .hbm, ⟨8, _⟩ => ⟨S64, .f32⟩
  | .hbm, ⟨9, _⟩ => ⟨S2048x32768, .f32⟩
  | .hbm, ⟨10, _⟩ => ⟨S_, .f32⟩
  | .hbm, ⟨11, _⟩ => ⟨S2048, .f32⟩
  | .hbm, ⟨12, _⟩ => ⟨S64x1, .f32⟩
  | .hbm, ⟨13, _⟩ => ⟨S1x2048, .f32⟩
  | .hbm, ⟨14, _⟩ => ⟨S64x2048, .f32⟩
  | .hbm, ⟨15, _⟩ => ⟨S64x2048, .f32⟩
  | .hbm, ⟨16, _⟩ => ⟨S64x2048, .f32⟩
  | .hbm, ⟨17, _⟩ => ⟨S32768x2048, .f32⟩
  | .hbm, ⟨18, _⟩ => ⟨S64x2048, .f32⟩
  | .hbm, ⟨19, _⟩ => ⟨S_, .f32⟩
  | .hbm, ⟨20, _⟩ => ⟨S64x2048, .f32⟩
  | .hbm, ⟨21, _⟩ => ⟨S64x2048, .f32⟩
  | .hbm, ⟨22, _⟩ => ⟨S64x2048, .f32⟩
  | .hbm, ⟨23, _⟩ => ⟨S_, .f32⟩
  | .hbm, ⟨24, _⟩ => ⟨S64x2048, .f32⟩
  | .hbm, ⟨25, _⟩ => ⟨S64x2048, .f32⟩
  | .hbm, ⟨26, _⟩ => ⟨S_, .f32⟩
  | .hbm, ⟨27, _⟩ => ⟨S64x2048, .f32⟩
  | .hbm, ⟨28, _⟩ => ⟨S64x2048, .f32⟩
  | .hbm, ⟨29, _⟩ => ⟨S_, .f32⟩
  | .hbm, ⟨30, _⟩ => ⟨S64x2048, .f32⟩
  | .hbm, ⟨31, _⟩ => ⟨S64x2048, .i1⟩
  | .hbm, ⟨32, _⟩ => ⟨S_, .f32⟩
  | .hbm, ⟨33, _⟩ => ⟨S64x2048, .f32⟩
  | .hbm, ⟨34, _⟩ => ⟨S64x2048, .i1⟩
  | .hbm, ⟨35, _⟩ => ⟨S64x512, .f32⟩
  | .hbm, ⟨36, _⟩ => ⟨S_, .f32⟩
  | .hbm, ⟨37, _⟩ => ⟨S64, .f32⟩
  | .hbm, ⟨38, _⟩ => ⟨S64x1, .f32⟩
  | .hbm, ⟨39, _⟩ => ⟨S64x1, .f32⟩
  | .hbm, ⟨40, _⟩ => ⟨S_, .f32⟩
  | .hbm, ⟨41, _⟩ => ⟨S64x1, .f32⟩
  | .hbm, ⟨42, _⟩ => ⟨S64x1, .f32⟩
  | .hbm, ⟨43, _⟩ => ⟨S2048x512, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S64x512, .f32⟩
  | .hbm, ⟨52, _⟩ => ⟨S64x512, .f32⟩
  | .hbm, ⟨53, _⟩ => ⟨S2048x512, .f32⟩
  | .hbm, ⟨54, _⟩ => ⟨S2048x512, .f32⟩
  | .hbm, ⟨55, _⟩ => ⟨S512x2048, .f32⟩
  | .hbm, ⟨56, _⟩ => ⟨S64x2048, .f32⟩
  | .hbm, ⟨57, _⟩ => ⟨S_, .f32⟩
  | .hbm, ⟨58, _⟩ => ⟨S64x2048, .f32⟩
  | .hbm, ⟨59, _⟩ => ⟨S64x2048, .f32⟩
  | .hbm, ⟨60, _⟩ => ⟨S_, .f32⟩
  | .hbm, ⟨61, _⟩ => ⟨S_, .f32⟩
  | .hbm, ⟨62, _⟩ => ⟨S64x2048, .f32⟩
  | .hbm, ⟨63, _⟩ => ⟨S64x2048, .f32⟩
  | .hbm, ⟨64, _⟩ => ⟨S_, .f32⟩
  | .hbm, ⟨65, _⟩ => ⟨S64, .f32⟩
  | .hbm, ⟨66, _⟩ => ⟨S_, .f32⟩
  | .hbm, ⟨67, _⟩ => ⟨S_, .f32⟩
  | .hbm, ⟨68, _⟩ => ⟨S64x2048, .f32⟩
  | .hbm, ⟨69, _⟩ => ⟨S64x2048, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S_, .i1⟩
  | .hbm, ⟨80, _⟩ => ⟨S64, .i1⟩
  | .hbm, ⟨81, _⟩ => ⟨S_, .i1⟩
  | .hbm, ⟨82, _⟩ => ⟨S64, .i1⟩
  | .hbm, ⟨83, _⟩ => ⟨S64, .i1⟩
  | .hbm, ⟨84, _⟩ => ⟨S64, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S64, .f32⟩
  | .hbm, ⟨90, _⟩ => ⟨S64, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .i1⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_call0_v2 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_call1_v0 : Ref sig .tc := ⟨.hbm, 43, rfl⟩
abbrev main_call1_cst : Ref sig .tc := ⟨.hbm, 44, rfl⟩
abbrev main_call1_v1 : Ref sig .tc := ⟨.hbm, 45, rfl⟩
abbrev main_call1_v2 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_call2_v0 : Ref sig .tc := ⟨.hbm, 61, rfl⟩
abbrev main_call2_v1 : Ref sig .tc := ⟨.hbm, 62, rfl⟩
abbrev main_v38 : Ref sig .tc := ⟨.hbm, 63, rfl⟩
abbrev main_cst_10 : Ref sig .tc := ⟨.hbm, 64, rfl⟩
abbrev main_v39 : Ref sig .tc := ⟨.hbm, 65, rfl⟩
abbrev main_cst_11 : Ref sig .tc := ⟨.hbm, 66, rfl⟩
abbrev main_call3_v0 : Ref sig .tc := ⟨.hbm, 67, rfl⟩
abbrev main_call3_v1 : Ref sig .tc := ⟨.hbm, 68, rfl⟩
abbrev main_v40 : Ref sig .tc := ⟨.hbm, 69, rfl⟩
abbrev main_cst_12 : Ref sig .tc := ⟨.hbm, 70, rfl⟩
abbrev main_v41 : Ref sig .tc := ⟨.hbm, 71, rfl⟩
abbrev main_v42 : Ref sig .tc := ⟨.hbm, 72, rfl⟩
abbrev main_cst_13 : Ref sig .tc := ⟨.hbm, 73, rfl⟩
abbrev main_v43 : Ref sig .tc := ⟨.hbm, 74, rfl⟩
abbrev main_v44 : Ref sig .tc := ⟨.hbm, 75, rfl⟩
abbrev main_cst_14 : Ref sig .tc := ⟨.hbm, 76, rfl⟩
abbrev main_v45 : Ref sig .tc := ⟨.hbm, 77, rfl⟩
abbrev main_v46 : Ref sig .tc := ⟨.hbm, 78, rfl⟩
abbrev main_c : Ref sig .tc := ⟨.hbm, 79, rfl⟩
abbrev main_v47 : Ref sig .tc := ⟨.hbm, 80, rfl⟩
abbrev main_c_15 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_16 : Ref sig .tc := ⟨.hbm, 85, rfl⟩
abbrev main_v51 : Ref sig .tc := ⟨.hbm, 86, rfl⟩
abbrev main_cst_17 : Ref sig .tc := ⟨.hbm, 87, rfl⟩
abbrev main_call4_v0 : Ref sig .tc := ⟨.hbm, 88, rfl⟩
abbrev main_call4_v1 : Ref sig .tc := ⟨.hbm, 89, rfl⟩
abbrev main_v52 : Ref sig .tc := ⟨.hbm, 90, rfl⟩
abbrev main_cst_18 : Ref sig .tc := ⟨.hbm, 91, rfl⟩
abbrev main_v53 : Ref sig .tc := ⟨.hbm, 92, rfl⟩
abbrev main_cst_19 : Ref sig .tc := ⟨.hbm, 93, rfl⟩
abbrev main_v54 : Ref sig .tc := ⟨.hbm, 94, rfl⟩
abbrev main_cst_20 : Ref sig .tc := ⟨.hbm, 95, rfl⟩
abbrev main_v55 : Ref sig .tc := ⟨.hbm, 96, rfl⟩
abbrev main_v56 : Ref sig .tc := ⟨.hbm, 97, rfl⟩
abbrev main_cst_21 : Ref sig .tc := ⟨.hbm, 98, rfl⟩
abbrev main_call5_v0 : Ref sig .tc := ⟨.hbm, 99, rfl⟩
abbrev main_v57 : Ref sig .tc := ⟨.hbm, 100, rfl⟩

abbrev nD : Nat := 1
abbrev τ : Topo := Topo.v7x

variable {F : FTy → Type} [FloatOps F]

class Facts₀ : Prop where
  shapeCasts_S64x32x32x32_S64x32768 : S64x32x32x32.ShapeCasts S64x32768
  shapeCasts_S2048x32x32x32_S2048x32768 : S2048x32x32x32.ShapeCasts S2048x32768
  reducesTo_S64x32768_S64_d1 : S64x32768.ReducesTo [1] S64
  h_S_ : 0 < S_.numel
  reducesTo_S2048x32768_S2048_d1 : S2048x32768.ReducesTo [1] S2048
  bcast_S64_S64x1_0 : S64.BroadcastsInDim S64x1 (![0] : Fin 1 → Fin S64x1.rank)
  bcast_S2048_S1x2048_1 : S2048.BroadcastsInDim S1x2048 (![1] : Fin 1 → Fin S1x2048.rank)
  bcast_S64x1_S64x2048_0_1 : S64x1.BroadcastsInDim S64x2048 (![0, 1] : Fin 2 → Fin S64x2048.rank)
  bcast_S1x2048_S64x2048_0_1 : S1x2048.BroadcastsInDim S64x2048 (![0, 1] : Fin 2 → Fin S64x2048.rank)
  transposes_S2048x32768_S32768x2048_1_0 : S2048x32768.Transposes [1, 0] S32768x2048
  bcast_S_S64x2048 : S_.BroadcastsInDim S64x2048 (![] : Fin 0 → Fin S64x2048.rank)
  reducesTo_S64x512_S64_d1 : S64x512.ReducesTo [1] S64
  bcast_S_S64x1 : S_.BroadcastsInDim S64x1 (![] : Fin 0 → Fin S64x1.rank)
  reducesTo_S2048x512_S2048_d1 : S2048x512.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S64x1_S64x512_0_1 : S64x1.BroadcastsInDim S64x512 (![0, 1] : Fin 2 → Fin S64x512.rank)
  bcast_S2048x1_S2048x512_0_1 : S2048x1.BroadcastsInDim S2048x512 (![0, 1] : Fin 2 → Fin S2048x512.rank)
  transposes_S2048x512_S512x2048_1_0 : S2048x512.Transposes [1, 0] S512x2048
  reducesTo_S64x2048_S64_d1 : S64x2048.ReducesTo [1] S64
  bcast_S_S64 : S_.BroadcastsInDim S64 (![] : Fin 0 → Fin S64.rank)
  reducesTo_S64_S_d0 : S64.ReducesTo [0] S_
  dot_S64x32768_S32768x2048_S64x2048_1_0_0_1_n_n_wf : DotDims.WF S64x32768 S32768x2048 S64x2048 [1] [0] [0] [1] [] []
  dot_S64x512_S512x2048_S64x2048_1_0_0_1_n_n_wf : DotDims.WF S64x512 S512x2048 S64x2048 [1] [0] [0] [1] [] []

variable [Facts₀]

def dot_S64x32768_S32768x2048_S64x2048_1_0_0_1_n_n : DotDims S64x32768 S32768x2048 S64x2048 where
  lhsContracting := [1]
  rhsContracting := [0]
  lhsNonContracting := [0]
  rhsNonContracting := [1]
  lhsBatch := []
  rhsBatch := []
  wf := dot_S64x32768_S32768x2048_S64x2048_1_0_0_1_n_n_wf
def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf

class Facts : Prop extends Facts₀ where

variable [Facts]
-- ==== Proof.FiniteInputs.lean ====
/-
  The precondition, decoded: when the predicate "every entry of each of the four
  input arrays has absolute value below +∞" holds, every entry is a real number.

  Over the extended reals [-∞, +∞], |x| = max x (-x), and |x| < +∞ excludes
  exactly x = +∞ and x = -∞; what is left is the image of ℝ.  The predicate is a
  conjunction of four "for all entries" statements, each a reduction by "and"
  over a whole array; a conjunction that is true has every conjunct true.
-/
import proofs.«145568_j39152921870432_2_alg».proof.Defs
import proofs.«145568_j39152921870432_2_alg».proof.Proof.Gen.Pre_finite_inputs
import Idealize.ShloMosaic.Lib.ReduceAll
import Idealize.ShloMosaic.Lib.ValueIdx
import Idealize.ShloMosaic.PureOps.Ideal.Laws

namespace Cert.KernelIdeal.Hand

open Idealize.ShloMosaic

/-- The scalar shape has one index. -/
instance subsingleton_scalar_idx : Subsingleton Cert.Pre_finite_inputs.S_.Idx :=
  ⟨fun a b => funext fun d => d.elim0⟩

/-- The single-precision pattern 0x7F800000 denotes +∞. -/
theorem inf_word : Ideal.ofBits .f32 0x7F800000#32 = (⊤ : EReal) := by
  simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One entry: the comparison "|x| < +∞" answering 1 says `x` is a real. -/
theorem real_of_cmp (x : Ideal .f32)
    (h : FloatOps.cmpf (F := Ideal) .olt (FloatOps.hostAbsf x) (FloatOps.ofBits .f32 0x7F800000#32) = 1#1) :
    ∃ r : ℝ, x = (r : EReal) := by
  rw [Ideal.cmpf_def, Ideal.hostAbsf_def, Ideal.absf_def, Ideal.ofBits_def, inf_word] at h
  refine real_of_abs_lt_top x ?_
  by_contra hn
  simp [Ideal.cmp, hn] at h

/-- One array: the "for all entries, |x| < +∞" reduction answering 1 says every entry is a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (j : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr h0 j = 1#1) :
    ∀ i, ∃ r : ℝ, x i = (r : EReal) := fun i =>
  real_of_cmp (x i) (Host.reduce_andi_all _ _ hr h0 j e i)

/-- THE PRECONDITION DECODED: all four input arrays hold reals only. -/
theorem finite_of_pre [Cert.Pre_finite_inputs.Facts]
    (x0 : FVec Ideal Cert.Pre_finite_inputs.S64x512 .f32)
    (x1 : FVec Ideal Cert.Pre_finite_inputs.S64x32x32x32 .f32)
    (x2 : FVec Ideal Cert.Pre_finite_inputs.S2048x512 .f32)
    (x3 : FVec Ideal Cert.Pre_finite_inputs.S2048x32x32x32 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧
    (∀ i, ∃ r : ℝ, x2 i = (r : EReal)) ∧ (∀ i, ∃ r : ℝ, x3 i = (r : EReal)) := by
  have e := congrFun h ValueIdx.ix0
  dsimp only [Cert.Pre_finite_inputs.fn, Cert.Pre_finite_inputs.fn_part1, andi] at e
  rw [IntOp.andi_eq_one, IntOp.andi_eq_one, IntOp.andi_eq_one] at e
  obtain ⟨⟨⟨e0, e1⟩, e2⟩, e3⟩ := e
  exact ⟨all_real x0 _ _ _ _ e0, all_real x1 _ _ _ _ e1, all_real x2 _ _ _ _ e2, all_real x3 _ _ _ _ e3⟩

end Cert.KernelIdeal.Hand
-- ==== Proof.HostStages.lean ====
import proofs.«145568_j39152921870432_2_alg».proof.Proof.Gen.KernelIdeal
import Idealize.ShloMosaic.PureOps.Ideal.Laws

/-! # The host computation, in named stages

Both programs compute, from the voxel rows `v` (64 x 32768), the table of inner products `vw` (64 x 2048) and
the squared norms `wsq` (2048) of the memory rows, the similarity `sv = 1 - (|v|^2 + |w|^2 - 2 vw) / 32768`
and its two masks `sv > beta`, `sv < beta`; from the anchor rows and the key rows their clamped norms
`an = max (sqrt (sum a^2)) eps`, `kn = max (sqrt (sum key^2)) eps`; and from the masks and a distance table
`kd` the scalar result (hardest positive and hardest negative per row, the hinge loss, the rows that have
both a positive and a negative, and the mean of the loss over those rows). Each stage is one definition at the
extended reals; the last one, from the masks and `kd` to the scalar, is never opened. -/

noncomputable section

namespace Cert.KernelIdeal.Hand

open Cert.KernelIdeal Cert.KernelIdeal.Gen Idealize.ShloMosaic Idealize.ShloMosaic.TcCoe Idealize.SL.Sem

/-- An array of the given shape and element type over the extended reals. -/
abbrev Arr (S : Shape) (e : EltTy) : Type := (⟨S, e⟩ : BufTy).Contents (Elt Ideal)

/-- The row sums of squares of a 64 x 32768 array, as a column. -/
def rowSq (v : Arr S64x32768 .f32) : Arr S64x1 .f32 :=
  broadcastInDim S64x1 ![0] bcast_S64_S64x1_0
    (Host.reduceAdd (F := Ideal) (mulf v v) (constant (F := Ideal) S_ .f32 0x00000000#32) reducesTo_S64x32768_S64_d1 h_S_)

/-- The similarity table `1 - (|v_p|^2 + wsq_q - 2 vw_pq) / 32768`. -/
def simTable (v : Arr S64x32768 .f32) (vw : Arr S64x2048 .f32) (wsq : Arr S2048 .f32) : Arr S64x2048 .f32 :=
  subf (broadcastInDim S64x2048 ![] bcast_S_S64x2048 (constant (F := Ideal) S_ .f32 0x3F800000#32))
    (Host.divf
      (subf
        (addf (broadcastInDim S64x2048 ![0, 1] bcast_S64x1_S64x2048_0_1 (rowSq v))
          (broadcastInDim S64x2048 ![0, 1] bcast_S1x2048_S64x2048_0_1
            (broadcastInDim S1x2048 ![1] bcast_S2048_S1x2048_1 wsq)))
        (mulf (broadcastInDim S64x2048 ![] bcast_S_S64x2048 (constant (F := Ideal) S_ .f32 0x40000000#32)) vw))
      (broadcastInDim S64x2048 ![] bcast_S_S64x2048 (constant (F := Ideal) S_ .f32 0x47000000#32)))

/-- The entries of the similarity table above the threshold. -/
def posMask (sv : Arr S64x2048 .f32) : Arr S64x2048 .i1 :=
  cmpf .ogt sv (broadcastInDim S64x2048 ![] bcast_S_S64x2048 (constant (F := Ideal) S_ .f32 0x3F555555#32))

/-- The entries of the similarity table below the threshold. -/
def negMask (sv : Arr S64x2048 .f32) : Arr S64x2048 .i1 :=
  cmpf .olt sv (broadcastInDim S64x2048 ![] bcast_S_S64x2048 (constant (F := Ideal) S_ .f32 0x3F555555#32))

/-- The clamped norms of the 64 anchor rows, as a column: `max (sqrt (sum_k a_pk^2)) eps`. -/
def anchorNorm (a : Arr S64x512 .f32) : Arr S64x1 .f32 :=
  maximumf
    (Host.sqrt (broadcastInDim S64x1 ![0] bcast_S64_S64x1_0
      (Host.reduceAdd (F := Ideal) (mulf a a) (constant (F := Ideal) S_ .f32 0x00000000#32) reducesTo_S64x512_S64_d1 h_S_)))
    (broadcastInDim S64x1 ![] bcast_S_S64x1 (constant (F := Ideal) S_ .f32 0x322BCC77#32))

/-- The clamped norms of the 2048 key rows, as a column: `max (sqrt (sum_k key_qk^2)) eps`. -/
def keyNorm (key : Arr S2048x512 .f32) : Arr S2048x1 .f32 :=
  maximumf
    (Host.sqrt (broadcastInDim S2048x1 ![0] bcast_S2048_S2048x1_0
      (Host.reduceAdd (F := Ideal) (mulf key key) (constant (F := Ideal) S_ .f32 0x00000000#32) reducesTo_S2048x512_S2048_d1 h_S_)))
    (broadcastInDim S2048x1 ![] bcast_S_S2048x1 (constant (F := Ideal) S_ .f32 0x322BCC77#32))

/-- One minus a table. -/
def oneMinus (x : Arr S64x2048 .f32) : Arr S64x2048 .f32 :=
  subf (broadcastInDim S64x2048 ![] bcast_S_S64x2048 (constant (F := Ideal) S_ .f32 0x3F800000#32)) x

/-- The table of inner products divided entrywise by the products of the norms: `rd_pq / (an_p kn_q)`. -/
def scaledDot (an : Arr S64x1 .f32) (kn : Arr S2048x1 .f32) (rd : Arr S64x2048 .f32) : Arr S64x2048 .f32 :=
  Host.divf (F := Ideal) (φ := .f32) rd
    (mulf (F := Ideal) (φ := .f32) (broadcastInDim S64x2048 ![0, 1] bcast_S64x1_S64x2048_0_1 an)
      (broadcastInDim S64x2048 ![0, 1] bcast_S1x2048_S64x2048_0_1 (shapeCast S1x2048 kn shapeCasts_S2048x1_S1x2048)))

/-- Per row, the largest distance among the positives (`-1e9` where the mask is off, from `-inf`). -/
def hardestPos (pos : Arr S64x2048 .i1) (kd : Arr S64x2048 .f32) : Arr S64 .f32 :=
  Host.reduce (FloatOps.maximumf (F := Ideal) (φ := .f32))
    (select pos kd (broadcastInDim S64x2048 ![] bcast_S_S64x2048 (constant (F := Ideal) S_ .f32 0xCE6E6B28#32)))
    (constant (F := Ideal) S_ .f32 0xFF800000#32) reducesTo_S64x2048_S64_d1 h_S_

/-- Per row, the smallest distance among the negatives (`+1e9` where the mask is off, from `+inf`). -/
def hardestNeg (neg : Arr S64x2048 .i1) (kd : Arr S64x2048 .f32) : Arr S64 .f32 :=
  Host.reduce (FloatOps.minimumf (F := Ideal) (φ := .f32))
    (select neg kd (broadcastInDim S64x2048 ![] bcast_S_S64x2048 (constant (F := Ideal) S_ .f32 0x4E6E6B28#32)))
    (constant (F := Ideal) S_ .f32 0x7F800000#32) reducesTo_S64x2048_S64_d1 h_S_

/-- Per row, the hinge loss `max (hardestPos - hardestNeg + 0.2) 0`. -/
def hinge (pos neg : Arr S64x2048 .i1) (kd : Arr S64x2048 .f32) : Arr S64 .f32 :=
  maximumf
    (addf (subf (hardestPos pos kd) (hardestNeg neg kd))
      (broadcastInDim S64 ![] bcast_S_S64 (constant (F := Ideal) S_ .f32 0x3E4CCCCD#32)))
    (broadcastInDim S64 ![] bcast_S_S64 (constant (F := Ideal) S_ .f32 0x00000000#32))

/-- The rows that have both a positive and a negative. -/
def validRow (pos neg : Arr S64x2048 .i1) : Arr S64 .i1 :=
  andi (Host.reduce IntOp.ori pos (constantI S_ 1 0#1) reducesTo_S64x2048_S64_d1 h_S_)
    (Host.reduce IntOp.ori neg (constantI S_ 1 0#1) reducesTo_S64x2048_S64_d1 h_S_)

/-- The number of valid rows. -/
def validCount (pos neg : Arr S64x2048 .i1) : Arr S_ .f32 :=
  Host.reduceAdd (F := Ideal) (uitofp .f32 (validRow pos neg)) (constant (F := Ideal) S_ .f32 0x00000000#32) reducesTo_S64_S_d0 h_S_

/-- The hinge loss summed over the valid rows. -/
def lossSum (pos neg : Arr S64x2048 .i1) (kd : Arr S64x2048 .f32) : Arr S_ .f32 :=
  Host.reduceAdd (F := Ideal)
    (select (validRow pos neg) (hinge pos neg kd)
      (broadcastInDim S64 ![] bcast_S_S64 (constant (F := Ideal) S_ .f32 0x00000000#32)))
    (constant (F := Ideal) S_ .f32 0x00000000#32) reducesTo_S64_S_d0 h_S_

/-- From the two masks and the distance table to the scalar result: the mean hinge loss over the valid rows,
    zero when there is none. -/
def lossTail (pos neg : Arr S64x2048 .i1) (kd : Arr S64x2048 .f32) : Arr S_ .f32 :=
  select (cmpf .ogt (validCount pos neg) (constant (F := Ideal) S_ .f32 0x00000000#32))
    (Host.divf (lossSum pos neg kd) (maximumf (validCount pos neg) (constant (F := Ideal) S_ .f32 0x3F800000#32)))
    (constant (F := Ideal) S_ .f32 0x00000000#32)

/-- The kernel program's host computation: from the four arguments and the three arrays the two regions leave
    (the inner products `vw`, the squared norms `wsq`, the anchor-key inner products `rd`) to the result. -/
def KRes (a0 : Arr S64x512 .f32) (a1 : Arr S64x32x32x32 .f32) (a2 : Arr S2048x512 .f32) (_a3 : Arr S2048x32x32x32 .f32)
    (vw : Arr S64x2048 .f32) (wsq : Arr S2048 .f32) (rd : Arr S64x2048 .f32) : Arr S_ .f32 :=
  lossTail
    (posMask (simTable (shapeCast S64x32768 a1 shapeCasts_S64x32x32x32_S64x32768) vw wsq))
    (negMask (simTable (shapeCast S64x32768 a1 shapeCasts_S64x32x32x32_S64x32768) vw wsq))
    (oneMinus (scaledDot (anchorNorm a0) (keyNorm a2) rd))

end Cert.KernelIdeal.Hand

end
-- ==== Proof.KernelHost.lean ====
import proofs.«145568_j39152921870432_2_alg».proof.Proof.HostStages
import proofs.«145568_j39152921870432_2_alg».proof.Proof.Gen.KernelIdeal.Regions

/-! # What the kernel program's host operations compute

Between and after its two regions the kernel program runs host operations only. Over ANY contents `W` of the
buffers, each stretch of them writes a buffer with the corresponding stage of `HostStages` applied to what
`W` holds at the buffers the stretch reads. Chained from the launch contents through the two regions' unknown
outputs, the program's result is `KRes` of the four arguments and of what the regions leave. -/

set_option maxRecDepth 8192

noncomputable section

namespace Cert.KernelIdeal.Hand

open Cert.KernelIdeal Cert.KernelIdeal.Gen Idealize.ShloMosaic Idealize.ShloMosaic.TcCoe Idealize.SL.Sem
open Idealize.ShloMosaic.StableHlo

section Stretches

variable (W : Valuation τ sig (Elt Ideal))

/-- The first stretch reshapes the voxel argument to 64 rows. -/
theorem after0_v0 :
    after (hostOps0 (F := Ideal)) W (Proc.devRef .tc main_v0)
      = shapeCast S64x32768 (W (Proc.devRef .tc main_arg1) : Arr S64x32x32x32 .f32) shapeCasts_S64x32x32x32_S64x32768 := by
  dsimp only [hostOps0]; after_results; rfl

/-- The first stretch reshapes the memory-voxel argument to 2048 rows. -/
theorem after0_v1 :
    after (hostOps0 (F := Ideal)) W (Proc.devRef .tc main_v1)
      = shapeCast S2048x32768 (W (Proc.devRef .tc main_arg3) : Arr S2048x32x32x32 .f32) shapeCasts_S2048x32x32x32_S2048x32768 := by
  dsimp only [hostOps0]; after_results; rfl

/-- The stretch between the regions writes the mask of the similarities above the threshold. -/
theorem after1_pos :
    after (hostOps1 (F := Ideal)) W (Proc.devRef .tc main_v18)
      = posMask (simTable (W (Proc.devRef .tc main_v0)) (W (Proc.devRef .tc main_v2_0)) (W (Proc.devRef .tc main_v2_1))) := by
  dsimp only [hostOps1]; after_results; rfl

/-- The stretch between the regions writes the mask of the similarities below the threshold. -/
theorem after1_neg :
    after (hostOps1 (F := Ideal)) W (Proc.devRef .tc main_v20)
      = negMask (simTable (W (Proc.devRef .tc main_v0)) (W (Proc.devRef .tc main_v2_0)) (W (Proc.devRef .tc main_v2_1))) := by
  dsimp only [hostOps1]; after_results; rfl

/-- The stretches after the second region: the two norms, the distance table and the loss, from the two masks,
    the two feature arguments and the table of inner products. -/
theorem after2_res :
    after (hostOps2_10 (F := Ideal)) (after hostOps2_9 (after hostOps2_8 (after hostOps2_7 (after hostOps2_6 (after hostOps2_5
      (after hostOps2_4 (after hostOps2_3 (after hostOps2_2 (after hostOps2_1 (after hostOps2 W))))))))))
        (Proc.devRef .tc main_v54)
      = lossTail (W (Proc.devRef .tc main_v18)) (W (Proc.devRef .tc main_v20))
          (oneMinus (scaledDot (anchorNorm (W (Proc.devRef .tc main_arg0))) (keyNorm (W (Proc.devRef .tc main_arg2)))
            (W (Proc.devRef .tc main_v21)))) := by
  dsimp only [hostOps2, hostOps2_1, hostOps2_2, hostOps2_3, hostOps2_4, hostOps2_5, hostOps2_6, hostOps2_7, hostOps2_8,
    hostOps2_9, hostOps2_10]
  after_results_simp
  rfl

end Stretches

section Chain

variable (m : (ℓ : Loc nD τ sig) → Buf (Elt Ideal) ℓ) (outs : Outs (F := Ideal)) (c : Dev nD)

/-- An argument array is never written: through the first region and the stretch after it, it holds its launch contents. -/
theorem V4_arg0 : V4 m outs c main_arg0 = m ((c : Thread nD τ).loc main_arg0) :=
  (V4_of m outs c main_arg0 (by decide)).trans <| (V3_of m outs c main_arg0 (by decide)).trans <|
    (V2_of m outs c main_arg0 (by decide)).trans <| V1_of m c main_arg0 (by decide)

theorem V4_arg2 : V4 m outs c main_arg2 = m ((c : Thread nD τ).loc main_arg2) :=
  (V4_of m outs c main_arg2 (by decide)).trans <| (V3_of m outs c main_arg2 (by decide)).trans <|
    (V2_of m outs c main_arg2 (by decide)).trans <| V1_of m c main_arg2 (by decide)

/-- When the first region is entered, the reshaped voxel rows and memory rows are what the first stretch wrote. -/
theorem V1_v0 : V1 m c main_v0
    = shapeCast S64x32768 (m ((c : Thread nD τ).loc main_arg1) : Arr S64x32x32x32 .f32) shapeCasts_S64x32x32x32_S64x32768 :=
  after0_v0 (V0 m c)

theorem V1_v1 : V1 m c main_v1
    = shapeCast S2048x32768 (m ((c : Thread nD τ).loc main_arg3) : Arr S2048x32x32x32 .f32) shapeCasts_S2048x32x32x32_S2048x32768 :=
  after0_v1 (V0 m c)

/-- When the second region is entered, the two feature arguments hold their launch contents. -/
theorem V3_arg0 : V3 m outs c main_arg0 = m ((c : Thread nD τ).loc main_arg0) :=
  (V3_of m outs c main_arg0 (by decide)).trans <| (V2_of m outs c main_arg0 (by decide)).trans <| V1_of m c main_arg0 (by decide)

theorem V3_arg2 : V3 m outs c main_arg2 = m ((c : Thread nD τ).loc main_arg2) :=
  (V3_of m outs c main_arg2 (by decide)).trans <| (V2_of m outs c main_arg2 (by decide)).trans <| V1_of m c main_arg2 (by decide)

/-- When the stretch between the regions starts, the reshaped voxel rows are what the first stretch wrote, and the
    first region's two outputs are the unknowns. -/
theorem V2_v0 : V2 m outs c main_v0
    = shapeCast S64x32768 (m ((c : Thread nD τ).loc main_arg1) : Arr S64x32x32x32 .f32) shapeCasts_S64x32x32x32_S64x32768 :=
  (V2_of m outs c main_v0 (by decide)).trans (after0_v0 (V0 m c))

theorem V2_vw : V2 m outs c main_v2_0 = outs 2 main_v2_0 c := by
  show Function.update (Function.update (V1 m c) main_v2_0 (outs 2 main_v2_0 c)) main_v2_1 (outs 2 main_v2_1 c) main_v2_0 = _
  rw [Function.update_of_ne (devRef_ne_of_ne (by decide)), Function.update_self]

theorem V2_wsq : V2 m outs c main_v2_1 = outs 2 main_v2_1 c := by
  show Function.update (Function.update (V1 m c) main_v2_0 (outs 2 main_v2_0 c)) main_v2_1 (outs 2 main_v2_1 c) main_v2_1 = _
  rw [Function.update_self]

theorem V4_rd : V4 m outs c main_v21 = outs 4 main_v21 c := by
  show Function.update (V3 m outs c) main_v21 (outs 4 main_v21 c) main_v21 = _
  rw [Function.update_self]

theorem V4_pos : V4 m outs c main_v18
    = posMask (simTable (V2 m outs c main_v0) (V2 m outs c main_v2_0) (V2 m outs c main_v2_1)) :=
  (V4_of m outs c main_v18 (by decide)).trans (after1_pos (V2 m outs c))

theorem V4_neg : V4 m outs c main_v20
    = negMask (simTable (V2 m outs c main_v0) (V2 m outs c main_v2_0) (V2 m outs c main_v2_1)) :=
  (V4_of m outs c main_v20 (by decide)).trans (after1_neg (V2 m outs c))

/-- The kernel program's result is the host computation `KRes` of its four arguments and of what its two
    regions leave in their output arrays. -/
theorem kernel_res :
    V15 (F := Ideal) m outs c main_v54
      = KRes (m ((c : Thread nD τ).loc main_arg0)) (m ((c : Thread nD τ).loc main_arg1))
          (m ((c : Thread nD τ).loc main_arg2)) (m ((c : Thread nD τ).loc main_arg3))
          (outs 2 main_v2_0 c) (outs 2 main_v2_1 c) (outs 4 main_v21 c) := by
  refine (after2_res (V4 m outs c)).trans ?_
  rw [V4_pos, V4_neg, V4_arg0, V4_arg2, V4_rd, V2_v0, V2_vw, V2_wsq]
  rfl

end Chain

end Cert.KernelIdeal.Hand

end
-- ==== Proof.RefValue.lean ====
import proofs.«145568_j39152921870432_2_alg».proof.Proof.HostStages
import proofs.«145568_j39152921870432_2_alg».proof.Proof.RefRead

/-! # The reference program's result in the stages of the host computation

The reference program computes the same stages as `HostStages` names: its similarity table is `simTable` of
its own reshaped voxel rows, its own table of inner products (a transpose and a dot_general) and its own squared
norms of the memory rows (a row sum of squares); its norms are `anchorNorm` and `keyNorm`; its distance table
is one minus the dot_general of the normalised rows; and from the two masks and the distance table on it is
`lossTail`. Each of these is the same composition of operations, written out. -/

set_option maxRecDepth 8192

noncomputable section

namespace Cert.KernelIdeal.Hand

open Cert.KernelIdeal Cert.KernelIdeal.Gen Idealize.ShloMosaic Idealize.ShloMosaic.TcCoe Idealize.SL.Sem
open Cert.ReferenceIdeal.ReadP

variable (x0 : Arr S64x512 .f32) (x1 : Arr S64x32x32x32 .f32) (x2 : Arr S2048x512 .f32) (x3 : Arr S2048x32x32x32 .f32)

/-- The reference's voxel rows are the reshaped argument. -/
theorem ref_v0 : val_main_v0 (F := Ideal) x1 = shapeCast S64x32768 x1 shapeCasts_S64x32x32x32_S64x32768 := rfl

/-- The reference's mask of similarities above the threshold. -/
theorem ref_pos : val_main_v21 (F := Ideal) x1 x3
    = posMask (simTable (val_main_v0 (F := Ideal) x1) (val_main_v12 (F := Ideal) x1 x3) (val_main_v5 (F := Ideal) x3)) := rfl

/-- The reference's mask of similarities below the threshold. -/
theorem ref_neg : val_main_v23 (F := Ideal) x1 x3
    = negMask (simTable (val_main_v0 (F := Ideal) x1) (val_main_v12 (F := Ideal) x1 x3) (val_main_v5 (F := Ideal) x3)) := rfl

/-- The reference's clamped anchor norms. -/
theorem ref_an : val_main_v26 (F := Ideal) x0 = anchorNorm x0 := rfl

/-- The reference's clamped key norms. -/
theorem ref_kn : val_main_v29 (F := Ideal) x2 = keyNorm x2 := rfl

/-- The reference's distance table is one minus its dot_general of the normalised rows. -/
theorem ref_dist_stage : val_main_v37 (F := Ideal) x0 x2 = oneMinus (val_main_v35 (F := Ideal) x0 x2) := rfl

/-- From its two masks and its distance table on, the reference is `lossTail`. -/
theorem ref_tail : val_main_v57 (F := Ideal) x0 x1 x2 x3
    = lossTail (val_main_v21 (F := Ideal) x1 x3) (val_main_v23 (F := Ideal) x1 x3) (val_main_v37 (F := Ideal) x0 x2) := rfl

/-- The reference program's host computation in the stages of `HostStages`: the same as `KRes` with the
    reference's own inner products, squared norms and normalised dot_general in the three places where the
    programs differ. -/
def RRes (x0 : Arr S64x512 .f32) (x1 : Arr S64x32x32x32 .f32) (x2 : Arr S2048x512 .f32) (x3 : Arr S2048x32x32x32 .f32) :
    Arr S_ .f32 :=
  lossTail
    (posMask (simTable (shapeCast S64x32768 x1 shapeCasts_S64x32x32x32_S64x32768)
      (val_main_v12 (F := Ideal) x1 x3) (val_main_v5 (F := Ideal) x3)))
    (negMask (simTable (shapeCast S64x32768 x1 shapeCasts_S64x32x32x32_S64x32768)
      (val_main_v12 (F := Ideal) x1 x3) (val_main_v5 (F := Ideal) x3)))
    (oneMinus (val_main_v35 (F := Ideal) x0 x2))

/-- The reference program's result is `RRes` of its four arguments. -/
theorem ref_res : val_main_v57 (F := Ideal) x0 x1 x2 x3 = RRes x0 x1 x2 x3 := by
  rw [ref_tail, ref_pos, ref_neg, ref_dist_stage, ref_v0]
  rfl

end Cert.KernelIdeal.Hand

end
-- ==== Proof.NormAlgebra.lean ====
/-
  Three facts of real algebra, read inside the extended reals, about the
  normalised inner product  ⟨x, y⟩ / (‖x‖ · ‖y‖).

  * `norm_quotient`: for real vectors `x`, `y` and positive reals `A`, `B`,
    dividing the inner product by `A · B` equals the inner product of the
    vectors divided entrywise by `A` and by `B`:
        (∑ₖ xₖ yₖ) / (A B) = ∑ₖ (xₖ / A) (yₖ / B).
  * `clamped_norm_pos`: the square root of a nonnegative real, clamped from
    below by the positive constant ε (the single-precision pattern 0x322BCC77),
    is a positive real.
  * `sum_sq_nonneg_real`: a finite sum of squares of reals is a nonnegative real.

  Everything is an identity over ℝ; the work is moving the coercion
  ℝ → [-∞, +∞] through sums, products, quotients, maxima and square roots.
-/
import Idealize.ShloMosaic.PureOps.Ideal
import Idealize.ShloMosaic.PureOps.Ideal.Laws

namespace Cert.KernelIdeal.Hand

open Idealize.ShloMosaic
open scoped BigOperators

/-! ### The coercion of the reals into the extended reals -/

/-- The coercion commutes with a finite sum. -/
theorem coe_finset_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The coercion commutes with `max` (it is monotone). -/
theorem coe_max (a b : ℝ) : ((max a b : ℝ) : EReal) = max (a : EReal) (b : EReal) :=
  EReal.coe_strictMono.monotone.map_max

/-- The quotient of a real by a nonzero real is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-! ### The normalised inner product -/

/-- `(∑ₖ xₖ yₖ) / (A B) = ∑ₖ (xₖ / A) (yₖ / B)` for real `xₖ`, `yₖ` and positive real `A`, `B`. -/
theorem norm_quotient {n : ℕ} (x y : Fin n → EReal) (A B : EReal)
    (hx : ∀ k, ∃ r : ℝ, x k = (r : EReal)) (hy : ∀ k, ∃ r : ℝ, y k = (r : EReal))
    (hA : ∃ r : ℝ, 0 < r ∧ A = (r : EReal)) (hB : ∃ r : ℝ, 0 < r ∧ B = (r : EReal)) :
    Ideal.div (∑ k, x k * y k) (A * B) = ∑ k, Ideal.div (x k) A * Ideal.div (y k) B := by
  choose xr hxr using hx
  choose yr hyr using hy
  obtain ⟨a, ha, rfl⟩ := hA
  obtain ⟨b, hb, rfl⟩ := hB
  obtain rfl : x = fun k => (xr k : EReal) := funext hxr
  obtain rfl : y = fun k => (yr k : EReal) := funext hyr
  have ha0 : a ≠ 0 := ha.ne'
  have hb0 : b ≠ 0 := hb.ne'
  have hab : a * b ≠ 0 := mul_ne_zero ha0 hb0
  -- both sides are coercions of reals
  simp only [← EReal.coe_mul, ← coe_finset_sum, div_coe_coe _ hab, div_coe_coe _ ha0, div_coe_coe _ hb0]
  -- and over ℝ the identity is termwise
  congr 1
  rw [Finset.sum_div]
  refine Finset.sum_congr rfl fun k _ => ?_
  rw [div_mul_div_comm]

/-! ### The clamped norm -/

/-- The clamp ε: the pattern 0x322BCC77 denotes 11258999 · 2⁻⁵⁰, a positive real. -/
theorem eps_pos : ∃ r : ℝ, 0 < r ∧ Ideal.ofBits .f32 0x322BCC77#32 = (r : EReal) := by
  refine ⟨11258999 * (2 : ℝ) ^ (-50 : ℤ), by positivity, ?_⟩
  simp [Ideal.ofBits, Ideal.ieee]

/-- `max (√s) ε` is a positive real when `s` is a nonnegative real. -/
theorem clamped_norm_pos (s : EReal) (hs : ∃ r : ℝ, 0 ≤ r ∧ s = (r : EReal)) :
    ∃ r : ℝ, 0 < r ∧ max (Ideal.sqrt s) (Ideal.ofBits .f32 0x322BCC77#32) = (r : EReal) := by
  obtain ⟨r, hr, rfl⟩ := hs
  obtain ⟨e, he, hE⟩ := eps_pos
  rw [hE, Ideal.sqrt_coe, if_neg (not_lt.2 hr)]
  exact ⟨max (Real.sqrt r) e, lt_max_of_lt_right he, (coe_max _ _).symm⟩

/-- The same, read at one index of arrays: the square root and the maximum taken entrywise,
    the clamp an array whose entry at that index is ε. -/
theorem clamped_norm_pos_at {s : Shape} (v c : FVec Ideal s .f32) (i : s.Idx)
    (hc : c i = Ideal.ofBits .f32 0x322BCC77#32) (hs : ∃ r : ℝ, 0 ≤ r ∧ v i = (r : EReal)) :
    ∃ r : ℝ, 0 < r ∧ maximumf (Host.sqrt v) c i = (r : EReal) := by
  show ∃ r : ℝ, 0 < r ∧ max (Ideal.sqrt (v i)) (c i) = (r : EReal)
  rw [hc]
  exact clamped_norm_pos (v i) hs

/-! ### Sums of squares -/

/-- A finite sum of squares of reals is a nonnegative real. -/
theorem sum_sq_nonneg_real {n : ℕ} (x : Fin n → EReal) (hx : ∀ k, ∃ r : ℝ, x k = (r : EReal)) :
    ∃ r : ℝ, 0 ≤ r ∧ (∑ k, x k * x k) = (r : EReal) := by
  choose xr hxr using hx
  refine ⟨∑ k, xr k * xr k, Finset.sum_nonneg fun k _ => mul_self_nonneg _, ?_⟩
  rw [coe_finset_sum]
  exact Finset.sum_congr rfl fun k _ => by rw [hxr k, EReal.coe_mul]

/-- The same with the sum started from the zero pattern (which denotes 0). -/
theorem zero_add_sum_sq_nonneg_real {n : ℕ} (x : Fin n → EReal) (hx : ∀ k, ∃ r : ℝ, x k = (r : EReal)) :
    ∃ r : ℝ, 0 ≤ r ∧ Ideal.ofBits .f32 0x00000000#32 + (∑ k, x k * x k) = (r : EReal) := by
  rw [Ideal.ofBits_zero_f32, zero_add]
  exact sum_sq_nonneg_real x hx

end Cert.KernelIdeal.Hand
-- ==== Proof.RefStages.lean ====
/-
  Three stages of the reference program, read at one entry.

  With v the [64, 32768] reshape of the first voxel array and w the
  [2048, 32768] reshape of the second:

  * `ref_vw`:  the product of v with the transpose of w, at (p, q), is the
    inner product  ∑ₙ v(p, n) · w(q, n).
  * `ref_wsq`: the row sums of w ∘ w, at q, are  ∑ₙ w(q, n)².
  * `ref_dot`: the product of the row-normalised features with the transpose of
    the row-normalised keys, at (p, q), is
        (∑ₖ a(p, k) · key(q, k)) / (‖a(p)‖ · ‖key(q)‖),
    and `ref_kd` is one minus it, where the clamped norms ‖·‖ = max(√(∑ₖ ·²), ε) are positive reals as soon
    as every entry of the two arrays is a real: over the reals
        ∑ₖ (aₖ / A) (bₖ / B) = (∑ₖ aₖ bₖ) / (A B)        (A, B > 0).

  The first two are the stage's own sum with its index maps written as
  coordinates (a transposed operand read at (n, q) is the operand at (q, n)).
-/
import proofs.«145568_j39152921870432_2_alg».proof.Proof.RefRead
import proofs.«145568_j39152921870432_2_alg».proof.Proof.NormAlgebra
import proofs.«145568_j39152921870432_2_alg».proof.Proof.HostStages
import Idealize.ShloMosaic.Lib.ValueIdx

noncomputable section

namespace Cert.KernelIdeal.Hand

open Cert.ReferenceIdeal Idealize.ShloMosaic Idealize.SL.Sem
open scoped BigOperators

/-! ### The two regrouped sums -/

/-- v · wᵀ at (p, q) is ∑ₙ v(p, n) · w(q, n). -/
theorem ref_vw (a1 : (⟨Cert.ReferenceIdeal.S64x32x32x32, .f32⟩ : BufTy).Contents (Elt Ideal))
    (a3 : (⟨Cert.ReferenceIdeal.S2048x32x32x32, .f32⟩ : BufTy).Contents (Elt Ideal)) (p : Fin 64) (q : Fin 2048) :
    ReadP.val_main_v12 (F := Ideal) a1 a3 (ValueIdx.ix2 p q)
      = ∑ n : Fin 32768, ReadP.val_main_v0 (F := Ideal) a1 (ValueIdx.ix2 p n)
          * ReadP.val_main_v1 (F := Ideal) a3 (ValueIdx.ix2 q n) := by
  rw [ReadP.val_main_v12_apply]
  refine Finset.sum_congr rfl fun n _ => ?_
  rw [ReadP.val_main_v11_apply]
  have e1 : ReadP.lidx_main_v12 (ValueIdx.ix2 p q) n = ValueIdx.ix2 p n :=
    funext fun a => Fin.ext (by match a with | ⟨0, _⟩ => rfl | ⟨1, _⟩ => rfl)
  have e2 : ReadP.idx_main_v11 (ReadP.ridx_main_v12 (ValueIdx.ix2 p q) n) = ValueIdx.ix2 q n :=
    funext fun a => Fin.ext (by match a with | ⟨0, _⟩ => rfl | ⟨1, _⟩ => rfl)
  rw [e1, e2]

/-- The row sums of w ∘ w at q are ∑ₙ w(q, n)² (the sum starts from the zero pattern, which denotes 0). -/
theorem ref_wsq (a3 : (⟨Cert.ReferenceIdeal.S2048x32x32x32, .f32⟩ : BufTy).Contents (Elt Ideal)) (q : Fin 2048) :
    ReadP.val_main_v5 (F := Ideal) a3 (ValueIdx.ix1 q)
      = ∑ n : Fin 32768, ReadP.val_main_v1 (F := Ideal) a3 (ValueIdx.ix2 q n)
          * ReadP.val_main_v1 (F := Ideal) a3 (ValueIdx.ix2 q n) := by
  rw [ReadP.val_main_v5_apply, ReadP.val_main_cst_0_apply, Ideal.ofBits_def, Ideal.ofBits_zero_f32, zero_add]
  refine Finset.sum_congr rfl fun n _ => ?_
  rw [ReadP.val_main_v4_apply, Ideal.mulf_def]
  have e : ReadP.idx_main_v5 (ValueIdx.ix1 q) n = ValueIdx.ix2 q n :=
    funext fun a => Fin.ext (by match a with | ⟨0, _⟩ => rfl | ⟨1, _⟩ => rfl)
  rw [e]

/-! ### The clamped norms are positive reals -/

/-- ‖a(p)‖ = max(√(∑ₖ a(p, k)²), ε) is a positive real when every entry of a is a real. -/
theorem ref_an_pos (a0 : (⟨Cert.ReferenceIdeal.S64x512, .f32⟩ : BufTy).Contents (Elt Ideal))
    (ha : ∀ i, ∃ r : ℝ, a0 i = (r : EReal)) (i : Cert.ReferenceIdeal.S64x1.Idx) :
    ∃ r : ℝ, 0 < r ∧ ReadP.val_main_v26 (F := Ideal) a0 i = (r : EReal) := by
  refine clamped_norm_pos_at (ReadP.val_main_call0_v2 (F := Ideal) a0) (ReadP.val_main_v25 (F := Ideal)) i rfl ?_
  rw [ReadP.val_main_call0_v2_apply, ReadP.val_main_call0_v1_apply, ReadP.val_main_call0_cst_apply, Ideal.ofBits_def]
  exact zero_add_sum_sq_nonneg_real (fun k => a0 (ReadP.idx_main_call0_v1 (ReadP.idx_main_call0_v2 i) k)) (fun k => ha _)

/-- ‖key(q)‖ = max(√(∑ₖ key(q, k)²), ε) is a positive real when every entry of key is a real. -/
theorem ref_kn_pos (a2 : (⟨Cert.ReferenceIdeal.S2048x512, .f32⟩ : BufTy).Contents (Elt Ideal))
    (hk : ∀ i, ∃ r : ℝ, a2 i = (r : EReal)) (i : Cert.ReferenceIdeal.S2048x1.Idx) :
    ∃ r : ℝ, 0 < r ∧ ReadP.val_main_v29 (F := Ideal) a2 i = (r : EReal) := by
  refine clamped_norm_pos_at (ReadP.val_main_call1_v2 (F := Ideal) a2) (ReadP.val_main_v28 (F := Ideal)) i rfl ?_
  rw [ReadP.val_main_call1_v2_apply, ReadP.val_main_call1_v1_apply, ReadP.val_main_call1_cst_apply, Ideal.ofBits_def]
  exact zero_add_sum_sq_nonneg_real (fun k => a2 (ReadP.idx_main_call1_v1 (ReadP.idx_main_call1_v2 i) k)) (fun k => hk _)

/-! ### The cosine similarity and distance -/

/-- (a/‖a‖) · (key/‖key‖)ᵀ at (p, q) is (∑ₖ a(p, k) · key(q, k)) / (‖a(p)‖ · ‖key(q)‖), the norms as the
    reference's own stages. -/
theorem ref_dot_stage (a0 : (⟨Cert.ReferenceIdeal.S64x512, .f32⟩ : BufTy).Contents (Elt Ideal))
    (a2 : (⟨Cert.ReferenceIdeal.S2048x512, .f32⟩ : BufTy).Contents (Elt Ideal))
    (ha : ∀ i, ∃ r : ℝ, a0 i = (r : EReal)) (hk : ∀ i, ∃ r : ℝ, a2 i = (r : EReal))
    (p : Fin 64) (q : Fin 2048) :
    ReadP.val_main_v35 (F := Ideal) a0 a2 (ValueIdx.ix2 p q)
      = Ideal.div (∑ k : Fin 512, a0 (ValueIdx.ix2 p k) * a2 (ValueIdx.ix2 q k))
          (ReadP.val_main_v26 (F := Ideal) a0 (ValueIdx.ix2 p 0)
            * ReadP.val_main_v29 (F := Ideal) a2 (ValueIdx.ix2 q 0)) := by
  rw [ReadP.val_main_v35_apply]
  rw [norm_quotient (fun k => a0 (ValueIdx.ix2 p k)) (fun k => a2 (ValueIdx.ix2 q k)) _ _
    (fun k => ha _) (fun k => hk _) (ref_an_pos a0 ha _) (ref_kn_pos a2 hk _)]
  refine Finset.sum_congr rfl fun k _ => ?_
  rw [ReadP.val_main_v31_apply, ReadP.val_main_v30_apply, ReadP.val_main_v34_apply, ReadP.val_main_v33_apply,
    ReadP.val_main_v32_apply, Ideal.hostDivf_def, Ideal.hostDivf_def]
  have e1 : ReadP.lidx_main_v35 (ValueIdx.ix2 p q) k = ValueIdx.ix2 p k :=
    funext fun a => Fin.ext (by match a with | ⟨0, _⟩ => rfl | ⟨1, _⟩ => rfl)
  have e2 : ReadP.idx_main_v30 (ValueIdx.ix2 p k) = ValueIdx.ix2 p 0 :=
    funext fun a => Fin.ext (by match a with | ⟨0, _⟩ => rfl | ⟨1, _⟩ => rfl)
  have e3 : ReadP.idx_main_v34 (ReadP.ridx_main_v35 (ValueIdx.ix2 p q) k) = ValueIdx.ix2 q k :=
    funext fun a => Fin.ext (by match a with | ⟨0, _⟩ => rfl | ⟨1, _⟩ => rfl)
  have e4 : ReadP.idx_main_v32 (ValueIdx.ix2 q k) = ValueIdx.ix2 q 0 :=
    funext fun a => Fin.ext (by match a with | ⟨0, _⟩ => rfl | ⟨1, _⟩ => rfl)
  rw [e1, e2, e3, e4]

/-- The reference's clamped anchor norms are the named stage `anchorNorm`, operation for operation. -/
theorem val_main_v26_eq_anchorNorm (a0 : (⟨Cert.ReferenceIdeal.S64x512, .f32⟩ : BufTy).Contents (Elt Ideal)) :
    ReadP.val_main_v26 (F := Ideal) a0 = anchorNorm a0 := rfl

/-- The reference's clamped key norms are the named stage `keyNorm`, operation for operation. -/
theorem val_main_v29_eq_keyNorm (a2 : (⟨Cert.ReferenceIdeal.S2048x512, .f32⟩ : BufTy).Contents (Elt Ideal)) :
    ReadP.val_main_v29 (F := Ideal) a2 = keyNorm a2 := rfl

/-- The same with the norms as the named stages `anchorNorm`, `keyNorm`. -/
theorem ref_dot (a0 : (⟨Cert.ReferenceIdeal.S64x512, .f32⟩ : BufTy).Contents (Elt Ideal))
    (a2 : (⟨Cert.ReferenceIdeal.S2048x512, .f32⟩ : BufTy).Contents (Elt Ideal))
    (ha : ∀ i, ∃ r : ℝ, a0 i = (r : EReal)) (hk : ∀ i, ∃ r : ℝ, a2 i = (r : EReal))
    (p : Fin 64) (q : Fin 2048) :
    ReadP.val_main_v35 (F := Ideal) a0 a2 (ValueIdx.ix2 p q)
      = Ideal.div (∑ k : Fin 512, a0 (ValueIdx.ix2 p k) * a2 (ValueIdx.ix2 q k))
          (anchorNorm a0 (ValueIdx.ix2 p 0) * keyNorm a2 (ValueIdx.ix2 q 0)) := by
  rw [← val_main_v26_eq_anchorNorm, ← val_main_v29_eq_keyNorm]
  exact ref_dot_stage a0 a2 ha hk p q

/-- 1 − (a/‖a‖) · (key/‖key‖)ᵀ at (p, q) is 1 − (∑ₖ a(p, k) · key(q, k)) / (‖a(p)‖ · ‖key(q)‖). -/
theorem ref_kd (a0 : (⟨Cert.ReferenceIdeal.S64x512, .f32⟩ : BufTy).Contents (Elt Ideal))
    (a2 : (⟨Cert.ReferenceIdeal.S2048x512, .f32⟩ : BufTy).Contents (Elt Ideal))
    (ha : ∀ i, ∃ r : ℝ, a0 i = (r : EReal)) (hk : ∀ i, ∃ r : ℝ, a2 i = (r : EReal))
    (p : Fin 64) (q : Fin 2048) :
    ReadP.val_main_v37 (F := Ideal) a0 a2 (ValueIdx.ix2 p q)
      = Ideal.ofBits .f32 0x3F800000#32
          - Ideal.div (∑ k : Fin 512, a0 (ValueIdx.ix2 p k) * a2 (ValueIdx.ix2 q k))
              (ReadP.val_main_v26 (F := Ideal) a0 (ValueIdx.ix2 p 0)
                * ReadP.val_main_v29 (F := Ideal) a2 (ValueIdx.ix2 q 0)) := by
  rw [ReadP.val_main_v37_apply, ReadP.val_main_v36_apply, ReadP.val_main_cst_8_apply, Ideal.subf_def,
    Ideal.ofBits_def, ref_dot_stage a0 a2 ha hk p q]

end Cert.KernelIdeal.Hand

end
-- ==== Proof.Bridge.lean ====
import proofs.«145568_j39152921870432_2_alg».proof.Proof.HostStages
import proofs.«145568_j39152921870432_2_alg».proof.Proof.RefValue
import proofs.«145568_j39152921870432_2_alg».proof.Proof.RefStages
import Idealize.ShloMosaic.Lib.Pipeline.Value
import Idealize.ShloMosaic.Lib.ValueIdx

/-! # The two host computations agree

`KRes` and `RRes` are the same stages applied to three arrays that the two programs obtain differently: the
table of inner products of the voxel rows with the memory rows, the squared norms of the memory rows, and the
quotient of the anchor-key inner products by the products of the norms. When what the kernel's regions leave
are those sums, the first two arrays are equal entry by entry to the reference's dot_general and row sum; and
for finite inputs the quotient of a sum by a product of two positive reals is the sum of the products of the
quotients, which is the reference's dot_general of the normalised rows. -/

noncomputable section

namespace Cert.KernelIdeal.Hand

open Cert.KernelIdeal Cert.KernelIdeal.Gen Idealize.ShloMosaic Idealize.ShloMosaic.TcCoe Idealize.SL.Sem
open Cert.ReferenceIdeal.ReadP
open scoped BigOperators

/-- The scaled table read at `(p, q)`: the entry divided by the product of row `p`'s and row `q`'s norms. -/
theorem scaledDot_apply (an : Arr S64x1 .f32) (kn : Arr S2048x1 .f32) (rd : Arr S64x2048 .f32) (p : Fin 64) (q : Fin 2048) :
    scaledDot an kn rd (ValueIdx.ix2 p q)
      = Ideal.div (rd (ValueIdx.ix2 p q)) (an (ValueIdx.ix2 p 0) * kn (ValueIdx.ix2 q 0)) := by
  have hA : broadcastInDim S64x2048 ![0, 1] bcast_S64x1_S64x2048_0_1 an (ValueIdx.ix2 p q) = an (ValueIdx.ix2 p 0) :=
    broadcastInDim_apply _ bcast_S64x1_S64x2048_0_1 an (ValueIdx.ix2 p q) (ValueIdx.ix2 p 0) (fun a => match a with
      | ⟨0, _⟩ => by show p.val = if (64 : Nat) = 1 then 0 else p.val; rw [if_neg (by decide)]
      | ⟨1, _⟩ => by show 0 = if (1 : Nat) = 1 then 0 else q.val; rw [if_pos rfl])
  have hK : broadcastInDim S64x2048 ![0, 1] bcast_S1x2048_S64x2048_0_1 (shapeCast S1x2048 kn shapeCasts_S2048x1_S1x2048)
      (ValueIdx.ix2 p q) = kn (ValueIdx.ix2 q 0) := by
    refine (broadcastInDim_apply _ bcast_S1x2048_S64x2048_0_1 (shapeCast S1x2048 kn shapeCasts_S2048x1_S1x2048)
      (ValueIdx.ix2 p q) (ValueIdx.ix2 0 q) (fun a => match a with
        | ⟨0, _⟩ => by show 0 = if (1 : Nat) = 1 then 0 else p.val; rw [if_pos rfl]
        | ⟨1, _⟩ => by show q.val = if (2048 : Nat) = 1 then 0 else q.val; rw [if_neg (by decide)])).trans ?_
    exact shapeCast_apply kn shapeCasts_S2048x1_S1x2048 (ValueIdx.ix2 0 q) (ValueIdx.ix2 q 0)
      (by rewrite [Shape.rowMajor_val_two, Shape.rowMajor_val_two]; show q.val * 1 + 0 = 0 * 2048 + q.val; omega)
  unfold scaledDot
  show FloatOps.hostDivf (F := Ideal) (φ := .f32) (rd (ValueIdx.ix2 p q))
      (FloatOps.mulf (F := Ideal) (φ := .f32) (broadcastInDim S64x2048 ![0, 1] bcast_S64x1_S64x2048_0_1 an (ValueIdx.ix2 p q))
        (broadcastInDim S64x2048 ![0, 1] bcast_S1x2048_S64x2048_0_1 (shapeCast S1x2048 kn shapeCasts_S2048x1_S1x2048)
          (ValueIdx.ix2 p q))) = _
  rw [hA, hK]
  rfl

/-- The two programs' host computations agree when the regions leave the three sums and the two feature
    arguments are finite. -/
theorem bridge (a0 : Arr S64x512 .f32) (a1 : Arr S64x32x32x32 .f32) (a2 : Arr S2048x512 .f32) (a3 : Arr S2048x32x32x32 .f32)
    (vw : Arr S64x2048 .f32) (wsq : Arr S2048 .f32) (rd : Arr S64x2048 .f32)
    (h0 : ∀ i, ∃ r : ℝ, a0 i = (r : EReal)) (h2 : ∀ i, ∃ r : ℝ, a2 i = (r : EReal))
    (hvw : ∀ (p : Fin 64) (q : Fin 2048), vw (ValueIdx.ix2 p q)
      = ∑ n : Fin 32768, shapeCast S64x32768 a1 shapeCasts_S64x32x32x32_S64x32768 (ValueIdx.ix2 p n)
          * shapeCast S2048x32768 a3 shapeCasts_S2048x32x32x32_S2048x32768 (ValueIdx.ix2 q n))
    (hwsq : ∀ q : Fin 2048, wsq (ValueIdx.ix1 q)
      = ∑ n : Fin 32768, shapeCast S2048x32768 a3 shapeCasts_S2048x32x32x32_S2048x32768 (ValueIdx.ix2 q n)
          * shapeCast S2048x32768 a3 shapeCasts_S2048x32x32x32_S2048x32768 (ValueIdx.ix2 q n))
    (hrd : ∀ (p : Fin 64) (q : Fin 2048), rd (ValueIdx.ix2 p q)
      = ∑ k : Fin 512, a0 (ValueIdx.ix2 p k) * a2 (ValueIdx.ix2 q k)) :
    KRes a0 a1 a2 a3 vw wsq rd = RRes a0 a1 a2 a3 := by
  have e1 : vw = val_main_v12 (F := Ideal) a1 a3 := by
    funext i
    obtain ⟨p, q, rfl⟩ : ∃ (p : Fin 64) (q : Fin 2048), i = ValueIdx.ix2 p q := ⟨i 0, i 1, ValueIdx.eq_ix2 i⟩
    exact (hvw p q).trans (ref_vw a1 a3 p q).symm
  have e2 : wsq = val_main_v5 (F := Ideal) a3 := by
    funext i
    obtain ⟨q, rfl⟩ : ∃ q : Fin 2048, i = ValueIdx.ix1 q := ⟨i 0, ValueIdx.eq_ix1 i⟩
    exact (hwsq q).trans (ref_wsq a3 q).symm
  have e3 : scaledDot (anchorNorm a0) (keyNorm a2) rd = val_main_v35 (F := Ideal) a0 a2 := by
    funext i
    obtain ⟨p, q, rfl⟩ : ∃ (p : Fin 64) (q : Fin 2048), i = ValueIdx.ix2 p q := ⟨i 0, i 1, ValueIdx.eq_ix2 i⟩
    rw [scaledDot_apply, hrd p q]
    exact (ref_dot a0 a2 h0 h2 p q).symm
  unfold KRes RRes
  rw [e1, e2, e3]

end Cert.KernelIdeal.Hand

end
-- ==== Proof.GemmBody.lean ====
/-
  Region 0: the tiled product v·wᵀ with the fused row sums of w², over a 4 × 16 grid.

  Grid point t has coordinates (i, j) = (t / 16, t % 16): i picks a band of 512 rows of w, j a tile of 2048 columns.
  The body keeps two accumulators in scratch: a [64, 512] block of the product and a [512] vector of the row sums.
  At j = 0 it first stores zeros into both; at every point it adds the tile's contribution,
      acc ↦ acc + v_tile · w_tileᵀ      and      s ↦ s + Σ_k w_tile[·, k]²;
  at j = 15 it copies both accumulators into the two output blocks, which the pipeline then writes back to rows
  512·i … 512·i + 511. At the other points the output windows are idle.

  This module states, point by point, what the accumulators hold (accAt0), the invariant that carries them from
  one point to the next, and the proof data of the region; that the body meets it is shown elsewhere, case by case
  (j = 0, 0 < j < 15, j = 15).
-/
import proofs.«145568_j39152921870432_2_alg».proof.Proof.Gen.KernelIdeal.Launch
import proofs.«145568_j39152921870432_2_alg».proof.Proof.Gen.KernelIdeal.Skeleton
import proofs.«145568_j39152921870432_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulation -/

/-- One point's contribution added to the two accumulators: the product block gains v_tile · w_tileᵀ, the row sums
    gain the tile's sums of squares. -/
def step0 (c : Dev nD) (t : Fin cfg0.N) (s : Vec F S64x512 .f32 × Vec F S512 .f32) : Vec F S64x512 .f32 × Vec F S512 .f32 :=
  (k0_pay4 (iblk0 V c 1 t) (iblk0 V c 0 t) s.1, k0_pay5 (iblk0 V c 1 t) s.2)

/-- The zero accumulators a band starts from. -/
def zero0 : Vec F S64x512 .f32 × Vec F S512 .f32 := (k0_pay1, k0_pay2)

/-- What the two accumulators hold after the body at position n: at the first tile of a band (n % 16 = 0) the
    contribution added to zero, otherwise added to what the point before left. -/
def accAt0 (c : Dev nD) : (n : ℕ) → n < cfg0.N → Vec F S64x512 .f32 × Vec F S512 .f32
  | 0, hn => step0 V c ⟨0, hn⟩ zero0
  | n + 1, hn => step0 V c ⟨n + 1, hn⟩ (if (n + 1) % 16 = 0 then zero0 else accAt0 c n (Nat.lt_of_succ_lt hn))

theorem accAt0_first (c : Dev nD) (t : Fin cfg0.N) (h : t.val % 16 = 0) :
    accAt0 V c t.val t.isLt = step0 V c t zero0 := by
  obtain ⟨n, hn⟩ := t
  cases n with
  | zero => rfl
  | succ n => exact congrArg (step0 V c ⟨n + 1, hn⟩) (if_pos h)

theorem accAt0_next (c : Dev nD) (t : Fin cfg0.N) (h : ¬ t.val % 16 = 0) :
    accAt0 V c t.val t.isLt = step0 V c t (accAt0 V c (t.val - 1) (Nat.lt_of_le_of_lt (Nat.sub_le _ _) t.isLt)) := by
  obtain ⟨n, hn⟩ := t
  cases n with
  | zero => exact absurd (Nat.zero_mod _) h
  | succ n => exact congrArg (step0 V c ⟨n + 1, hn⟩) (if_neg h)

/-! ## The invariant between points -/

/-- The two scratch accumulators, as whole memrefs. -/
abbrev scM0_0 : Memref sig .tc .vmem S64x512 .f32 := Memref.whole cc0_scratch0
abbrev scM0_1 : Memref sig .tc .vmem S512 .f32 := Memref.whole cc0_scratch1

/-- The scoped buffers this region never touches (the other region's staging buffers), each whole at some contents. -/
def restS0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f))

/-- Before position n: at the start every scoped buffer at anything; afterwards the two accumulators at what the
    point before left, the untouched scoped buffers at anything, the generator register at some state. -/
def PhiS0 (c : Dev nD) : (n : ℕ) → n ≤ cfg0.N → sProp 𝕄
  | 0, _ => Pipeline.ΦA spec0 c
  | n + 1, hn => iprop(owns (c : Thread nD τ) scM0_0 fullShare (accAt0 V c n hn).1
      ∗ owns (c : Thread nD τ) scM0_1 fullShare (accAt0 V c n hn).2 ∗ restS0 c ∗ (∃ r, prngReg c r))

/-! ## The proof data -/

/-- The arrays as the region finds them; after the body at point t the inputs' buffers at their blocks and the
    outputs' at the accumulators (consulted only at the last tile of a band, where the body stores them);
    the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (accAt0 V c t.val t.isLt).1
    | ⟨3, _⟩ => (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (accAt0 V c t.val t.isLt).1 := by dsimp only [dat0]
theorem after0_3 (c : Dev nD) (t : Fin cfg0.N) : (dat0 V c).after 3 t = (accAt0 V c t.val t.isLt).2 := by dsimp only [dat0]

end Cert.KernelIdeal.Hand

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibLinearLayer.lean ====
/-
  A linear layer  mean · Wlᵀ + b + x · Wrᵀ  over the extended reals, read at an output index.

  The weights are stored [o, k] (output features by input features); a kernel transposes each weight to [k, o] and
  multiplies it from the left by an [n, k] block into a zero accumulator, so the product's (p, q) entry is the sum over
  the k input features of block (p, j) · weight (q, j).  The bias is a row [1, o] broadcast down the n rows.  The whole
  layer at (p, q) is therefore

      (∑ j, mean (p, j) · Wl (q, j)) + b (0, q) + ∑ j, x (p, j) · Wr (q, j),

  associated as the operations are applied: the first product, then the bias, then the second product.
  A change of float format on the way into a product is the identity on extended reals.
-/
import Idealize.ShloMosaic.Lib.ValueIdx
import Idealize.ShloMosaic.Lib.ValueLayout
import Idealize.ShloMosaic.Lib.Pipeline.Value
import Idealize.ShloMosaic.PureOps.Ideal.Laws
import proofs.«145568_j39152921870432_2_alg».proof.Proof.LibPlainDot

noncomputable section

namespace Cert.Lib.LinearLayer

open Idealize.ShloMosaic Idealize.ShloMosaic.ValueIdx

/-- An [a, b] array of extended reals. -/
abbrev Mat (a b : Nat) : Type := (⟨2, ![a, b]⟩ : Shape).Idx → EReal

/-- The layer at row `p`, output feature `q`. -/
def lin {n k o : Nat} (mean x : Mat n k) (Wl Wr : Mat o k) (b : Mat 1 o) (p : Fin n) (q : Fin o) : EReal :=
  (∑ j : Fin k, mean (ix2 p j) * Wl (ix2 q j)) + b (ix2 (0 : Fin 1) q) + ∑ j : Fin k, x (ix2 p j) * Wr (ix2 q j)

/-- One product with a bias: `z · Wᵀ + b` at row `p`, output feature `q`. -/
def proj {n k o : Nat} (z : Mat n k) (W : Mat o k) (b : Mat 1 o) (p : Fin n) (q : Fin o) : EReal :=
  (∑ j : Fin k, z (ix2 p j) * W (ix2 q j)) + b (ix2 (0 : Fin 1) q)

/-- The layer over whole arrays. -/
def layer {n k o : Nat} (mean x : Mat n k) (Wl Wr : Mat o k) (b : Mat 1 o) : Mat n o :=
  fun i => lin mean x Wl Wr b (i 0) (i 1)

/-- The layer followed by the maximum with the f32 zero word, over whole arrays. -/
def reluLayer {n k o : Nat} (mean x : Mat n k) (Wl Wr : Mat o k) (b : Mat 1 o) : Mat n o :=
  fun i => max (lin mean x Wl Wr b (i 0) (i 1)) (Ideal.ofBits .f32 0x00000000#32)

/-- The product with a bias over whole arrays. -/
def projLayer {n k o : Nat} (z : Mat n k) (W : Mat o k) (b : Mat 1 o) : Mat n o :=
  fun i => proj z W b (i 0) (i 1)

/-- A block times a transposed weight into a zero accumulator, at (p, q): the sum over the shared axis of
    block (p, j) · weight (q, j). -/
theorem matmul_transposed_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (w : FVec Ideal ⟨2, ![N, K]⟩ φ₂)
    (ht : (⟨2, ![N, K]⟩ : Shape).Transposes [1, 0] ⟨2, ![K, N]⟩) (p : Fin M) (q : Fin N) :
    FloatOps.matmul (Cert.Lib.plainDot M K N wf) prec l (transpose ⟨2, ![K, N]⟩ [1, 0] w ht)
        (constant (F := Ideal) ⟨2, ![M, N]⟩ .f32 0x00000000#32) (ix2 p q)
      = ∑ j : Fin K, l (ix2 p j) * w (ix2 q j) := by
  rw [Cert.Lib.matmul_zero_apply]
  exact Finset.sum_congr rfl fun j _ => by rw [transpose_ix2_apply]

/-- The host's product of an array with a transposed weight, at (p, q). -/
theorem dotGeneral_transposed_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (w : FVec Ideal ⟨2, ![N, K]⟩ φ₂)
    (ht : (⟨2, ![N, K]⟩ : Shape).Transposes [1, 0] ⟨2, ![K, N]⟩) (p : Fin M) (q : Fin N) :
    FloatOps.dotGeneral (Cert.Lib.plainDot M K N wf) prec sched l (transpose ⟨2, ![K, N]⟩ [1, 0] w ht) (ix2 p q)
      = ∑ j : Fin K, l (ix2 p j) * w (ix2 q j) := by
  rw [Cert.Lib.dotGeneral_plain_apply]
  exact Finset.sum_congr rfl fun j _ => by rw [transpose_ix2_apply]

end Cert.Lib.LinearLayer

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.GemmStep.lean ====
/-
  One grid point of the tiled product, read at an index, over the extended reals.

  A point holds a [64, 2048] tile xv of v and a [512, 2048] tile xw of w. The product accumulator gains
      (xv · xwᵀ)(p, q) = Σ_k xv(p, k) · xw(q, k),
  the row-sum accumulator gains Σ_k xw(q, k)², and a band starts from zeros. The tiles themselves are rectangles of
  the two arrays: the tile of v at point t starts at column 2048·(t mod 16), the tile of w at row 512·(t div 16) and the
  same column.
-/
import proofs.«145568_j39152921870432_2_alg».proof.Proof.GemmBody
import proofs.«145568_j39152921870432_2_alg».proof.Proof.LibLinearLayer
import proofs.«145568_j39152921870432_2_alg».proof.Proof.LibAxisSums
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Cert.KernelIdeal Cert.KernelIdeal.Gen

/-! ## The payloads at an index -/

/-- The product accumulator after one point, at (p, q): what it held plus the tile's inner product of row p of the
    v-tile with row q of the w-tile. -/
theorem pay4_apply (xw : Vec Ideal S512x2048 .f32) (xv : Vec Ideal S64x2048 .f32) (acc : Vec Ideal S64x512 .f32)
    (p : Fin 64) (q : Fin 512) :
    k0_pay4 (F := Ideal) xw xv acc (ix2 p q) = acc (ix2 p q) + ∑ k : Fin 2048, xv (ix2 p k) * xw (ix2 q k) := by
  unfold k0_pay4 k0_pay3
  simp only [shapeCast_self]
  refine (addf_apply _ _ _).trans ?_
  refine congrArg (acc (ix2 p q) + ·) ?_
  exact Cert.Lib.LinearLayer.matmul_transposed_apply (M := 64) (K := 2048) (N := 512)
    dot_S64x2048_S2048x512_S64x512_1_0_0_1_n_n_wf (some .fp32) xv xw transposes_S512x2048_p1_0_S2048x512 p q

/-- The row-sum accumulator after one point, at q: what it held plus the sum of squares of row q of the w-tile. -/
theorem pay5_apply (xw : Vec Ideal S512x2048 .f32) (s : Vec Ideal S512 .f32) (q : Fin 512) :
    k0_pay5 (F := Ideal) xw s (ix1 q) = s (ix1 q) + ∑ k : Fin 2048, xw (ix2 q k) * xw (ix2 q k) := by
  unfold k0_pay5 k0_pay3
  simp only [shapeCast_self]
  refine (addf_apply _ _ _).trans ?_
  refine congrArg (s (ix1 q) + ·) ?_
  refine (Cert.Lib.rowSum_apply (a := 512) (b := 2048) (mulf xw xw) 0x00000000#32 reduces_S512x2048_S512 (.inl rfl) rfl q).trans ?_
  exact Finset.sum_congr rfl fun k _ => mulf_apply _ _ _

/-- A band's product accumulator starts from zero. -/
theorem pay1_apply (j : S64x512.Idx) : k0_pay1 (F := Ideal) j = 0 := by
  unfold k0_pay1
  simp only [shapeCast_self]
  exact Ideal.ofBits_zero_f32

/-- A band's row-sum accumulator starts from zero. -/
theorem pay2_apply (j : S512.Idx) : k0_pay2 (F := Ideal) j = 0 := by
  unfold k0_pay2
  simp only [shapeCast_self]
  exact Ideal.ofBits_zero_f32

/-! ## The tiles at an index -/

variable (V : (c : Dev nD) → (b : Ref sig .tc) → Buf (Elt Ideal) ((c : Thread nD τ).loc b))

/-- The block index of every window at every point: point t is (i, j) = (t div 16, t mod 16); the tile of v is block
    (0, j), the tile of w block (i, j), the product's output block (0, i), the row sums' output block (i). -/
theorem idx_facts0 : ∀ t : Fin cfg0.N, win0_0.index t (0 : Fin 2) = 0 ∧ win0_0.index t (1 : Fin 2) = t.val % 16
    ∧ win0_1.index t (0 : Fin 2) = t.val / 16 ∧ win0_1.index t (1 : Fin 2) = t.val % 16
    ∧ win0_2.index t (0 : Fin 2) = 0 ∧ win0_2.index t (1 : Fin 2) = t.val / 16
    ∧ win0_3.index t (0 : Fin 1) = t.val / 16 :=
  (by decide +kernel : ∀ t : Fin grid0.N, _)

/-- The grid has 64 points. -/
theorem N0 : cfg0.N = 64 := by decide

/-- The tile of v at point t, at (p, k): v at row p, column 2048·(t mod 16) + k. -/
theorem iblk0_v (c : Dev nD) (t : Fin cfg0.N) (p : Fin 64) (k : Fin 2048) :
    (iblk0 V c 0 t : Vec Ideal S64x2048 .f32) (ix2 p k)
      = V c main_v0 (ix2 p ⟨2048 * (t.val % 16) + k.val, by
          have := Nat.mod_lt t.val (show 0 < 16 by decide); have := k.isLt; omega⟩) := by
  obtain ⟨e0, e1, -⟩ := idx_facts0 t
  unfold iblk0
  rw [View.read_apply]
  show V c main_v0 _ = V c main_v0 _
  congr 1
  funext a
  apply Fin.ext
  match a with
  | ⟨0, _⟩ => show win0_0.index t 0 * 64 + 1 * p.val = p.val; rw [e0]; omega
  | ⟨1, _⟩ => show win0_0.index t 1 * 2048 + 1 * k.val = 2048 * (t.val % 16) + k.val; rw [e1]; omega

/-- The tile of w at point t, at (q, k): w at row 512·(t div 16) + q, column 2048·(t mod 16) + k. -/
theorem iblk0_w (c : Dev nD) (t : Fin cfg0.N) (q : Fin 512) (k : Fin 2048) :
    (iblk0 V c 1 t : Vec Ideal S512x2048 .f32) (ix2 q k)
      = V c main_v1 (ix2 ⟨512 * (t.val / 16) + q.val, by
            have : t.val < 64 := lt_of_lt_of_eq t.isLt N0; have := q.isLt; omega⟩
          ⟨2048 * (t.val % 16) + k.val, by
            have := Nat.mod_lt t.val (show 0 < 16 by decide); have := k.isLt; omega⟩) := by
  obtain ⟨-, -, e2, e3, -⟩ := idx_facts0 t
  unfold iblk0
  rw [View.read_apply]
  show V c main_v1 _ = V c main_v1 _
  congr 1
  funext a
  apply Fin.ext
  match a with
  | ⟨0, _⟩ => show win0_1.index t 0 * 512 + 1 * q.val = 512 * (t.val / 16) + q.val; rw [e2]; omega
  | ⟨1, _⟩ => show win0_1.index t 1 * 2048 + 1 * k.val = 2048 * (t.val % 16) + k.val; rw [e3]; omega

end Cert.KernelIdeal.Hand

end
-- ==== Proof.LibBlockSum.lean ====
/-
  A sum over the first B·(j+1) natural numbers, taken block by block: the terms before block j, plus the B terms of
  block j. This is how a contraction over a long axis is accumulated in pieces of width B; over a commutative monoid
  (the extended reals under addition are one) the pieces add up to the whole sum, whatever the values.
-/
import Mathlib.Algebra.BigOperators.Fin
import Mathlib.Algebra.BigOperators.Intervals

namespace Cert.Lib.BlockSum

open Finset

variable {M : Type*} [AddCommMonoid M]

/-- The terms before block `j`, plus the `B` terms of block `j`, are the terms before block `j + 1`. -/
theorem sum_range_block (f : ℕ → M) (B j : ℕ) :
    ∑ k ∈ range (B * j), f k + ∑ k : Fin B, f (B * j + k.val) = ∑ k ∈ range (B * (j + 1)), f k := by
  rw [Nat.mul_succ, Finset.sum_range_add, Finset.sum_range (fun k => f (B * j + k))]

/-- Block 0 alone: its `B` terms are the terms before block 1. -/
theorem sum_first_block (f : ℕ → M) (B : ℕ) :
    ∑ k : Fin B, f (B * 0 + k.val) = ∑ k ∈ range (B * (0 + 1)), f k := by
  rw [← sum_range_block f B 0, Nat.mul_zero, Finset.range_zero, Finset.sum_empty, zero_add]

end Cert.Lib.BlockSum
-- ==== Proof.GemmAcc.lean ====
/-
  The two accumulators of the tiled product in closed form, over the extended reals.

  Both input arrays are read as functions of natural numbers (the array inside its bounds, zero outside — the outside is
  never read): vAt p x is v at row p, column x; wAt r x is w at row r, column x. After the point at position n, which
  is tile n mod 16 of band n div 16, the product accumulator holds at (p, q) the partial inner product

      Σ_{x < 2048·(n mod 16 + 1)} vAt p x · wAt (512·(n div 16) + q) x,

  and the row-sum accumulator at q the same partial sum of squares of w's row. This is proved by induction on the
  position: the first tile of a band adds its 2048 terms to zero, every later tile adds its 2048 terms to the terms
  before it. Addition of extended reals is commutative and associative, which is all that is used.
-/
import proofs.«145568_j39152921870432_2_alg».proof.Proof.GemmStep
import proofs.«145568_j39152921870432_2_alg».proof.Proof.LibBlockSum
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The arrays as functions of natural numbers -/

/-- v at row p, column x; zero outside the array. -/
def vAt (c : Dev nD) (p x : ℕ) : EReal :=
  if h : p < 64 ∧ x < 32768 then V c main_v0 (ix2 (⟨p, h.1⟩ : Fin 64) (⟨x, h.2⟩ : Fin 32768)) else 0

/-- w at row r, column x; zero outside the array. -/
def wAt (c : Dev nD) (r x : ℕ) : EReal :=
  if h : r < 2048 ∧ x < 32768 then V c main_v1 (ix2 (⟨r, h.1⟩ : Fin 2048) (⟨x, h.2⟩ : Fin 32768)) else 0

theorem vAt_eq (c : Dev nD) (p : Fin 64) (x : Fin 32768) : vAt V c p.val x.val = V c main_v0 (ix2 p x) :=
  dif_pos ⟨p.isLt, x.isLt⟩

theorem wAt_eq (c : Dev nD) (r : Fin 2048) (x : Fin 32768) : wAt V c r.val x.val = V c main_v1 (ix2 r x) :=
  dif_pos ⟨r.isLt, x.isLt⟩

/-- The inner product of row p of v with row r of w over the first m columns. -/
def dotAt (c : Dev nD) (p r m : ℕ) : EReal := ∑ x ∈ Finset.range m, vAt V c p x * wAt V c r x

/-- The sum of squares of row r of w over the first m columns. -/
def sqAt (c : Dev nD) (r m : ℕ) : EReal := ∑ x ∈ Finset.range m, wAt V c r x * wAt V c r x

/-! ## One point's contribution -/

/-- The point at position n adds to the product accumulator, at (p, q), the 2048 terms of its tile. -/
theorem step0_fst (c : Dev nD) (n : ℕ) (hn : n < cfg0.N) (s : Vec Ideal S64x512 .f32 × Vec Ideal S512 .f32)
    (p : Fin 64) (q : Fin 512) :
    (step0 V c ⟨n, hn⟩ s).1 (ix2 p q) = s.1 (ix2 p q)
      + ∑ k : Fin 2048, vAt V c p.val (2048 * (n % 16) + k.val) * wAt V c (512 * (n / 16) + q.val) (2048 * (n % 16) + k.val) := by
  show k0_pay4 (F := Ideal) (iblk0 V c 1 ⟨n, hn⟩) (iblk0 V c 0 ⟨n, hn⟩) s.1 (ix2 p q) = _
  refine (pay4_apply (iblk0 V c 1 ⟨n, hn⟩) (iblk0 V c 0 ⟨n, hn⟩) s.1 p q).trans ?_
  refine congrArg (s.1 (ix2 p q) + ·) (Finset.sum_congr rfl fun k _ => ?_)
  rw [iblk0_v, iblk0_w]
  exact congrArg₂ (· * ·) (vAt_eq V c p ⟨_, _⟩).symm (wAt_eq V c ⟨_, _⟩ ⟨_, _⟩).symm

/-- The point at position n adds to the row-sum accumulator, at q, the 2048 squares of its tile's row. -/
theorem step0_snd (c : Dev nD) (n : ℕ) (hn : n < cfg0.N) (s : Vec Ideal S64x512 .f32 × Vec Ideal S512 .f32)
    (q : Fin 512) :
    (step0 V c ⟨n, hn⟩ s).2 (ix1 q) = s.2 (ix1 q)
      + ∑ k : Fin 2048, wAt V c (512 * (n / 16) + q.val) (2048 * (n % 16) + k.val) * wAt V c (512 * (n / 16) + q.val) (2048 * (n % 16) + k.val) := by
  show k0_pay5 (F := Ideal) (iblk0 V c 1 ⟨n, hn⟩) s.2 (ix1 q) = _
  refine (pay5_apply (iblk0 V c 1 ⟨n, hn⟩) s.2 q).trans ?_
  refine congrArg (s.2 (ix1 q) + ·) (Finset.sum_congr rfl fun k _ => ?_)
  rw [iblk0_w]
  exact congrArg₂ (· * ·) (wAt_eq V c ⟨_, _⟩ ⟨_, _⟩).symm (wAt_eq V c ⟨_, _⟩ ⟨_, _⟩).symm

/-! ## The accumulators in closed form -/

/-- After the point at position n the product accumulator holds, at (p, q), the inner product of row p of v with row
    512·(n div 16) + q of w over the first 2048·(n mod 16 + 1) columns. By induction on the position. -/
theorem acc_fst (c : Dev nD) (p : Fin 64) (q : Fin 512) : ∀ (n : ℕ) (hn : n < cfg0.N),
    (accAt0 V c n hn).1 (ix2 p q) = dotAt V c p.val (512 * (n / 16) + q.val) (2048 * (n % 16 + 1))
  | 0, hn => by
    show (step0 V c ⟨0, hn⟩ zero0).1 (ix2 p q) = _
    rw [step0_fst]
    show k0_pay1 (F := Ideal) (ix2 p q) + _ = _
    rw [pay1_apply, zero_add]
    exact Cert.Lib.BlockSum.sum_first_block (fun x => vAt V c p.val x * wAt V c (512 * (0 / 16) + q.val) x) 2048
  | n + 1, hn => by
    show (step0 V c ⟨n + 1, hn⟩ (if (n + 1) % 16 = 0 then zero0 else accAt0 V c n (Nat.lt_of_succ_lt hn))).1 (ix2 p q) = _
    rw [step0_fst]
    by_cases h : (n + 1) % 16 = 0
    · rw [if_pos h]
      show k0_pay1 (F := Ideal) (ix2 p q) + _ = _
      rw [pay1_apply, zero_add, h]
      exact Cert.Lib.BlockSum.sum_first_block (fun x => vAt V c p.val x * wAt V c (512 * ((n + 1) / 16) + q.val) x) 2048
    · rw [if_neg h, acc_fst c p q n (Nat.lt_of_succ_lt hn)]
      have h1 : (n + 1) / 16 = n / 16 := by omega
      have h2 : (n + 1) % 16 = n % 16 + 1 := by omega
      rw [h1, h2]
      exact Cert.Lib.BlockSum.sum_range_block (fun x => vAt V c p.val x * wAt V c (512 * (n / 16) + q.val) x) 2048 (n % 16 + 1)

/-- After the point at position n the row-sum accumulator holds, at q, the sum of squares of row 512·(n div 16) + q
    of w over the first 2048·(n mod 16 + 1) columns. By induction on the position. -/
theorem acc_snd (c : Dev nD) (q : Fin 512) : ∀ (n : ℕ) (hn : n < cfg0.N),
    (accAt0 V c n hn).2 (ix1 q) = sqAt V c (512 * (n / 16) + q.val) (2048 * (n % 16 + 1))
  | 0, hn => by
    show (step0 V c ⟨0, hn⟩ zero0).2 (ix1 q) = _
    rw [step0_snd]
    show k0_pay2 (F := Ideal) (ix1 q) + _ = _
    rw [pay2_apply, zero_add]
    exact Cert.Lib.BlockSum.sum_first_block (fun x => wAt V c (512 * (0 / 16) + q.val) x * wAt V c (512 * (0 / 16) + q.val) x) 2048
  | n + 1, hn => by
    show (step0 V c ⟨n + 1, hn⟩ (if (n + 1) % 16 = 0 then zero0 else accAt0 V c n (Nat.lt_of_succ_lt hn))).2 (ix1 q) = _
    rw [step0_snd]
    by_cases h : (n + 1) % 16 = 0
    · rw [if_pos h]
      show k0_pay2 (F := Ideal) (ix1 q) + _ = _
      rw [pay2_apply, zero_add, h]
      exact Cert.Lib.BlockSum.sum_first_block (fun x => wAt V c (512 * ((n + 1) / 16) + q.val) x * wAt V c (512 * ((n + 1) / 16) + q.val) x) 2048
    · rw [if_neg h, acc_snd c q n (Nat.lt_of_succ_lt hn)]
      have h1 : (n + 1) / 16 = n / 16 := by omega
      have h2 : (n + 1) % 16 = n % 16 + 1 := by omega
      rw [h1, h2]
      exact Cert.Lib.BlockSum.sum_range_block (fun x => wAt V c (512 * (n / 16) + q.val) x * wAt V c (512 * (n / 16) + q.val) x) 2048 (n % 16 + 1)

end Cert.KernelIdeal.Hand

end
-- ==== Proof.GemmValue.lean ====
/-
  What the two output arrays of the tiled product hold when the region ends, over the extended reals.

  At the last tile of a band (position 16·i + 15) the accumulators' partial sums are the whole sums over the 32768
  columns; the body copies the accumulators to the output blocks and the write-back puts them at rows
  512·i … 512·i + 511 of the outputs (columns, for the product array). The four bands' blocks cover the output arrays,
  so the product array ends holding, at (p, r), the inner product of row p of v with row r of w, and the row-sum
  array, at r, the sum of squares of row r of w.
-/
import proofs.«145568_j39152921870432_2_alg».proof.Proof.GemmAcc
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## From the blocks to the arrays -/

/-- What the product array ends holding: at (p, r) the inner product of row p of v with row r of w. -/
def vwAll (c : Dev nD) : S64x2048.Idx → EReal := fun i => dotAt V c (i 0).val (i 1).val 32768

/-- What the row-sum array ends holding: at r the sum of squares of row r of w. -/
def wsqAll (c : Dev nD) : S2048.Idx → EReal := fun i => sqAt V c (i 0).val 32768

theorem vwAll_apply (c : Dev nD) (i : S64x2048.Idx) : vwAll V c i = dotAt V c (i 0).val (i 1).val 32768 := rfl

theorem wsqAll_apply (c : Dev nD) (i : S2048.Idx) : wsqAll V c i = sqAt V c (i 0).val 32768 := rfl

/-- A block of the product array read at an index of the block is the array at the index's place in it. Stated for
    any contents, so that no particular contents are ever unfolded. -/
theorem read_blk2 (t : Fin cfg0.N) (G : S64x2048.Idx → EReal) (j : ((cfg0.win 2).xblock (cfg0.grid.coords t)).Idx) :
    ((cfg0.win 2).blk t).view.read (Elt Ideal) G j = G (((cfg0.win 2).blk t).view.emb j) := rfl

/-- The same for the row-sum array. -/
theorem read_blk3 (t : Fin cfg0.N) (G : S2048.Idx → EReal) (j : ((cfg0.win 3).xblock (cfg0.grid.coords t)).Idx) :
    ((cfg0.win 3).blk t).view.read (Elt Ideal) G j = G (((cfg0.win 3).blk t).view.emb j) := rfl

/-- The last tile of a band writes back the band's block of the product array. -/
theorem flushed2_eq (c : Dev nD) (t : Fin cfg0.N) (hf : (cfg0.win 2).flush t = true) :
    (dat0 (F := Ideal) V c).flushed 2 t = ((cfg0.win 2).blk t).view.read (Elt Ideal) (vwAll V c) := by
  have h15 : t.val % 16 = 15 := (flush0_2 t).mp hf
  obtain ⟨-, -, -, -, e4, e5, -⟩ := idx_facts0 t
  show (cfg0.win 2).cut (grid0.coords t) ((dat0 (F := Ideal) V c).after 2 t) = _
  rw [after0_2]
  funext j
  obtain ⟨p, q, rfl⟩ : ∃ (p : Fin 64) (q : Fin 512), j = ix2 p q := ⟨j 0, j 1, eq_ix2 j⟩
  refine Eq.trans ?_ (read_blk2 t (vwAll V c) (ix2 p q)).symm
  have hL : (cfg0.win 2).cut (grid0.coords t) (accAt0 V c t.val t.isLt).1 (ix2 p q)
      = (accAt0 V c t.val t.isLt).1 (ix2 p q) := rfl
  rw [hL, acc_fst, vwAll_apply]
  refine congr (congr (congrArg (dotAt V c) ?_) ?_) ?_
  · show p.val = win0_2.index t 0 * 64 + 1 * p.val
    rw [e4]; omega
  · show 512 * (t.val / 16) + q.val = win0_2.index t 1 * 512 + 1 * q.val
    rw [e5]; omega
  · rw [h15]

/-- The last tile of a band writes back the band's block of the row-sum array. -/
theorem flushed3_eq (c : Dev nD) (t : Fin cfg0.N) (hf : (cfg0.win 3).flush t = true) :
    (dat0 (F := Ideal) V c).flushed 3 t = ((cfg0.win 3).blk t).view.read (Elt Ideal) (wsqAll V c) := by
  have h15 : t.val % 16 = 15 := (flush0_3 t).mp hf
  obtain ⟨-, -, -, -, -, -, e6⟩ := idx_facts0 t
  show (cfg0.win 3).cut (grid0.coords t) ((dat0 (F := Ideal) V c).after 3 t) = _
  rw [after0_3]
  funext j
  obtain ⟨q, rfl⟩ : ∃ (q : Fin 512), j = ix1 q := ⟨j 0, eq_ix1 j⟩
  refine Eq.trans ?_ (read_blk3 t (wsqAll V c) (ix1 q)).symm
  have hL : (cfg0.win 3).cut (grid0.coords t) (accAt0 V c t.val t.isLt).2 (ix1 q)
      = (accAt0 V c t.val t.isLt).2 (ix1 q) := rfl
  rw [hL, acc_snd, wsqAll_apply]
  refine congr (congrArg (sqAt V c) ?_) ?_
  · show 512 * (t.val / 16) + q.val = win0_3.index t 0 * 512 + 1 * q.val
    rw [e6]; omega
  · rw [h15]

/-- An index of the product array is in point t's block iff each coordinate is in the block's range on its axis. -/
theorem mem_blk2 (t : Fin cfg0.N) (i : S64x2048.Idx) :
    i ∈ ((cfg0.win 2).blk t).view.set ↔ ∀ a : Fin 2, win0_2.index t a * S64x512.size a ≤ (i a).val
      ∧ (i a).val < win0_2.index t a * S64x512.size a + S64x512.size a := by
  show i ∈ ((View.whole main_v2_0).slice (win0_2.rect t)).set ↔ _
  rw [View.set_slice_whole, Rect.mem_set_unit]
  exact Iff.rfl

/-- An index of the row-sum array is in point t's block iff its coordinate is in the block's range. -/
theorem mem_blk3 (t : Fin cfg0.N) (i : S2048.Idx) :
    i ∈ ((cfg0.win 3).blk t).view.set ↔ ∀ a : Fin 1, win0_3.index t a * S512.size a ≤ (i a).val
      ∧ (i a).val < win0_3.index t a * S512.size a + S512.size a := by
  show i ∈ ((View.whole main_v2_1).slice (win0_3.rect t)).set ↔ _
  rw [View.set_slice_whole, Rect.mem_set_unit]
  exact Iff.rfl

/-- Column r of the product array lies in the block written back by the last tile of band r div 512. -/
theorem cover2 (i : S64x2048.Idx) :
    ∃ t : Fin cfg0.N, (cfg0.win 2).flush t = true ∧ i ∈ ((cfg0.win 2).blk t).view.set := by
  have hi0 : (i 0).val < 64 := (i 0).isLt
  have hi1 : (i 1).val < 2048 := (i 1).isLt
  have ht : 16 * ((i 1).val / 512) + 15 < cfg0.N := by rw [N0]; omega
  obtain ⟨-, -, -, -, e4, e5, -⟩ := idx_facts0 ⟨16 * ((i 1).val / 512) + 15, ht⟩
  have e5' : win0_2.index ⟨16 * ((i 1).val / 512) + 15, ht⟩ (1 : Fin 2) = (i 1).val / 512 := by
    rw [e5]; show (16 * ((i 1).val / 512) + 15) / 16 = _; omega
  refine ⟨⟨16 * ((i 1).val / 512) + 15, ht⟩, (flush0_2 _).mpr (by show (16 * ((i 1).val / 512) + 15) % 16 = 15; omega), ?_⟩
  rw [mem_blk2]
  intro a
  match a with
  | ⟨0, _⟩ =>
    show win0_2.index _ (0 : Fin 2) * 64 ≤ (i 0).val ∧ (i 0).val < win0_2.index _ (0 : Fin 2) * 64 + 64
    rw [e4]; omega
  | ⟨1, _⟩ =>
    show win0_2.index _ (1 : Fin 2) * 512 ≤ (i 1).val ∧ (i 1).val < win0_2.index _ (1 : Fin 2) * 512 + 512
    rw [e5']; omega

/-- Entry r of the row-sum array lies in the block written back by the last tile of band r div 512. -/
theorem cover3 (i : S2048.Idx) :
    ∃ t : Fin cfg0.N, (cfg0.win 3).flush t = true ∧ i ∈ ((cfg0.win 3).blk t).view.set := by
  have hi0 : (i 0).val < 2048 := (i 0).isLt
  have ht : 16 * ((i 0).val / 512) + 15 < cfg0.N := by rw [N0]; omega
  obtain ⟨-, -, -, -, -, -, e6⟩ := idx_facts0 ⟨16 * ((i 0).val / 512) + 15, ht⟩
  have e6' : win0_3.index ⟨16 * ((i 0).val / 512) + 15, ht⟩ (0 : Fin 1) = (i 0).val / 512 := by
    rw [e6]; show (16 * ((i 0).val / 512) + 15) / 16 = _; omega
  refine ⟨⟨16 * ((i 0).val / 512) + 15, ht⟩, (flush0_3 _).mpr (by show (16 * ((i 0).val / 512) + 15) % 16 = 15; omega), ?_⟩
  rw [mem_blk3]
  intro a
  match a with
  | ⟨0, _⟩ =>
    show win0_3.index _ (0 : Fin 1) * 512 ≤ (i 0).val ∧ (i 0).val < win0_3.index _ (0 : Fin 1) * 512 + 512
    rw [e6']; omega

/-- The two input arrays as functions on their literal index types into the extended reals. -/
abbrev vArr (c : Dev nD) : S64x32768.Idx → EReal := V c main_v0
abbrev wArr (c : Dev nD) : S2048x32768.Idx → EReal := V c main_v1

/-- The product array after the region. -/
theorem vw_array (c : Dev nD) : (dat0 (F := Ideal) V c).arrAt 2 cfg0.N = vwAll V c :=
  (dat0 (F := Ideal) V c).arrAt_eq_of_cover 2 (vwAll V c) (flushed2_eq V c) cover2

/-- The row-sum array after the region. -/
theorem wsq_array (c : Dev nD) : (dat0 (F := Ideal) V c).arrAt 3 cfg0.N = wsqAll V c :=
  (dat0 (F := Ideal) V c).arrAt_eq_of_cover 3 (wsqAll V c) (flushed3_eq V c) cover3

/-- THE PRODUCT: after the region the first output array holds, at (p, r), the inner product of row p of v with
    row r of w over all 32768 columns. -/
theorem vw_final (c : Dev nD) (p : Fin 64) (r : Fin 2048) :
    (dat0 (F := Ideal) V c).arrAt 2 cfg0.N (ValueIdx.ix2 p r)
      = ∑ n : Fin 32768, vArr V c (ValueIdx.ix2 p n) * wArr V c (ValueIdx.ix2 r n) := by
  refine (congrFun (vw_array V c) (ix2 p r)).trans ?_
  rw [vwAll_apply]
  show dotAt V c p.val r.val 32768 = _
  unfold dotAt
  rw [Finset.sum_range]
  exact Finset.sum_congr rfl fun n _ => congrArg₂ (· * ·) (vAt_eq V c p n) (wAt_eq V c r n)

/-- THE ROW SUMS: after the region the second output array holds, at r, the sum of squares of row r of w over all
    32768 columns. -/
theorem wsq_final (c : Dev nD) (r : Fin 2048) :
    (dat0 (F := Ideal) V c).arrAt 3 cfg0.N (ValueIdx.ix1 r)
      = ∑ n : Fin 32768, wArr V c (ValueIdx.ix2 r n) * wArr V c (ValueIdx.ix2 r n) := by
  refine (congrFun (wsq_array V c) (ix1 r)).trans ?_
  rw [wsqAll_apply]
  show sqAt V c r.val 32768 = _
  unfold sqAt
  rw [Finset.sum_range]
  exact Finset.sum_congr rfl fun n _ => congrArg₂ (· * ·) (wAt_eq V c r n) (wAt_eq V c r n)

end Cert.KernelIdeal.Hand

end
-- ==== Proof.CosBody.lean ====
import proofs.«145568_j39152921870432_2_alg».proof.Proof.Gen.KernelIdeal.Launch
import proofs.«145568_j39152921870432_2_alg».proof.Proof.Gen.KernelIdeal.Skeleton
import proofs.«145568_j39152921870432_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

/-! # The similarity region: its body's triple and its proof data

The second kernel call has a grid of one point and three windows, each one's block the whole of its array:
the anchor rows (64 x 512), the key rows (2048 x 512) and the table of their inner products (64 x 2048).
Everything here is stated at a parameter `V`, the contents of the TensorCore's buffers when the region is
entered, and at any carrier `F` of the floating-point types. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The anchor window's staging buffer holds the anchor block at every point, for any proof data over the entry
    contents whose body leaves that block where it found it: an input window is either fetched at the point or
    still holds the block of an earlier point with the same index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the key window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- Each buffer as one rectangle, at offset zero and of the buffer's own extents: the body loads the two input
    buffers whole and its only store writes the whole table. -/
abbrev rAnchor : Rect S64x512 := Rect.unit (s := S64x512) ![0, 0] S64x512.size inb_S64x512_S64x512_0_0
abbrev rKeys : Rect S2048x512 := Rect.unit (s := S2048x512) ![0, 0] S2048x512.size inb_S2048x512_S2048x512_0_0
abbrev rTable : Rect S64x2048 := Rect.unit (s := S64x2048) ![0, 0] S64x2048.size inb_S64x2048_S64x2048_0_0

/-- The output buffer after the body, as a function of what the two input buffers held: the one store, whose
    payload is the product of what the two loads read — the anchor block and the key block, the latter transposed. -/
def out1_2 (x0 : Vec F S64x512 .f32) (x1 : Vec F S2048x512 .f32) : Vec F S64x2048 .f32 :=
  View.canon [⟨rTable, k1_pay1 (View.ld x0 rAnchor) (View.ld x1 rKeys)⟩]

/-- That store covers the buffer: its rectangle is the whole table. -/
theorem cover1_2 (p0 : Vec F S64x2048 .f32) (y : S64x2048.Idx) :
    ∃ pc ∈ ([⟨rTable, p0⟩] : List (View.Piece (Elt F) S64x2048 .f32)), y ∈ pc.1.set :=
  View.cover_of_tiled [⟨rTable, p0⟩] S64x2048.size (by rfl) y

/-! ## The body's triple -/

set_option maxHeartbeats 1000000 in
/-- The body on whole staging memrefs, the two inputs' at contents `x0`, `x1` and the output's at anything (the body
    reads the output buffer once, and uses nothing of what it read), runs to the continuation holding the inputs' as
    they were and the output's at `out1_2 x0 x1`. -/
theorem sound_kernel1 (c : Dev nD) (E : Set ℕ) (i : grid1.Coords)
    (arg1 : Memref sig .tc .vmem S64x512 .f32) (harg1 : arg1.IsWhole)
    (arg2 : Memref sig .tc .vmem S2048x512 .f32) (harg2 : arg2.IsWhole)
    (arg3 : Memref sig .tc .vmem S64x2048 .f32) (harg3 : arg3.IsWhole)
    (x0 : Vec F S64x512 .f32) (x1 : Vec F S2048x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__cos_kernel i arg1 harg1 arg2 harg2 arg3 harg3) K := by
  simp only [cc1__cos_kernel_eq_skeleton]; unfold cc1__cos_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- The proof data of the region on core `c`: the arrays as the region finds them; after the body at point `t` each
    input's buffer at its block and the output's at `out1_2` of the two input blocks; the invariant that of a region
    which touches nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.CosValue.lean ====
import proofs.«145568_j39152921870432_2_alg».proof.Proof.CosBody
import proofs.«145568_j39152921870432_2_alg».proof.Proof.LibLinearLayer
import Idealize.ShloMosaic.Lib.ValueIdx
import Idealize.ShloMosaic.Lib.Pipeline.Value
import Idealize.ShloMosaic.PureOps.Ideal.Laws

/-! # What the similarity region leaves in its output array

The region's grid has one point and every window's block is its whole array. So the one point reads the two input
arrays whole, and what it writes back is the whole output array: the table whose (p, q) entry is the inner product of
anchor row p with key row q. Over the extended reals the narrowing of both operands to bf16 is the identity, the
transpose swaps the key block's two coordinates, and the product into a zero accumulator is the plain sum over the
512 shared positions. -/

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-! ## The table, entry by entry -/

/-- The offsets of a whole-buffer rectangle are zero on both axes. -/
theorem offsets_zero : (![0, 0] : Fin 2 → Nat) = fun _ => 0 := funext fun a => by fin_cases a <;> rfl

section AnyCarrier
variable {F : FTy → Type} [FloatOps F]

/-- The loads read the input buffers whole and the store writes the output buffer whole, so the buffer the body
    leaves is the product itself, of the two buffers' contents. -/
theorem out1_2_eq_pay (x0 : Vec F S64x512 .f32) (x1 : Vec F S2048x512 .f32) : out1_2 x0 x1 = k1_pay1 x0 x1 := by
  unfold out1_2
  rw [View.canon_unit_zero offsets_zero]
  simp only [View.ld_unit_zero (S := S64x512) offsets_zero, View.ld_unit_zero (S := S2048x512) offsets_zero]

end AnyCarrier

/-- ENTRY (p, q) OF THE TABLE: the inner product of anchor row p with key row q. -/
theorem out1_2_apply (x0 : Vec Ideal S64x512 .f32) (x1 : Vec Ideal S2048x512 .f32) (p : Fin 64) (q : Fin 2048) :
    out1_2 (F := Ideal) x0 x1 (ValueIdx.ix2 p q) = ∑ k : Fin 512, x0 (ValueIdx.ix2 p k) * x1 (ValueIdx.ix2 q k) := by
  rw [out1_2_eq_pay]
  unfold k1_pay1
  exact Cert.Lib.LinearLayer.matmul_transposed_apply (M := 64) (K := 512) (N := 2048)
    dot_S64x512_S512x2048_S64x2048_1_0_0_1_n_n_wf none
    (truncf .bf16 x0 bitsLt_bf16_f32) (truncf .bf16 x1 bitsLt_bf16_f32) transposes_S2048x512_p1_0_S512x2048 p q

/-! ## The one point's blocks are the arrays -/

section AnyCarrier
variable {F : FTy → Type} [FloatOps F]
variable (V : (c : Dev nD) → (b : Ref sig .tc) → Buf (Elt F) ((c : Thread nD τ).loc b))

/-- Every window's block index is zero on both axes at every point of the grid (decided over its one point). -/
theorem index_zero1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- So a block index of the anchor window names the same element of the anchor array, -/
theorem emb1_0 (t : Fin cfg1.N) (j : S64x512.Idx) : ((cfg1.win 0).blk t).view.emb j = j := by
  obtain ⟨e0, e1, -, -, -, -⟩ := index_zero1 t
  funext a; apply Fin.ext
  match a with
  | ⟨0, _⟩ => show win1_0.index t (0 : Fin 2) * 64 + 1 * (j 0).val = (j 0).val; omega
  | ⟨1, _⟩ => show win1_0.index t (1 : Fin 2) * 512 + 1 * (j 1).val = (j 1).val; omega

/-- of the key window the same element of the key array, -/
theorem emb1_1 (t : Fin cfg1.N) (j : S2048x512.Idx) : ((cfg1.win 1).blk t).view.emb j = j := by
  obtain ⟨-, -, e0, e1, -, -⟩ := index_zero1 t
  funext a; apply Fin.ext
  match a with
  | ⟨0, _⟩ => show win1_1.index t (0 : Fin 2) * 2048 + 1 * (j 0).val = (j 0).val; omega
  | ⟨1, _⟩ => show win1_1.index t (1 : Fin 2) * 512 + 1 * (j 1).val = (j 1).val; omega

/-- and of the table window the same element of the table. -/
theorem emb1_2 (t : Fin cfg1.N) (j : S64x2048.Idx) : ((cfg1.win 2).blk t).view.emb j = j := by
  obtain ⟨-, -, -, -, e0, e1⟩ := index_zero1 t
  funext a; apply Fin.ext
  match a with
  | ⟨0, _⟩ => show win1_2.index t (0 : Fin 2) * 64 + 1 * (j 0).val = (j 0).val; omega
  | ⟨1, _⟩ => show win1_2.index t (1 : Fin 2) * 2048 + 1 * (j 1).val = (j 1).val; omega

/-- The anchor window's block is the anchor array as the region finds it, -/
theorem iblk1_0_eq (c : Dev nD) (t : Fin cfg1.N) : iblk1 V c 0 t = V c main_arg0 :=
  funext fun j => congrArg (V c main_arg0) (emb1_0 t j)

/-- and the key window's block the key array. -/
theorem iblk1_1_eq (c : Dev nD) (t : Fin cfg1.N) : iblk1 V c 1 t = V c main_arg2 :=
  funext fun j => congrArg (V c main_arg2) (emb1_1 t j)

/-- The part of the table buffer a write-back moves is all of it, and the table window's block is the whole table: so
    for ANY contents `G` of the table, what a write-back of a buffer holding `G` writes is `G` read through the block. -/
theorem cut_eq_read1_2 (t : Fin cfg1.N) (G : S64x2048.Idx → Elt F .f32) :
    (cfg1.win 2).cut (grid1.coords t) G = ((cfg1.win 2).blk t).view.read (Elt F) G :=
  funext fun j => (congrArg G (emb1_2 t j)).symm

/-- WHAT THE POINT WRITES BACK is the table of the two arrays, read through the table window's block. -/
theorem flushed1_2 (c : Dev nD) (t : Fin cfg1.N) :
    (dat1 V c).flushed 2 t = ((cfg1.win 2).blk t).view.read (Elt F) (out1_2 (V c main_arg0) (V c main_arg2)) := by
  show (cfg1.win 2).cut (grid1.coords t) ((dat1 V c).after 2 t) = _
  rw [after1_2, iblk1_0_eq, iblk1_1_eq]
  exact cut_eq_read1_2 t _

/-- Every index of the table is in the one point's block. -/
theorem covered1_2 (i : S64x2048.Idx) :
    ∃ t : Fin cfg1.N, (cfg1.win 2).flush t = true ∧ i ∈ ((cfg1.win 2).blk t).view.set := by
  refine ⟨t1_0, flush1_2 t1_0, ?_⟩
  show i ∈ ((View.whole main_v21).slice (win1_2.rect t1_0)).set
  rw [View.set_slice_whole, Rect.mem_set_unit]
  obtain ⟨-, -, -, -, e0, e1⟩ := index_zero1 t1_0
  have h0 : (i 0).val < 64 := (i 0).isLt
  have h1 : (i 1).val < 2048 := (i 1).isLt
  intro a
  match a with
  | ⟨0, _⟩ => show win1_2.index t1_0 (0 : Fin 2) * 64 ≤ (i 0).val ∧ (i 0).val < win1_2.index t1_0 (0 : Fin 2) * 64 + 64; omega
  | ⟨1, _⟩ => show win1_2.index t1_0 (1 : Fin 2) * 2048 ≤ (i 1).val ∧ (i 1).val < win1_2.index t1_0 (1 : Fin 2) * 2048 + 2048; omega

/-- THE TABLE ARRAY AFTER THE REGION, at any carrier: `out1_2` of the anchor and key arrays as the region found them. -/
theorem arr1_final_any (c : Dev nD) :
    (dat1 V c).arrAt 2 cfg1.N = out1_2 (V c main_arg0) (V c main_arg2) :=
  (dat1 V c).arrAt_eq_of_cover 2 (out1_2 (V c main_arg0) (V c main_arg2)) (fun t _ => flushed1_2 V c t) covered1_2

end AnyCarrier

/-- THE TABLE ARRAY AFTER THE REGION, over the extended reals. -/
theorem arr1_final (V : (c : Dev nD) → (b : Ref sig .tc) → Buf (Elt Ideal) ((c : Thread nD τ).loc b)) (c : Dev nD) :
    (dat1 (F := Ideal) V c).arrAt 2 cfg1.N = out1_2 (F := Ideal) (V c main_arg0) (V c main_arg2) :=
  arr1_final_any V c

end Cert.KernelIdeal.Hand

end
-- ==== Proof.GemmCases.lean ====
/-
  Region 0's body, case by case.

  The body reads the reduction coordinate j = i 1 twice: at j = 0 it first stores zeros into both scratch
  accumulators; at j = 15 it finally copies both accumulators into the two output blocks. In between, always,
  it loads the w tile and the v tile and replaces the accumulators by
      acc + v_tile · w_tileᵀ      and      s + Σ_k w_tile[·, k]².
  The grid's reduction axis has 16 > 1 steps, so no point is both first and last: three cases.
  Each case is the body's triple on whole memrefs: the inputs' blocks are kept, the accumulators (and, in the last
  case, the output blocks) end at the payload terms of the kernel's skeleton.
-/
import proofs.«145568_j39152921870432_2_alg».proof.Proof.Gen.KernelIdeal.Launch
import proofs.«145568_j39152921870432_2_alg».proof.Proof.Gen.KernelIdeal.Skeleton
import proofs.«145568_j39152921870432_2_alg».proof.Proof.Gen.KernelIdeal.Points
import Idealize.ShloMosaic.Lib.Pipeline.Value
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions -/

/-- The first conditional's condition: the reduction coordinate is 0. -/
abbrev condFirst (i : grid0.Coords) : Prop := (Scalar.cmpi .ne (Scalar.extui (Scalar.cmpi .eq (BitVec.ofNat 32 (i 1).val) 0#32)) 0#32) = 1#1
/-- The last conditional's condition: the reduction coordinate is 15. -/
abbrev condLast (i : grid0.Coords) : Prop := k0_cond2 i = 1#1

theorem hcondFirst : ∀ t : Fin cfg0.N, condFirst (grid0.coords t) ↔ t.val % 16 = 0 :=
  (by decide +kernel : ∀ t : Fin grid0.N, condFirst (grid0.coords t) ↔ t.val % 16 = 0)
theorem hcondLast : ∀ t : Fin cfg0.N, condLast (grid0.coords t) ↔ t.val % 16 = 15 :=
  (by decide +kernel : ∀ t : Fin grid0.N, condLast (grid0.coords t) ↔ t.val % 16 = 15)

/-! ## A whole-block store read back, and a whole-block load -/

theorem off2 : (![0, 0] : Fin 2 → ℕ) = fun _ => 0 := by funext a; fin_cases a <;> rfl
theorem off1 : (![0] : Fin 1 → ℕ) = fun _ => 0 := by funext a; fin_cases a; rfl

/-- One store through the whole block, read back: its payload, whatever the buffer held. -/
theorem read_store_whole {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  subst h
  rw [View.read_writes_eq_canon _ _ _ (fun y => ⟨_, List.mem_singleton_self _, by
    show y ∈ (Rect.whole S).set; rw [Rect.set_whole]; exact Finset.mem_univ y⟩), View.canon_unit_zero rfl]

/-- A load through the whole block of a whole memref's contents reads them all. -/
theorem load_whole {S : Shape} {e : EltTy} (m : Memref sig .tc .vmem S e) (hm : m.IsWhole)
    {off : Fin S.rank → ℕ} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

/-- A store through the whole block, LAST, read back: its payload, whatever the earlier stores were. -/
theorem read_store_whole_cons {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-! ## The middle case: neither conditional taken -/

set_option maxHeartbeats 2000000 in
/-- At a point that is neither the first nor the last tile of its band the body only accumulates; the output blocks
    are left as they were. -/
theorem case_mid (c : Dev nD) (i : grid0.Coords)
    (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc1 : ¬ condFirst i) (hc2 : ¬ condLast i)
    (xv : Vec F S64x2048 .f32) (xw : Vec F S512x2048 .f32) (x4 : Vec F S64x512 .f32) (x5 : Vec F S512 .f32)
    (s6 : Vec F S64x512 .f32) (s7 : Vec F S512 .f32)
    (E : Set ℕ) (K : PUnit → sProp 𝕄) :
    iprop(owns (c : Thread nD τ) arg2 fullShare xv ∗ owns (c : Thread nD τ) arg3 fullShare xw
        ∗ owns (c : Thread nD τ) arg4 fullShare x4 ∗ owns (c : Thread nD τ) arg5 fullShare x5
        ∗ owns (c : Thread nD τ) arg6 fullShare s6 ∗ owns (c : Thread nD τ) arg7 fullShare s7
        ∗ (iprop(owns (c : Thread nD τ) arg2 fullShare xv ∗ owns (c : Thread nD τ) arg3 fullShare xw
            ∗ owns (c : Thread nD τ) arg4 fullShare x4 ∗ owns (c : Thread nD τ) arg5 fullShare x5
            ∗ owns (c : Thread nD τ) arg6 fullShare (k0_pay4 xw xv s6) ∗ owns (c : Thread nD τ) arg7 fullShare (k0_pay5 xw s7)) -∗ K ⟨⟩))
      ⊢ wp frame (wpE (defs₀ (F := F)) Variants.none c none) E (cc0__gemm_kernel i arg2 harg2 arg3 harg3 arg4 harg4 arg5 harg5 arg6 harg6 arg7 harg7) K := by
  simp only [cc0__gemm_kernel_eq_skeleton]; unfold cc0__gemm_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    rw [read_store_whole _ _ off2, load_whole arg3 harg3 off2, load_whole arg2 harg2 off2, load_whole arg6 harg6 off2]
  · iexists _; isplitr
    swap; · iexact H7
    ipureintro
    rw [read_store_whole _ _ off1, load_whole arg3 harg3 off2, load_whole arg7 harg7 off1]

/-! ## The first tile of a band: the accumulators are zeroed first -/

set_option maxHeartbeats 2000000 in
/-- At the first tile of a band the body stores zeros into both accumulators, whatever they held, then accumulates;
    the output blocks are left as they were. -/
theorem case_first (c : Dev nD) (i : grid0.Coords)
    (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc1 : condFirst i) (hc2 : ¬ condLast i)
    (xv : Vec F S64x2048 .f32) (xw : Vec F S512x2048 .f32) (x4 : Vec F S64x512 .f32) (x5 : Vec F S512 .f32)
    (E : Set ℕ) (K : PUnit → sProp 𝕄) :
    iprop(owns (c : Thread nD τ) arg2 fullShare xv ∗ owns (c : Thread nD τ) arg3 fullShare xw
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg2 fullShare xv ∗ owns (c : Thread nD τ) arg3 fullShare xw
            ∗ owns (c : Thread nD τ) arg4 fullShare x4 ∗ owns (c : Thread nD τ) arg5 fullShare x5
            ∗ owns (c : Thread nD τ) arg6 fullShare (k0_pay4 xw xv k0_pay1) ∗ owns (c : Thread nD τ) arg7 fullShare (k0_pay5 xw k0_pay2)) -∗ K ⟨⟩))
      ⊢ wp frame (wpE (defs₀ (F := F)) Variants.none c none) E (cc0__gemm_kernel i arg2 harg2 arg3 harg3 arg4 harg4 arg5 harg5 arg6 harg6 arg7 harg7) K := by
  simp only [cc0__gemm_kernel_eq_skeleton]; unfold cc0__gemm_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg2.eq_unread hf2; obtain rfl := harg3.eq_unread hf3
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    rw [read_store_whole_cons _ _ off2, load_whole arg3 harg3 off2, load_whole arg2 harg2 off2]
    sl_unfold_words
    rw [View.readCov_unit_zero _ off2]
  · iexists _; isplitr
    swap; · iexact H7
    ipureintro
    rw [read_store_whole_cons _ _ off1, load_whole arg3 harg3 off2]
    sl_unfold_words
    rw [View.readCov_unit_zero _ off1]

/-! ## The last tile of a band: the accumulators are copied out -/

set_option maxHeartbeats 2000000 in
/-- At the last tile of a band the body accumulates and then copies both accumulators into the output blocks. -/
theorem case_last (c : Dev nD) (i : grid0.Coords)
    (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc1 : ¬ condFirst i) (hc2 : condLast i)
    (xv : Vec F S64x2048 .f32) (xw : Vec F S512x2048 .f32) (s6 : Vec F S64x512 .f32) (s7 : Vec F S512 .f32)
    (E : Set ℕ) (K : PUnit → sProp 𝕄) :
    iprop(owns (c : Thread nD τ) arg2 fullShare xv ∗ owns (c : Thread nD τ) arg3 fullShare xw
        ∗ (∃ d, owns (c : Thread nD τ) arg4 fullShare d) ∗ (∃ d, owns (c : Thread nD τ) arg5 fullShare d)
        ∗ owns (c : Thread nD τ) arg6 fullShare s6 ∗ owns (c : Thread nD τ) arg7 fullShare s7
        ∗ (iprop(owns (c : Thread nD τ) arg2 fullShare xv ∗ owns (c : Thread nD τ) arg3 fullShare xw
            ∗ owns (c : Thread nD τ) arg4 fullShare (k0_pay4 xw xv s6) ∗ owns (c : Thread nD τ) arg5 fullShare (k0_pay5 xw s7)
            ∗ owns (c : Thread nD τ) arg6 fullShare (k0_pay4 xw xv s6) ∗ owns (c : Thread nD τ) arg7 fullShare (k0_pay5 xw s7)) -∗ K ⟨⟩))
      ⊢ wp frame (wpE (defs₀ (F := F)) Variants.none c none) E (cc0__gemm_kernel i arg2 harg2 arg3 harg3 arg4 harg4 arg5 harg5 arg6 harg6 arg7 harg7) K := by
  simp only [cc0__gemm_kernel_eq_skeleton]; unfold cc0__gemm_kernel_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [read_store_whole _ _ off2]
    sl_unfold_words
    rw [View.readCov_unit_zero _ off2, load_whole arg3 harg3 off2, load_whole arg2 harg2 off2, load_whole arg6 harg6 off2]
  isplitl [H5]
  · iexists _; isplitr
    swap; · iexact H5
    ipureintro
    rw [read_store_whole _ _ off1]
    sl_unfold_words
    rw [View.readCov_unit_zero _ off1, load_whole arg3 harg3 off2, load_whole arg7 harg7 off1]
  isplitl [H6]
  · iexists _; isplitr
    swap; · iexact H6
    ipureintro
    sl_unfold_words
    rw [read_store_whole _ _ off2, load_whole arg3 harg3 off2, load_whole arg2 harg2 off2, load_whole arg6 harg6 off2]
  · iexists _; isplitr
    swap; · iexact H7
    ipureintro
    sl_unfold_words
    rw [read_store_whole _ _ off1, load_whole arg3 harg3 off2, load_whole arg7 harg7 off1]

end Cert.KernelIdeal.Hand

end
-- ==== Proof.GemmObligation.lean ====
/-
  Region 0 meets its proof data.

  At every grid point t the body is handed the invariant before t, the two input blocks, and the two output blocks;
  by the reduction coordinate t % 16 it is in one of three cases (GemmCases). In each the accumulators end at
  accAt0 at t — restarted from zero where t % 16 = 0, continued from t − 1 otherwise — so the invariant after t
  holds; where t % 16 ≠ 15 the output windows are idle and their buffers are handed back as found, where
  t % 16 = 15 they end at the accumulators, which is what the proof data says the body leaves there.
  Before the first point the invariant is the launch's (every scoped buffer at anything); after the last it gives
  the scoped buffers back with their contents forgotten.
-/
import proofs.«145568_j39152921870432_2_alg».proof.Proof.GemmBody
import proofs.«145568_j39152921870432_2_alg».proof.Proof.GemmCases
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Where the output windows are idle -/

theorem N0 : cfg0.N = 64 := N_0

theorem idle0_2 : ∀ t : Fin cfg0.N, ¬ t.val % 16 = 15 → cfg0.idle 2 (grid0.coords t) = true :=
  (by decide +kernel : ∀ t : Fin grid0.N, ¬ t.val % 16 = 15 → cfg0.idle 2 (grid0.coords t) = true)
theorem idle0_3 : ∀ t : Fin cfg0.N, ¬ t.val % 16 = 15 → cfg0.idle 3 (grid0.coords t) = true :=
  (by decide +kernel : ∀ t : Fin grid0.N, ¬ t.val % 16 = 15 → cfg0.idle 3 (grid0.coords t) = true)
theorem live0_2 : ∀ t : Fin cfg0.N, t.val % 16 = 15 → cfg0.idle 2 (grid0.coords t) = false :=
  (by decide +kernel : ∀ t : Fin grid0.N, t.val % 16 = 15 → cfg0.idle 2 (grid0.coords t) = false)
theorem live0_3 : ∀ t : Fin cfg0.N, t.val % 16 = 15 → cfg0.idle 3 (grid0.coords t) = false :=
  (by decide +kernel : ∀ t : Fin grid0.N, t.val % 16 = 15 → cfg0.idle 3 (grid0.coords t) = false)
theorem noflush0_2 (t : Fin cfg0.N) (h : ¬ t.val % 16 = 15) : (cfg0.win 2).flush t = false :=
  Bool.eq_false_iff.mpr fun hf => h ((flush0_2 t).mp hf)
theorem noflush0_3 (t : Fin cfg0.N) (h : ¬ t.val % 16 = 15) : (cfg0.win 3).flush t = false :=
  Bool.eq_false_iff.mpr fun hf => h ((flush0_3 t).mp hf)

/-! ## The invariant, spelt out -/

/-- The launch's invariant with the two accumulators as memrefs owned at some contents. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ restS0 c)
          ∗ (∃ r, prngReg c r)) := by
  unfold Pipeline.ΦA restS0; rw [scopedRest0_eq]; simp only [scM0_0, scM0_1, owns_whole]; rfl

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (accAt0 V c n hn).1
      ∗ owns (c : Thread nD τ) scM0_1 fullShare (accAt0 V c n hn).2 ∗ restS0 c ∗ (∃ r, prngReg c r)) := rfl

theorem PhiS0_pos (c : Dev nD) (n : ℕ) (h : n ≤ cfg0.N) (hz : n ≠ 0) :
    PhiS0 V c n h = iprop(owns (c : Thread nD τ) scM0_0 fullShare (accAt0 V c (n - 1) (by omega)).1
      ∗ owns (c : Thread nD τ) scM0_1 fullShare (accAt0 V c (n - 1) (by omega)).2 ∗ restS0 c ∗ (∃ r, prngReg c r)) := by
  cases n with
  | zero => exact absurd rfl hz
  | succ n => rfl

theorem Phi_castSucc (c : Dev nD) (t : Fin cfg0.N) :
    (dat0 V c).Φ t.castSucc = PhiS0 V c t.val (Nat.le_of_lt t.isLt) := by
  dsimp only [dat0]; simp only [Fin.coe_castSucc]

/-- Before any point the accumulators are owned at SOME contents. -/
theorem Phi_weak (c : Dev nD) (t : Fin cfg0.N) :
    (dat0 V c).Φ t.castSucc ⊢ iprop((∃ d, owns (c : Thread nD τ) scM0_0 fullShare d) ∗ (∃ d, owns (c : Thread nD τ) scM0_1 fullShare d)
      ∗ restS0 c ∗ (∃ r, prngReg c r)) := by
  rw [Phi_castSucc]
  by_cases hz : t.val = 0
  · rw [PhiS0_zero V c _ _ hz, PhiA0_eq]
    iintro ⟨⟨H0, H1, Hr⟩, Hg⟩
    isplitl [H0]; · iexact H0
    isplitl [H1]; · iexact H1
    isplitl [Hr]; · iexact Hr
    iexact Hg
  · rw [PhiS0_pos V c _ _ hz]
    iintro ⟨H0, H1, Hr, Hg⟩
    isplitl [H0]; · iexists _; iexact H0
    isplitl [H1]; · iexists _; iexact H1
    isplitl [Hr]; · iexact Hr
    iexact Hg

/-! ## The body at a point -/

theorem live0_0 : ∀ t : Fin cfg0.N, cfg0.idle 0 (grid0.coords t) = false := fun _ => rfl
theorem live0_1 : ∀ t : Fin cfg0.N, cfg0.idle 1 (grid0.coords t) = false := fun _ => rfl

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t
    ∗ (dat0 V c).leavesExact 2 t ∗ (dat0 V c).leavesExact 3 t)

theorem leaves0_0 (c : Dev nD) (t : Fin cfg0.N) :
    (dat0 V c).leavesExact 0 t = owns (c : Thread nD τ) (st0_0 t) fullShare (iblk0 V c 0 t) := by
  unfold Dat.leavesExact; rw [live0_0 t, after0_0]
theorem leaves0_1 (c : Dev nD) (t : Fin cfg0.N) :
    (dat0 V c).leavesExact 1 t = owns (c : Thread nD τ) (st0_1 t) fullShare (iblk0 V c 1 t) := by
  unfold Dat.leavesExact; rw [live0_1 t, after0_1]
theorem leaves0_2_last (c : Dev nD) (t : Fin cfg0.N) (h : t.val % 16 = 15) :
    (dat0 V c).leavesExact 2 t = owns (c : Thread nD τ) (st0_2 t) fullShare (accAt0 V c t.val t.isLt).1 := by
  unfold Dat.leavesExact; rw [live0_2 t h, after0_2]
theorem leaves0_3_last (c : Dev nD) (t : Fin cfg0.N) (h : t.val % 16 = 15) :
    (dat0 V c).leavesExact 3 t = owns (c : Thread nD τ) (st0_3 t) fullShare (accAt0 V c t.val t.isLt).2 := by
  unfold Dat.leavesExact; rw [live0_3 t h, after0_3]

set_option maxHeartbeats 4000000 in
/-- The body at any point: by the reduction coordinate the point is the first tile of its band, a middle one, or the
    last; the invariant hands the accumulators over at what the point before left (at anything where a band starts)
    and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1]
  have hN : t.val < 64 := lt_of_lt_of_eq t.isLt N0
  by_cases h0 : t.val % 16 = 0
  · have hl : ¬ t.val % 16 = 15 := by omega
    rw [Dat.leavesExact_idle (dat0 V c) 2 t (idle0_2 t hl) (noflush0_2 t hl),
      Dat.leavesExact_idle (dat0 V c) 3 t (idle0_3 t hl) (noflush0_3 t hl)]
    rw [accAt0_first V c t h0]; unfold step0 zero0; dsimp only
    iintro ⟨Hinv, Ho, ⟨%d0, H0⟩, ⟨%d1, H1⟩, ⟨%d2, H2⟩, ⟨%d3, H3⟩⟩
    have hweak := Phi_weak V c t
    ihave Hw := hweak $$ Hinv
    icases Hw with ⟨HS0, HS1, Hr, Hg⟩
    iapply (case_first c (grid0.coords t) _ _ _ _ _ _ _ _ _ _ _ _ ((hcondFirst t).mpr h0) (fun h => hl ((hcondLast t).mp h))
      (iblk0 V c 0 t) (iblk0 V c 1 t) _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hr Hg]
    · isplitl [HS0]; · iexact HS0
      isplitl [HS1]; · iexact HS1
      isplitl [Hr]; · iexact Hr
      iexact Hg
    isplitl [Ho]; · iexact Ho
    isplitl [H0]; · iexact H0
    isplitl [H1]; · iexact H1
    isplitl [H2]; · iexists _; iexact H2
    iexists _; iexact H3
  · have hz : t.val ≠ 0 := fun h => h0 (by rw [h])
    rw [accAt0_next V c t h0]; unfold step0; dsimp only
    rw [Phi_castSucc, PhiS0_pos V c _ _ hz]
    by_cases hl : t.val % 16 = 15
    · rw [leaves0_2_last V c t hl, leaves0_3_last V c t hl, accAt0_next V c t h0]; unfold step0; dsimp only
      iintro ⟨⟨HS0, HS1, Hr, Hg⟩, Ho, ⟨%d0, H0⟩, ⟨%d1, H1⟩, ⟨%d2, H2⟩, ⟨%d3, H3⟩⟩
      iapply (case_last c (grid0.coords t) _ _ _ _ _ _ _ _ _ _ _ _ (fun h => h0 ((hcondFirst t).mp h)) ((hcondLast t).mpr hl)
        (iblk0 V c 0 t) (iblk0 V c 1 t) _ _ Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      iexact H3
    · rw [Dat.leavesExact_idle (dat0 V c) 2 t (idle0_2 t hl) (noflush0_2 t hl),
        Dat.leavesExact_idle (dat0 V c) 3 t (idle0_3 t hl) (noflush0_3 t hl)]
      iintro ⟨⟨HS0, HS1, Hr, Hg⟩, Ho, ⟨%d0, H0⟩, ⟨%d1, H1⟩, ⟨%d2, H2⟩, ⟨%d3, H3⟩⟩
      iapply (case_mid c (grid0.coords t) _ _ _ _ _ _ _ _ _ _ _ _ (fun h => h0 ((hcondFirst t).mp h)) (fun h => hl ((hcondLast t).mp h))
        (iblk0 V c 0 t) (iblk0 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexists _; iexact H2
      iexists _; iexact H3

/-- The region's body meets the proof data at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the scoped buffers back, their contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last, N0]; decide), PhiA0_eq]
  iintro ⟨H0, H1, Hr, Hg⟩
  isplitl [H0 H1 Hr]
  · isplitl [H0]; · iexists _; iexact H0
    isplitl [H1]; · iexists _; iexact H1
    iexact Hr
  iexact Hg

end Cert.KernelIdeal.Hand

end
-- ==== Proof.Run.lean ====
/-
  The run of the whole program: its two kernel regions as segments between the host stretches.

  Between two items of the program every unscoped buffer of a core is held whole at a known valuation: the launch
  contents, then what each host stretch computes from the valuation before it, then — after a region — the same
  valuation changed only at the region's output arrays. What a region leaves in an output array is the fold of its
  write-backs over the array it found: the proof data's array at the last point.

  This module fixes those contents (outsOf), states that each region's arrays at its last point are the next
  valuation at the arrays' references and that every other buffer is unchanged, builds the two regions' segment
  records over the thread state "every unscoped buffer at the item's valuation, the generator register at some
  state, nothing owed", and runs the program: every argument ends as launched, and the result buffer holds the
  last valuation's value.
-/
import proofs.«145568_j39152921870432_2_alg».proof.Proof.GemmBody
import proofs.«145568_j39152921870432_2_alg».proof.Proof.GemmObligation
import proofs.«145568_j39152921870432_2_alg».proof.Proof.CosBody
import proofs.«145568_j39152921870432_2_alg».proof.Proof.Gen.KernelIdeal.Regions
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, and the valuations around them -/

/-- The buffers as region 0 finds them: the launch contents after the first host stretch, read at the
    TensorCore's references. -/
abbrev VE0 : (c : Dev nD) → (b : Ref sig .tc) → Buf (Elt F) ((c : Thread nD τ).loc b) := fun c b => Gen.V1 m c b

/-- What region 0 leaves: the product array and the row-sum array each at the fold of its write-backs; any other
    reference is never consulted and is given its launch contents. -/
def outsA : (r : Ref sig .tc) → (c : Dev nD) → Buf (Elt F) ((c : Thread nD τ).loc r) := fun r c =>
  if h : r = main_v2_0 then h ▸ ((dat0 (VE0 m) c).arrAt 2 cfg0.N : Buf (Elt F) ((c : Thread nD τ).loc main_v2_0))
  else if h : r = main_v2_1 then h ▸ ((dat0 (VE0 m) c).arrAt 3 cfg0.N : Buf (Elt F) ((c : Thread nD τ).loc main_v2_1))
  else m ((c : Thread nD τ).loc r)

/-- The buffers as region 1 finds them: region 0's exit valuation after the second host stretch. It depends on what
    region 0 left only. -/
abbrev VE1pre : (c : Dev nD) → (b : Ref sig .tc) → Buf (Elt F) ((c : Thread nD τ).loc b) :=
  fun c b => Gen.V3 m (fun _ => outsA m) c b

/-- What the two regions leave, per item: after item 3 the similarity table at the fold of region 1's write-backs,
    before that region 0's two arrays. -/
def outsOf : Gen.Outs (F := F) := fun J =>
  match J with
  | 4 => fun r c =>
    if h : r = main_v21 then h ▸ ((dat1 (VE1pre m) c).arrAt 2 cfg1.N : Buf (Elt F) ((c : Thread nD τ).loc main_v21))
    else m ((c : Thread nD τ).loc r)
  | _ => outsA m

/-- Region 1's entry valuation reads what the regions leave only at item 2, where it is region 0's. -/
theorem V3_outsOf (c : Dev nD) : Gen.V3 m (outsOf m) c = Gen.V3 m (fun _ => outsA m) c := rfl

/-- The buffers as region 1 finds them, over the final choice of contents. -/
abbrev VE1 : (c : Dev nD) → (b : Ref sig .tc) → Buf (Elt F) ((c : Thread nD τ).loc b) := fun c b => Gen.V3 m (outsOf m) c b

theorem VE1_eq : VE1 m = VE1pre m := rfl

theorem outsOf_vw (c : Dev nD) : outsOf m 2 main_v2_0 c = (dat0 (fun c b => Gen.V1 m c b) c).arrAt 2 cfg0.N := by
  show outsA m main_v2_0 c = _
  unfold outsA; rw [dif_pos rfl]
theorem outsOf_wsq (c : Dev nD) : outsOf m 2 main_v2_1 c = (dat0 (fun c b => Gen.V1 m c b) c).arrAt 3 cfg0.N := by
  show outsA m main_v2_1 c = _
  unfold outsA; rw [dif_neg (by decide), dif_pos rfl]
theorem outsOf_rd (c : Dev nD) : outsOf m 4 main_v21 c = (dat1 (fun c b => Gen.V3 m (outsOf m) c b) c).arrAt 2 cfg1.N := by
  show (if h : main_v21 = main_v21 then h ▸ ((dat1 (VE1pre m) c).arrAt 2 cfg1.N : Buf (Elt F) ((c : Thread nD τ).loc main_v21))
    else m ((c : Thread nD τ).loc main_v21)) = _
  rw [dif_pos rfl]
  rfl

/-- The buffers as region 0 leaves them, and as region 1 leaves them. -/
abbrev VX0 : (c : Dev nD) → (b : Ref sig .tc) → Buf (Elt F) ((c : Thread nD τ).loc b) := fun c b => Gen.V2 m (outsOf m) c b
abbrev VX1 : (c : Dev nD) → (b : Ref sig .tc) → Buf (Elt F) ((c : Thread nD τ).loc b) := fun c b => Gen.V4 m (outsOf m) c b

/-! ## Each region's arrays at its last point are the next valuation; nothing else moves -/

/-- Region 0: an input window's array is never written, so at the last point it is the array the region found,
    which the exit valuation does not change; an output window's array is, by the choice of contents, the exit
    valuation at its reference. -/
theorem hF0 (c : Dev nD) : ∀ w : Fin cfg0.W, (dat0 (VE0 m) c).arrAt w cfg0.N = VX0 m c (Pipeline.arrRef spec0 w) := fun
  | 0 => (((dat0 (VE0 m) c).arrAt_in 0 rfl _).trans (A_eq0 (VE0 m) c 0)).trans (Gen.V2_of m (outsOf m) c main_v0 (by decide)).symm
  | 1 => (((dat0 (VE0 m) c).arrAt_in 1 rfl _).trans (A_eq0 (VE0 m) c 1)).trans (Gen.V2_of m (outsOf m) c main_v1 (by decide)).symm
  | 2 => by
    show _ = Gen.V2 m (outsOf m) c main_v2_0
    rw [Gen.V2, Function.update_of_ne (StableHlo.devRef_ne_of_ne (by decide) : (Proc.devRef .tc main_v2_0 : DevRef τ sig) ≠ Proc.devRef .tc main_v2_1),
      Function.update_self]
    exact (outsOf_vw m c).symm
  | 3 => by
    show _ = Gen.V2 m (outsOf m) c main_v2_1
    rw [Gen.V2, Function.update_self]
    exact (outsOf_wsq m c).symm
  | ⟨_ + 4, h⟩ => absurd h (Nat.not_lt.2 (Nat.le_add_left _ _))

theorem hrest0 (c : Dev nD) : ∀ b, b ∉ Finset.univ.image (Pipeline.arrRef spec0) → VX0 m c b = VE0 m c b :=
  fun b hb => Gen.V2_of m (outsOf m) c b fun hmem => hb (by
    rcases List.mem_cons.mp hmem with rfl | hmem
    · exact Finset.mem_image.mpr ⟨2, Finset.mem_univ _, rfl⟩
    · rcases List.mem_cons.mp hmem with rfl | hmem
      · exact Finset.mem_image.mpr ⟨3, Finset.mem_univ _, rfl⟩
      · exact absurd hmem (List.not_mem_nil))

/-- Region 1: the same, its one output the similarity table. -/
theorem hF1 (c : Dev nD) : ∀ w : Fin cfg1.W, (dat1 (VE1 m) c).arrAt w cfg1.N = VX1 m c (Pipeline.arrRef spec1 w) := fun
  | 0 => (((dat1 (VE1 m) c).arrAt_in 0 rfl _).trans (A_eq1 (VE1 m) c 0)).trans (Gen.V4_of m (outsOf m) c main_arg0 (by decide)).symm
  | 1 => (((dat1 (VE1 m) c).arrAt_in 1 rfl _).trans (A_eq1 (VE1 m) c 1)).trans (Gen.V4_of m (outsOf m) c main_arg2 (by decide)).symm
  | 2 => by
    show _ = Gen.V4 m (outsOf m) c main_v21
    rw [Gen.V4, Function.update_self]
    exact (outsOf_rd m c).symm
  | ⟨_ + 3, h⟩ => absurd h (Nat.not_lt.2 (Nat.le_add_left _ _))

theorem hrest1 (c : Dev nD) : ∀ b, b ∉ Finset.univ.image (Pipeline.arrRef spec1) → VX1 m c b = VE1 m c b :=
  fun b hb => Gen.V4_of m (outsOf m) c b fun hmem => hb (by
    rcases List.mem_cons.mp hmem with rfl | hmem
    · exact Finset.mem_image.mpr ⟨2, Finset.mem_univ _, rfl⟩
    · exact absurd hmem (List.not_mem_nil))

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (VE0 m) c
  | ⟨1, _⟩ => fun c => dat1 (VE1 m) c

/-- No core owes another anything: no level is assigned. -/
abbrev Lno : GSem nD τ sig → Finset Unit := fun _ => ∅
abbrev lvno : GSem nD τ sig → Unit → ℕ := fun _ _ => 0

/-- What rides beside the buffers through every item: the core's generator register at some state, and the core
    owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 1 (the similarity table) over the thread state: entered from every unscoped buffer at the valuation after
    the second host stretch, left at that valuation changed at the table. Its arrays are split out of the unscoped
    buffers and put back at the exit contents; the generator register goes into the invariant and comes back;
    nothing is owed; the kernel has no semaphore of its own. -/
def reg1 : RegionSeg (pcfgs (F := F)) Gen.adm (pdats m) () defs₀ Variants.none Lno lvno 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ Lno lvno 1 fun _ _ => rfl
  pre c := iprop(StableHlo.held (c : Thread nD τ) (Pipeline.ucRefs τ sig) (Gen.V3 m (outsOf m) c) ∗ R c)
  post c := iprop(StableHlo.held (c : Thread nD τ) (Pipeline.ucRefs τ sig) (Gen.V4 m (outsOf m) c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 0 (the tiled product with the fused row sums) over the thread state: entered from every unscoped buffer at
    the valuation after the first host stretch, left at that valuation changed at the product array and the row-sum
    array. As for region 1, except that the invariant between points tracks the two accumulators: the scoped buffers
    and the generator register enter it through its first instance and come back out of its last. -/
def reg0 : RegionSeg (pcfgs (F := F)) Gen.adm (pdats m) () defs₀ Variants.none Lno lvno 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ Lno lvno 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsOf m) c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (VE0 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (VE0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run, given the regions' records -/

set_option backward.isDefEq.respectTransparency.types false in
/-- The program's run from the regions' records, with the result read as well: under the hypotheses of the generated
    conditional frame, every weakly fair execution from memory `m` with zero counters terminates, and in every final
    memory the result buffer holds the last valuation's value and each argument its launch contents. The last thread
    state holds every unscoped buffer at the last valuation; read against the final state it gives the memory at each
    of them, the result among them. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (outs : Gen.Outs (F := F))
    (pd : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pd ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pd ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v54) = V15 m outs c main_v54
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pd ι cellOf_inj EP defs₀ 𝒱₀ L lv m ρ main
    (segs m outs 𝒱₀ L lv E ι pd R0 R1)
    (fun c Q => by
      rewrite [main_chain c, Seg.run_eq_chain,
        show (segs m outs 𝒱₀ L lv E ι pd R0 R1 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V15 m outs c))
    (hch := fun c => ⟨.rfl, hpre0 c, hpost0 c, hpre1 c, hpost1 c, .rfl, .rfl, .rfl, .rfl, .rfl, .rfl, .rfl, .rfl, .rfl, .rfl, sep_mono .rfl (hE2 c)⟩)
    (hinit := ?_) (QY := fun c s => s.mem ((c.tc : Thread nD τ).loc main_v54) = V15 m outs c main_v54
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are held at the launch valuation; the rest makes the first rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's buffer and each argument's read off the last valuation
    unfold StableHlo.held
    iintro ⟨Hh, HSI⟩
    ihave Hr := (pointsTo_read_all (Pipeline.ucRefs τ sig) (fun b => ((c : Thread nD τ).1, b)) (V15 m outs c) s') $$ [Hh HSI]
    · isplitl [Hh] <;> iassumption
    icases Hr with ⟨%h, HSI⟩
    imodintro
    isplitr
    · ipureintro
      exact ⟨h (Proc.devRef .tc main_v54) (Finset.mem_filter.mpr ⟨StableHlo.devRef_mem_tcRefs main_v54, by decide⟩),
        (h (Proc.devRef .tc main_arg0) (Finset.mem_filter.mpr ⟨StableHlo.devRef_mem_tcRefs main_arg0, by decide⟩)).trans (V15_main_arg0 m outs c),
        (h (Proc.devRef .tc main_arg1) (Finset.mem_filter.mpr ⟨StableHlo.devRef_mem_tcRefs main_arg1, by decide⟩)).trans (V15_main_arg1 m outs c),
        (h (Proc.devRef .tc main_arg2) (Finset.mem_filter.mpr ⟨StableHlo.devRef_mem_tcRefs main_arg2, by decide⟩)).trans (V15_main_arg2 m outs c),
        (h (Proc.devRef .tc main_arg3) (Finset.mem_filter.mpr ⟨StableHlo.devRef_mem_tcRefs main_arg3, by decide⟩)).trans (V15_main_arg3 m outs c)⟩
    · iexact HSI

/-! ## The run -/

set_option backward.isDefEq.respectTransparency.types false in
/-- Every weakly fair execution of the program from memory `m` with zero counters terminates, and every final memory
    holds each argument as launched: the generated conditional frame at the two regions' records. The launch element is
    the pipelines' own; each core starts owing nothing with its generator register at the launch state, which is the
    rest state of every item. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m (EP := emb₁) (ι := ()) (𝒱₀ := Variants.none) (L := Lno) (lv := lvno) (hL := fun _ _ => rfl) (ρ := ρ)
    (outs := outsOf m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach Lno lvno fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

set_option backward.isDefEq.respectTransparency.types false in
/-- The same run with the result read: every final memory holds, in the result buffer, the last valuation's value
    over what the two regions leave. -/
theorem run_result : θ_run defs (onTc (τ := τ) (main (F := F))) ⟨m, fun _ => 0, ρ⟩ (fun r => ∀ c : Dev nD,
      r.2.mem ((c.tc : Thread nD τ).loc main_v54) = Gen.V15 m (outsOf m) c main_v54
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_cond m ρ (EP := emb₁) (ι := ()) (𝒱₀ := Variants.none) (L := Lno) (lv := lvno) (hL := fun _ _ => rfl)
    (outs := outsOf m) (pd := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach Lno lvno fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Cert.KernelIdeal.Hand

end
-- ==== Proof.GemmBodyBits.lean ====
/- The word-level program has the same text as the idealized one, operation for operation, so the proof below is the same text read in the word-level program's namespace. -/
/-
  Region 0: the tiled product v·wᵀ with the fused row sums of w², over a 4 × 16 grid.

  Grid point t has coordinates (i, j) = (t / 16, t % 16): i picks a band of 512 rows of w, j a tile of 2048 columns.
  The body keeps two accumulators in scratch: a [64, 512] block of the product and a [512] vector of the row sums.
  At j = 0 it first stores zeros into both; at every point it adds the tile's contribution,
      acc ↦ acc + v_tile · w_tileᵀ      and      s ↦ s + Σ_k w_tile[·, k]²;
  at j = 15 it copies both accumulators into the two output blocks, which the pipeline then writes back to rows
  512·i … 512·i + 511. At the other points the output windows are idle.

  This module states, point by point, what the accumulators hold (accAt0), the invariant that carries them from
  one point to the next, and the proof data of the region; that the body meets it is shown elsewhere, case by case
  (j = 0, 0 < j < 15, j = 15).
-/
import proofs.«145568_j39152921870432_2_alg».proof.Proof.Gen.Kernel.Launch
import proofs.«145568_j39152921870432_2_alg».proof.Proof.Gen.Kernel.Skeleton
import proofs.«145568_j39152921870432_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulation -/

/-- One point's contribution added to the two accumulators: the product block gains v_tile · w_tileᵀ, the row sums
    gain the tile's sums of squares. -/
def step0 (c : Dev nD) (t : Fin cfg0.N) (s : Vec F S64x512 .f32 × Vec F S512 .f32) : Vec F S64x512 .f32 × Vec F S512 .f32 :=
  (k0_pay4 (iblk0 V c 1 t) (iblk0 V c 0 t) s.1, k0_pay5 (iblk0 V c 1 t) s.2)

/-- The zero accumulators a band starts from. -/
def zero0 : Vec F S64x512 .f32 × Vec F S512 .f32 := (k0_pay1, k0_pay2)

/-- What the two accumulators hold after the body at position n: at the first tile of a band (n % 16 = 0) the
    contribution added to zero, otherwise added to what the point before left. -/
def accAt0 (c : Dev nD) : (n : ℕ) → n < cfg0.N → Vec F S64x512 .f32 × Vec F S512 .f32
  | 0, hn => step0 V c ⟨0, hn⟩ zero0
  | n + 1, hn => step0 V c ⟨n + 1, hn⟩ (if (n + 1) % 16 = 0 then zero0 else accAt0 c n (Nat.lt_of_succ_lt hn))

theorem accAt0_first (c : Dev nD) (t : Fin cfg0.N) (h : t.val % 16 = 0) :
    accAt0 V c t.val t.isLt = step0 V c t zero0 := by
  obtain ⟨n, hn⟩ := t
  cases n with
  | zero => rfl
  | succ n => exact congrArg (step0 V c ⟨n + 1, hn⟩) (if_pos h)

theorem accAt0_next (c : Dev nD) (t : Fin cfg0.N) (h : ¬ t.val % 16 = 0) :
    accAt0 V c t.val t.isLt = step0 V c t (accAt0 V c (t.val - 1) (Nat.lt_of_le_of_lt (Nat.sub_le _ _) t.isLt)) := by
  obtain ⟨n, hn⟩ := t
  cases n with
  | zero => exact absurd (Nat.zero_mod _) h
  | succ n => exact congrArg (step0 V c ⟨n + 1, hn⟩) (if_neg h)

/-! ## The invariant between points -/

/-- The two scratch accumulators, as whole memrefs. -/
abbrev scM0_0 : Memref sig .tc .vmem S64x512 .f32 := Memref.whole cc0_scratch0
abbrev scM0_1 : Memref sig .tc .vmem S512 .f32 := Memref.whole cc0_scratch1

/-- The scoped buffers this region never touches (the other region's staging buffers), each whole at some contents. -/
def restS0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f))

/-- Before position n: at the start every scoped buffer at anything; afterwards the two accumulators at what the
    point before left, the untouched scoped buffers at anything, the generator register at some state. -/
def PhiS0 (c : Dev nD) : (n : ℕ) → n ≤ cfg0.N → sProp 𝕄
  | 0, _ => Pipeline.ΦA spec0 c
  | n + 1, hn => iprop(owns (c : Thread nD τ) scM0_0 fullShare (accAt0 V c n hn).1
      ∗ owns (c : Thread nD τ) scM0_1 fullShare (accAt0 V c n hn).2 ∗ restS0 c ∗ (∃ r, prngReg c r))

/-! ## The proof data -/

/-- The arrays as the region finds them; after the body at point t the inputs' buffers at their blocks and the
    outputs' at the accumulators (consulted only at the last tile of a band, where the body stores them);
    the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (accAt0 V c t.val t.isLt).1
    | ⟨3, _⟩ => (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (accAt0 V c t.val t.isLt).1 := by dsimp only [dat0]
theorem after0_3 (c : Dev nD) (t : Fin cfg0.N) : (dat0 V c).after 3 t = (accAt0 V c t.val t.isLt).2 := by dsimp only [dat0]

end Cert.Kernel.Hand

end
-- ==== Proof.GemmCasesBits.lean ====
/- The word-level program has the same text as the idealized one, operation for operation, so the proof below is the same text read in the word-level program's namespace. -/
/-
  Region 0's body, case by case.

  The body reads the reduction coordinate j = i 1 twice: at j = 0 it first stores zeros into both scratch
  accumulators; at j = 15 it finally copies both accumulators into the two output blocks. In between, always,
  it loads the w tile and the v tile and replaces the accumulators by
      acc + v_tile · w_tileᵀ      and      s + Σ_k w_tile[·, k]².
  The grid's reduction axis has 16 > 1 steps, so no point is both first and last: three cases.
  Each case is the body's triple on whole memrefs: the inputs' blocks are kept, the accumulators (and, in the last
  case, the output blocks) end at the payload terms of the kernel's skeleton.
-/
import proofs.«145568_j39152921870432_2_alg».proof.Proof.Gen.Kernel.Launch
import proofs.«145568_j39152921870432_2_alg».proof.Proof.Gen.Kernel.Skeleton
import proofs.«145568_j39152921870432_2_alg».proof.Proof.Gen.Kernel.Points
import Idealize.ShloMosaic.Lib.Pipeline.Value
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions -/

/-- The first conditional's condition: the reduction coordinate is 0. -/
abbrev condFirst (i : grid0.Coords) : Prop := (Scalar.cmpi .ne (Scalar.extui (Scalar.cmpi .eq (BitVec.ofNat 32 (i 1).val) 0#32)) 0#32) = 1#1
/-- The last conditional's condition: the reduction coordinate is 15. -/
abbrev condLast (i : grid0.Coords) : Prop := k0_cond2 i = 1#1

theorem hcondFirst : ∀ t : Fin cfg0.N, condFirst (grid0.coords t) ↔ t.val % 16 = 0 :=
  (by decide +kernel : ∀ t : Fin grid0.N, condFirst (grid0.coords t) ↔ t.val % 16 = 0)
theorem hcondLast : ∀ t : Fin cfg0.N, condLast (grid0.coords t) ↔ t.val % 16 = 15 :=
  (by decide +kernel : ∀ t : Fin grid0.N, condLast (grid0.coords t) ↔ t.val % 16 = 15)

/-! ## A whole-block store read back, and a whole-block load -/

theorem off2 : (![0, 0] : Fin 2 → ℕ) = fun _ => 0 := by funext a; fin_cases a <;> rfl
theorem off1 : (![0] : Fin 1 → ℕ) = fun _ => 0 := by funext a; fin_cases a; rfl

/-- One store through the whole block, read back: its payload, whatever the buffer held. -/
theorem read_store_whole {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  subst h
  rw [View.read_writes_eq_canon _ _ _ (fun y => ⟨_, List.mem_singleton_self _, by
    show y ∈ (Rect.whole S).set; rw [Rect.set_whole]; exact Finset.mem_univ y⟩), View.canon_unit_zero rfl]

/-- A load through the whole block of a whole memref's contents reads them all. -/
theorem load_whole {S : Shape} {e : EltTy} (m : Memref sig .tc .vmem S e) (hm : m.IsWhole)
    {off : Fin S.rank → ℕ} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

/-- A store through the whole block, LAST, read back: its payload, whatever the earlier stores were. -/
theorem read_store_whole_cons {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-! ## The middle case: neither conditional taken -/

set_option maxHeartbeats 2000000 in
/-- At a point that is neither the first nor the last tile of its band the body only accumulates; the output blocks
    are left as they were. -/
theorem case_mid (c : Dev nD) (i : grid0.Coords)
    (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc1 : ¬ condFirst i) (hc2 : ¬ condLast i)
    (xv : Vec F S64x2048 .f32) (xw : Vec F S512x2048 .f32) (x4 : Vec F S64x512 .f32) (x5 : Vec F S512 .f32)
    (s6 : Vec F S64x512 .f32) (s7 : Vec F S512 .f32)
    (E : Set ℕ) (K : PUnit → sProp 𝕄) :
    iprop(owns (c : Thread nD τ) arg2 fullShare xv ∗ owns (c : Thread nD τ) arg3 fullShare xw
        ∗ owns (c : Thread nD τ) arg4 fullShare x4 ∗ owns (c : Thread nD τ) arg5 fullShare x5
        ∗ owns (c : Thread nD τ) arg6 fullShare s6 ∗ owns (c : Thread nD τ) arg7 fullShare s7
        ∗ (iprop(owns (c : Thread nD τ) arg2 fullShare xv ∗ owns (c : Thread nD τ) arg3 fullShare xw
            ∗ owns (c : Thread nD τ) arg4 fullShare x4 ∗ owns (c : Thread nD τ) arg5 fullShare x5
            ∗ owns (c : Thread nD τ) arg6 fullShare (k0_pay4 xw xv s6) ∗ owns (c : Thread nD τ) arg7 fullShare (k0_pay5 xw s7)) -∗ K ⟨⟩))
      ⊢ wp frame (wpE (defs₀ (F := F)) Variants.none c none) E (cc0__gemm_kernel i arg2 harg2 arg3 harg3 arg4 harg4 arg5 harg5 arg6 harg6 arg7 harg7) K := by
  simp only [cc0__gemm_kernel_eq_skeleton]; unfold cc0__gemm_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    rw [read_store_whole _ _ off2, load_whole arg3 harg3 off2, load_whole arg2 harg2 off2, load_whole arg6 harg6 off2]
  · iexists _; isplitr
    swap; · iexact H7
    ipureintro
    rw [read_store_whole _ _ off1, load_whole arg3 harg3 off2, load_whole arg7 harg7 off1]

/-! ## The first tile of a band: the accumulators are zeroed first -/

set_option maxHeartbeats 2000000 in
/-- At the first tile of a band the body stores zeros into both accumulators, whatever they held, then accumulates;
    the output blocks are left as they were. -/
theorem case_first (c : Dev nD) (i : grid0.Coords)
    (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc1 : condFirst i) (hc2 : ¬ condLast i)
    (xv : Vec F S64x2048 .f32) (xw : Vec F S512x2048 .f32) (x4 : Vec F S64x512 .f32) (x5 : Vec F S512 .f32)
    (E : Set ℕ) (K : PUnit → sProp 𝕄) :
    iprop(owns (c : Thread nD τ) arg2 fullShare xv ∗ owns (c : Thread nD τ) arg3 fullShare xw
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg2 fullShare xv ∗ owns (c : Thread nD τ) arg3 fullShare xw
            ∗ owns (c : Thread nD τ) arg4 fullShare x4 ∗ owns (c : Thread nD τ) arg5 fullShare x5
            ∗ owns (c : Thread nD τ) arg6 fullShare (k0_pay4 xw xv k0_pay1) ∗ owns (c : Thread nD τ) arg7 fullShare (k0_pay5 xw k0_pay2)) -∗ K ⟨⟩))
      ⊢ wp frame (wpE (defs₀ (F := F)) Variants.none c none) E (cc0__gemm_kernel i arg2 harg2 arg3 harg3 arg4 harg4 arg5 harg5 arg6 harg6 arg7 harg7) K := by
  simp only [cc0__gemm_kernel_eq_skeleton]; unfold cc0__gemm_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg2.eq_unread hf2; obtain rfl := harg3.eq_unread hf3
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    rw [read_store_whole_cons _ _ off2, load_whole arg3 harg3 off2, load_whole arg2 harg2 off2]
    sl_unfold_words
    rw [View.readCov_unit_zero _ off2]
  · iexists _; isplitr
    swap; · iexact H7
    ipureintro
    rw [read_store_whole_cons _ _ off1, load_whole arg3 harg3 off2]
    sl_unfold_words
    rw [View.readCov_unit_zero _ off1]

/-! ## The last tile of a band: the accumulators are copied out -/

set_option maxHeartbeats 2000000 in
/-- At the last tile of a band the body accumulates and then copies both accumulators into the output blocks. -/
theorem case_last (c : Dev nD) (i : grid0.Coords)
    (arg2 : Memref sig .tc .vmem S64x2048 .f32) (harg2 : arg2.IsWhole) (arg3 : Memref sig .tc .vmem S512x2048 .f32) (harg3 : arg3.IsWhole)
    (arg4 : Memref sig .tc .vmem S64x512 .f32) (harg4 : arg4.IsWhole) (arg5 : Memref sig .tc .vmem S512 .f32) (harg5 : arg5.IsWhole)
    (arg6 : Memref sig .tc .vmem S64x512 .f32) (harg6 : arg6.IsWhole) (arg7 : Memref sig .tc .vmem S512 .f32) (harg7 : arg7.IsWhole)
    (hc1 : ¬ condFirst i) (hc2 : condLast i)
    (xv : Vec F S64x2048 .f32) (xw : Vec F S512x2048 .f32) (s6 : Vec F S64x512 .f32) (s7 : Vec F S512 .f32)
    (E : Set ℕ) (K : PUnit → sProp 𝕄) :
    iprop(owns (c : Thread nD τ) arg2 fullShare xv ∗ owns (c : Thread nD τ) arg3 fullShare xw
        ∗ (∃ d, owns (c : Thread nD τ) arg4 fullShare d) ∗ (∃ d, owns (c : Thread nD τ) arg5 fullShare d)
        ∗ owns (c : Thread nD τ) arg6 fullShare s6 ∗ owns (c : Thread nD τ) arg7 fullShare s7
        ∗ (iprop(owns (c : Thread nD τ) arg2 fullShare xv ∗ owns (c : Thread nD τ) arg3 fullShare xw
            ∗ owns (c : Thread nD τ) arg4 fullShare (k0_pay4 xw xv s6) ∗ owns (c : Thread nD τ) arg5 fullShare (k0_pay5 xw s7)
            ∗ owns (c : Thread nD τ) arg6 fullShare (k0_pay4 xw xv s6) ∗ owns (c : Thread nD τ) arg7 fullShare (k0_pay5 xw s7)) -∗ K ⟨⟩))
      ⊢ wp frame (wpE (defs₀ (F := F)) Variants.none c none) E (cc0__gemm_kernel i arg2 harg2 arg3 harg3 arg4 harg4 arg5 harg5 arg6 harg6 arg7 harg7) K := by
  simp only [cc0__gemm_kernel_eq_skeleton]; unfold cc0__gemm_kernel_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [read_store_whole _ _ off2]
    sl_unfold_words
    rw [View.readCov_unit_zero _ off2, load_whole arg3 harg3 off2, load_whole arg2 harg2 off2, load_whole arg6 harg6 off2]
  isplitl [H5]
  · iexists _; isplitr
    swap; · iexact H5
    ipureintro
    rw [read_store_whole _ _ off1]
    sl_unfold_words
    rw [View.readCov_unit_zero _ off1, load_whole arg3 harg3 off2, load_whole arg7 harg7 off1]
  isplitl [H6]
  · iexists _; isplitr
    swap; · iexact H6
    ipureintro
    sl_unfold_words
    rw [read_store_whole _ _ off2, load_whole arg3 harg3 off2, load_whole arg2 harg2 off2, load_whole arg6 harg6 off2]
  · iexists _; isplitr
    swap; · iexact H7
    ipureintro
    sl_unfold_words
    rw [read_store_whole _ _ off1, load_whole arg3 harg3 off2, load_whole arg7 harg7 off1]

end Cert.Kernel.Hand

end
-- ==== Proof.GemmObligationBits.lean ====
/- The word-level program has the same text as the idealized one, operation for operation, so the proof below is the same text read in the word-level program's namespace. -/
/-
  Region 0 meets its proof data.

  At every grid point t the body is handed the invariant before t, the two input blocks, and the two output blocks;
  by the reduction coordinate t % 16 it is in one of three cases (GemmCases). In each the accumulators end at
  accAt0 at t — restarted from zero where t % 16 = 0, continued from t − 1 otherwise — so the invariant after t
  holds; where t % 16 ≠ 15 the output windows are idle and their buffers are handed back as found, where
  t % 16 = 15 they end at the accumulators, which is what the proof data says the body leaves there.
  Before the first point the invariant is the launch's (every scoped buffer at anything); after the last it gives
  the scoped buffers back with their contents forgotten.
-/
import proofs.«145568_j39152921870432_2_alg».proof.Proof.GemmBodyBits
import proofs.«145568_j39152921870432_2_alg».proof.Proof.GemmCasesBits
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Where the output windows are idle -/

theorem N0 : cfg0.N = 64 := N_0

theorem idle0_2 : ∀ t : Fin cfg0.N, ¬ t.val % 16 = 15 → cfg0.idle 2 (grid0.coords t) = true :=
  (by decide +kernel : ∀ t : Fin grid0.N, ¬ t.val % 16 = 15 → cfg0.idle 2 (grid0.coords t) = true)
theorem idle0_3 : ∀ t : Fin cfg0.N, ¬ t.val % 16 = 15 → cfg0.idle 3 (grid0.coords t) = true :=
  (by decide +kernel : ∀ t : Fin grid0.N, ¬ t.val % 16 = 15 → cfg0.idle 3 (grid0.coords t) = true)
theorem live0_2 : ∀ t : Fin cfg0.N, t.val % 16 = 15 → cfg0.idle 2 (grid0.coords t) = false :=
  (by decide +kernel : ∀ t : Fin grid0.N, t.val % 16 = 15 → cfg0.idle 2 (grid0.coords t) = false)
theorem live0_3 : ∀ t : Fin cfg0.N, t.val % 16 = 15 → cfg0.idle 3 (grid0.coords t) = false :=
  (by decide +kernel : ∀ t : Fin grid0.N, t.val % 16 = 15 → cfg0.idle 3 (grid0.coords t) = false)
theorem noflush0_2 (t : Fin cfg0.N) (h : ¬ t.val % 16 = 15) : (cfg0.win 2).flush t = false :=
  Bool.eq_false_iff.mpr fun hf => h ((flush0_2 t).mp hf)
theorem noflush0_3 (t : Fin cfg0.N) (h : ¬ t.val % 16 = 15) : (cfg0.win 3).flush t = false :=
  Bool.eq_false_iff.mpr fun hf => h ((flush0_3 t).mp hf)

/-! ## The invariant, spelt out -/

/-- The launch's invariant with the two accumulators as memrefs owned at some contents. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ restS0 c)
          ∗ (∃ r, prngReg c r)) := by
  unfold Pipeline.ΦA restS0; rw [scopedRest0_eq]; simp only [scM0_0, scM0_1, owns_whole]; rfl

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (accAt0 V c n hn).1
      ∗ owns (c : Thread nD τ) scM0_1 fullShare (accAt0 V c n hn).2 ∗ restS0 c ∗ (∃ r, prngReg c r)) := rfl

theorem PhiS0_pos (c : Dev nD) (n : ℕ) (h : n ≤ cfg0.N) (hz : n ≠ 0) :
    PhiS0 V c n h = iprop(owns (c : Thread nD τ) scM0_0 fullShare (accAt0 V c (n - 1) (by omega)).1
      ∗ owns (c : Thread nD τ) scM0_1 fullShare (accAt0 V c (n - 1) (by omega)).2 ∗ restS0 c ∗ (∃ r, prngReg c r)) := by
  cases n with
  | zero => exact absurd rfl hz
  | succ n => rfl

theorem Phi_castSucc (c : Dev nD) (t : Fin cfg0.N) :
    (dat0 V c).Φ t.castSucc = PhiS0 V c t.val (Nat.le_of_lt t.isLt) := by
  dsimp only [dat0]; simp only [Fin.coe_castSucc]

/-- Before any point the accumulators are owned at SOME contents. -/
theorem Phi_weak (c : Dev nD) (t : Fin cfg0.N) :
    (dat0 V c).Φ t.castSucc ⊢ iprop((∃ d, owns (c : Thread nD τ) scM0_0 fullShare d) ∗ (∃ d, owns (c : Thread nD τ) scM0_1 fullShare d)
      ∗ restS0 c ∗ (∃ r, prngReg c r)) := by
  rw [Phi_castSucc]
  by_cases hz : t.val = 0
  · rw [PhiS0_zero V c _ _ hz, PhiA0_eq]
    iintro ⟨⟨H0, H1, Hr⟩, Hg⟩
    isplitl [H0]; · iexact H0
    isplitl [H1]; · iexact H1
    isplitl [Hr]; · iexact Hr
    iexact Hg
  · rw [PhiS0_pos V c _ _ hz]
    iintro ⟨H0, H1, Hr, Hg⟩
    isplitl [H0]; · iexists _; iexact H0
    isplitl [H1]; · iexists _; iexact H1
    isplitl [Hr]; · iexact Hr
    iexact Hg

/-! ## The body at a point -/

theorem live0_0 : ∀ t : Fin cfg0.N, cfg0.idle 0 (grid0.coords t) = false := fun _ => rfl
theorem live0_1 : ∀ t : Fin cfg0.N, cfg0.idle 1 (grid0.coords t) = false := fun _ => rfl

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t
    ∗ (dat0 V c).leavesExact 2 t ∗ (dat0 V c).leavesExact 3 t)

theorem leaves0_0 (c : Dev nD) (t : Fin cfg0.N) :
    (dat0 V c).leavesExact 0 t = owns (c : Thread nD τ) (st0_0 t) fullShare (iblk0 V c 0 t) := by
  unfold Dat.leavesExact; rw [live0_0 t, after0_0]
theorem leaves0_1 (c : Dev nD) (t : Fin cfg0.N) :
    (dat0 V c).leavesExact 1 t = owns (c : Thread nD τ) (st0_1 t) fullShare (iblk0 V c 1 t) := by
  unfold Dat.leavesExact; rw [live0_1 t, after0_1]
theorem leaves0_2_last (c : Dev nD) (t : Fin cfg0.N) (h : t.val % 16 = 15) :
    (dat0 V c).leavesExact 2 t = owns (c : Thread nD τ) (st0_2 t) fullShare (accAt0 V c t.val t.isLt).1 := by
  unfold Dat.leavesExact; rw [live0_2 t h, after0_2]
theorem leaves0_3_last (c : Dev nD) (t : Fin cfg0.N) (h : t.val % 16 = 15) :
    (dat0 V c).leavesExact 3 t = owns (c : Thread nD τ) (st0_3 t) fullShare (accAt0 V c t.val t.isLt).2 := by
  unfold Dat.leavesExact; rw [live0_3 t h, after0_3]

set_option maxHeartbeats 4000000 in
/-- The body at any point: by the reduction coordinate the point is the first tile of its band, a middle one, or the
    last; the invariant hands the accumulators over at what the point before left (at anything where a band starts)
    and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1]
  have hN : t.val < 64 := lt_of_lt_of_eq t.isLt N0
  by_cases h0 : t.val % 16 = 0
  · have hl : ¬ t.val % 16 = 15 := by omega
    rw [Dat.leavesExact_idle (dat0 V c) 2 t (idle0_2 t hl) (noflush0_2 t hl),
      Dat.leavesExact_idle (dat0 V c) 3 t (idle0_3 t hl) (noflush0_3 t hl)]
    rw [accAt0_first V c t h0]; unfold step0 zero0; dsimp only
    iintro ⟨Hinv, Ho, ⟨%d0, H0⟩, ⟨%d1, H1⟩, ⟨%d2, H2⟩, ⟨%d3, H3⟩⟩
    have hweak := Phi_weak V c t
    ihave Hw := hweak $$ Hinv
    icases Hw with ⟨HS0, HS1, Hr, Hg⟩
    iapply (case_first c (grid0.coords t) _ _ _ _ _ _ _ _ _ _ _ _ ((hcondFirst t).mpr h0) (fun h => hl ((hcondLast t).mp h))
      (iblk0 V c 0 t) (iblk0 V c 1 t) _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hr Hg]
    · isplitl [HS0]; · iexact HS0
      isplitl [HS1]; · iexact HS1
      isplitl [Hr]; · iexact Hr
      iexact Hg
    isplitl [Ho]; · iexact Ho
    isplitl [H0]; · iexact H0
    isplitl [H1]; · iexact H1
    isplitl [H2]; · iexists _; iexact H2
    iexists _; iexact H3
  · have hz : t.val ≠ 0 := fun h => h0 (by rw [h])
    rw [accAt0_next V c t h0]; unfold step0; dsimp only
    rw [Phi_castSucc, PhiS0_pos V c _ _ hz]
    by_cases hl : t.val % 16 = 15
    · rw [leaves0_2_last V c t hl, leaves0_3_last V c t hl, accAt0_next V c t h0]; unfold step0; dsimp only
      iintro ⟨⟨HS0, HS1, Hr, Hg⟩, Ho, ⟨%d0, H0⟩, ⟨%d1, H1⟩, ⟨%d2, H2⟩, ⟨%d3, H3⟩⟩
      iapply (case_last c (grid0.coords t) _ _ _ _ _ _ _ _ _ _ _ _ (fun h => h0 ((hcondFirst t).mp h)) ((hcondLast t).mpr hl)
        (iblk0 V c 0 t) (iblk0 V c 1 t) _ _ Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      iexact H3
    · rw [Dat.leavesExact_idle (dat0 V c) 2 t (idle0_2 t hl) (noflush0_2 t hl),
        Dat.leavesExact_idle (dat0 V c) 3 t (idle0_3 t hl) (noflush0_3 t hl)]
      iintro ⟨⟨HS0, HS1, Hr, Hg⟩, Ho, ⟨%d0, H0⟩, ⟨%d1, H1⟩, ⟨%d2, H2⟩, ⟨%d3, H3⟩⟩
      iapply (case_mid c (grid0.coords t) _ _ _ _ _ _ _ _ _ _ _ _ (fun h => h0 ((hcondFirst t).mp h)) (fun h => hl ((hcondLast t).mp h))
        (iblk0 V c 0 t) (iblk0 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexists _; iexact H2
      iexists _; iexact H3

/-- The region's body meets the proof data at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the scoped buffers back, their contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last, N0]; decide), PhiA0_eq]
  iintro ⟨H0, H1, Hr, Hg⟩
  isplitl [H0 H1 Hr]
  · isplitl [H0]; · iexists _; iexact H0
    isplitl [H1]; · iexists _; iexact H1
    iexact Hr
  iexact Hg

end Cert.Kernel.Hand

end
-- ==== Proof.CosBodyBits.lean ====
/- The word-level program has the same text as the idealized one, operation for operation, so the proof below is the same text read in the word-level program's namespace. -/
import proofs.«145568_j39152921870432_2_alg».proof.Proof.Gen.Kernel.Launch
import proofs.«145568_j39152921870432_2_alg».proof.Proof.Gen.Kernel.Skeleton
import proofs.«145568_j39152921870432_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

/-! # The similarity region: its body's triple and its proof data

The second kernel call has a grid of one point and three windows, each one's block the whole of its array:
the anchor rows (64 x 512), the key rows (2048 x 512) and the table of their inner products (64 x 2048).
Everything here is stated at a parameter `V`, the contents of the TensorCore's buffers when the region is
entered, and at any carrier `F` of the floating-point types. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The anchor window's staging buffer holds the anchor block at every point, for any proof data over the entry
    contents whose body leaves that block where it found it: an input window is either fetched at the point or
    still holds the block of an earlier point with the same index. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the key window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- Each buffer as one rectangle, at offset zero and of the buffer's own extents: the body loads the two input
    buffers whole and its only store writes the whole table. -/
abbrev rAnchor : Rect S64x512 := Rect.unit (s := S64x512) ![0, 0] S64x512.size inb_S64x512_S64x512_0_0
abbrev rKeys : Rect S2048x512 := Rect.unit (s := S2048x512) ![0, 0] S2048x512.size inb_S2048x512_S2048x512_0_0
abbrev rTable : Rect S64x2048 := Rect.unit (s := S64x2048) ![0, 0] S64x2048.size inb_S64x2048_S64x2048_0_0

/-- The output buffer after the body, as a function of what the two input buffers held: the one store, whose
    payload is the product of what the two loads read — the anchor block and the key block, the latter transposed. -/
def out1_2 (x0 : Vec F S64x512 .f32) (x1 : Vec F S2048x512 .f32) : Vec F S64x2048 .f32 :=
  View.canon [⟨rTable, k1_pay1 (View.ld x0 rAnchor) (View.ld x1 rKeys)⟩]

/-- That store covers the buffer: its rectangle is the whole table. -/
theorem cover1_2 (p0 : Vec F S64x2048 .f32) (y : S64x2048.Idx) :
    ∃ pc ∈ ([⟨rTable, p0⟩] : List (View.Piece (Elt F) S64x2048 .f32)), y ∈ pc.1.set :=
  View.cover_of_tiled [⟨rTable, p0⟩] S64x2048.size (by rfl) y

/-! ## The body's triple -/

set_option maxHeartbeats 1000000 in
/-- The body on whole staging memrefs, the two inputs' at contents `x0`, `x1` and the output's at anything (the body
    reads the output buffer once, and uses nothing of what it read), runs to the continuation holding the inputs' as
    they were and the output's at `out1_2 x0 x1`. -/
theorem sound_kernel1 (c : Dev nD) (E : Set ℕ) (i : grid1.Coords)
    (arg1 : Memref sig .tc .vmem S64x512 .f32) (harg1 : arg1.IsWhole)
    (arg2 : Memref sig .tc .vmem S2048x512 .f32) (harg2 : arg2.IsWhole)
    (arg3 : Memref sig .tc .vmem S64x2048 .f32) (harg3 : arg3.IsWhole)
    (x0 : Vec F S64x512 .f32) (x1 : Vec F S2048x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__cos_kernel i arg1 harg1 arg2 harg2 arg3 harg3) K := by
  simp only [cc1__cos_kernel_eq_skeleton]; unfold cc1__cos_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- The proof data of the region on core `c`: the arrays as the region finds them; after the body at point `t` each
    input's buffer at its block and the output's at `out1_2` of the two input blocks; the invariant that of a region
    which touches nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RunBits.lean ====
/- The word-level program has the same text as the idealized one, operation for operation, so the proof below is the same text read in the word-level program's namespace. -/
/-
  The run of the whole program: its two kernel regions as segments between the host stretches.

  Between two items of the program every unscoped buffer of a core is held whole at a known valuation: the launch
  contents, then what each host stretch computes from the valuation before it, then — after a region — the same
  valuation changed only at the region's output arrays. What a region leaves in an output array is the fold of its
  write-backs over the array it found: the proof data's array at the last point.

  This module fixes those contents (outsOf), states that each region's arrays at its last point are the next
  valuation at the arrays' references and that every other buffer is unchanged, builds the two regions' segment
  records over the thread state "every unscoped buffer at the item's valuation, the generator register at some
  state, nothing owed", and runs the program: every argument ends as launched, and the result buffer holds the
  last valuation's value.
-/
import proofs.«145568_j39152921870432_2_alg».proof.Proof.GemmBodyBits
import proofs.«145568_j39152921870432_2_alg».proof.Proof.GemmObligationBits
import proofs.«145568_j39152921870432_2_alg».proof.Proof.CosBodyBits
import proofs.«145568_j39152921870432_2_alg».proof.Proof.Gen.Kernel.Regions
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, and the valuations around them -/

/-- The buffers as region 0 finds them: the launch contents after the first host stretch, read at the
    TensorCore's references. -/
abbrev VE0 : (c : Dev nD) → (b : Ref sig .tc) → Buf (Elt F) ((c : Thread nD τ).loc b) := fun c b => Gen.V1 m c b

/-- What region 0 leaves: the product array and the row-sum array each at the fold of its write-backs; any other
    reference is never consulted and is given its launch contents. -/
def outsA : (r : Ref sig .tc) → (c : Dev nD) → Buf (Elt F) ((c : Thread nD τ).loc r) := fun r c =>
  if h : r = main_v2_0 then h ▸ ((dat0 (VE0 m) c).arrAt 2 cfg0.N : Buf (Elt F) ((c : Thread nD τ).loc main_v2_0))
  else if h : r = main_v2_1 then h ▸ ((dat0 (VE0 m) c).arrAt 3 cfg0.N : Buf (Elt F) ((c : Thread nD τ).loc main_v2_1))
  else m ((c : Thread nD τ).loc r)

/-- The buffers as region 1 finds them: region 0's exit valuation after the second host stretch. It depends on what
    region 0 left only. -/
abbrev VE1pre : (c : Dev nD) → (b : Ref sig .tc) → Buf (Elt F) ((c : Thread nD τ).loc b) :=
  fun c b => Gen.V3 m (fun _ => outsA m) c b

/-- What the two regions leave, per item: after item 3 the similarity table at the fold of region 1's write-backs,
    before that region 0's two arrays. -/
def outsOf : Gen.Outs (F := F) := fun J =>
  match J with
  | 4 => fun r c =>
    if h : r = main_v21 then h ▸ ((dat1 (VE1pre m) c).arrAt 2 cfg1.N : Buf (Elt F) ((c : Thread nD τ).loc main_v21))
    else m ((c : Thread nD τ).loc r)
  | _ => outsA m

/-- Region 1's entry valuation reads what the regions leave only at item 2, where it is region 0's. -/
theorem V3_outsOf (c : Dev nD) : Gen.V3 m (outsOf m) c = Gen.V3 m (fun _ => outsA m) c := rfl

/-- The buffers as region 1 finds them, over the final choice of contents. -/
abbrev VE1 : (c : Dev nD) → (b : Ref sig .tc) → Buf (Elt F) ((c : Thread nD τ).loc b) := fun c b => Gen.V3 m (outsOf m) c b

theorem VE1_eq : VE1 m = VE1pre m := rfl

theorem outsOf_vw (c : Dev nD) : outsOf m 2 main_v2_0 c = (dat0 (fun c b => Gen.V1 m c b) c).arrAt 2 cfg0.N := by
  show outsA m main_v2_0 c = _
  unfold outsA; rw [dif_pos rfl]
theorem outsOf_wsq (c : Dev nD) : outsOf m 2 main_v2_1 c = (dat0 (fun c b => Gen.V1 m c b) c).arrAt 3 cfg0.N := by
  show outsA m main_v2_1 c = _
  unfold outsA; rw [dif_neg (by decide), dif_pos rfl]
theorem outsOf_rd (c : Dev nD) : outsOf m 4 main_v21 c = (dat1 (fun c b => Gen.V3 m (outsOf m) c b) c).arrAt 2 cfg1.N := by
  show (if h : main_v21 = main_v21 then h ▸ ((dat1 (VE1pre m) c).arrAt 2 cfg1.N : Buf (Elt F) ((c : Thread nD τ).loc main_v21))
    else m ((c : Thread nD τ).loc main_v21)) = _
  rw [dif_pos rfl]
  rfl

/-- The buffers as region 0 leaves them, and as region 1 leaves them. -/
abbrev VX0 : (c : Dev nD) → (b : Ref sig .tc) → Buf (Elt F) ((c : Thread nD τ).loc b) := fun c b => Gen.V2 m (outsOf m) c b
abbrev VX1 : (c : Dev nD) → (b : Ref sig .tc) → Buf (Elt F) ((c : Thread nD τ).loc b) := fun c b => Gen.V4 m (outsOf m) c b

/-! ## Each region's arrays at its last point are the next valuation; nothing else moves -/

/-- Region 0: an input window's array is never written, so at the last point it is the array the region found,
    which the exit valuation does not change; an output window's array is, by the choice of contents, the exit
    valuation at its reference. -/
theorem hF0 (c : Dev nD) : ∀ w : Fin cfg0.W, (dat0 (VE0 m) c).arrAt w cfg0.N = VX0 m c (Pipeline.arrRef spec0 w) := fun
  | 0 => (((dat0 (VE0 m) c).arrAt_in 0 rfl _).trans (A_eq0 (VE0 m) c 0)).trans (Gen.V2_of m (outsOf m) c main_v0 (by decide)).symm
  | 1 => (((dat0 (VE0 m) c).arrAt_in 1 rfl _).trans (A_eq0 (VE0 m) c 1)).trans (Gen.V2_of m (outsOf m) c main_v1 (by decide)).symm
  | 2 => by
    show _ = Gen.V2 m (outsOf m) c main_v2_0
    rw [Gen.V2, Function.update_of_ne (StableHlo.devRef_ne_of_ne (by decide) : (Proc.devRef .tc main_v2_0 : DevRef τ sig) ≠ Proc.devRef .tc main_v2_1),
      Function.update_self]
    exact (outsOf_vw m c).symm
  | 3 => by
    show _ = Gen.V2 m (outsOf m) c main_v2_1
    rw [Gen.V2, Function.update_self]
    exact (outsOf_wsq m c).symm
  | ⟨_ + 4, h⟩ => absurd h (Nat.not_lt.2 (Nat.le_add_left _ _))

theorem hrest0 (c : Dev nD) : ∀ b, b ∉ Finset.univ.image (Pipeline.arrRef spec0) → VX0 m c b = VE0 m c b :=
  fun b hb => Gen.V2_of m (outsOf m) c b fun hmem => hb (by
    rcases List.mem_cons.mp hmem with rfl | hmem
    · exact Finset.mem_image.mpr ⟨2, Finset.mem_univ _, rfl⟩
    · rcases List.mem_cons.mp hmem with rfl | hmem
      · exact Finset.mem_image.mpr ⟨3, Finset.mem_univ _, rfl⟩
      · exact absurd hmem (List.not_mem_nil))

/-- Region 1: the same, its one output the similarity table. -/
theorem hF1 (c : Dev nD) : ∀ w : Fin cfg1.W, (dat1 (VE1 m) c).arrAt w cfg1.N = VX1 m c (Pipeline.arrRef spec1 w) := fun
  | 0 => (((dat1 (VE1 m) c).arrAt_in 0 rfl _).trans (A_eq1 (VE1 m) c 0)).trans (Gen.V4_of m (outsOf m) c main_arg0 (by decide)).symm
  | 1 => (((dat1 (VE1 m) c).arrAt_in 1 rfl _).trans (A_eq1 (VE1 m) c 1)).trans (Gen.V4_of m (outsOf m) c main_arg2 (by decide)).symm
  | 2 => by
    show _ = Gen.V4 m (outsOf m) c main_v21
    rw [Gen.V4, Function.update_self]
    exact (outsOf_rd m c).symm
  | ⟨_ + 3, h⟩ => absurd h (Nat.not_lt.2 (Nat.le_add_left _ _))

theorem hrest1 (c : Dev nD) : ∀ b, b ∉ Finset.univ.image (Pipeline.arrRef spec1) → VX1 m c b = VE1 m c b :=
  fun b hb => Gen.V4_of m (outsOf m) c b fun hmem => hb (by
    rcases List.mem_cons.mp hmem with rfl | hmem
    · exact Finset.mem_image.mpr ⟨2, Finset.mem_univ _, rfl⟩
    · exact absurd hmem (List.not_mem_nil))

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (VE0 m) c
  | ⟨1, _⟩ => fun c => dat1 (VE1 m) c

/-- No core owes another anything: no level is assigned. -/
abbrev Lno : GSem nD τ sig → Finset Unit := fun _ => ∅
abbrev lvno : GSem nD τ sig → Unit → ℕ := fun _ _ => 0

/-- What rides beside the buffers through every item: the core's generator register at some state, and the core
    owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 1 (the similarity table) over the thread state: entered from every unscoped buffer at the valuation after
    the second host stretch, left at that valuation changed at the table. Its arrays are split out of the unscoped
    buffers and put back at the exit contents; the generator register goes into the invariant and comes back;
    nothing is owed; the kernel has no semaphore of its own. -/
def reg1 : RegionSeg (pcfgs (F := F)) Gen.adm (pdats m) () defs₀ Variants.none Lno lvno 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ Lno lvno 1 fun _ _ => rfl
  pre c := iprop(StableHlo.held (c : Thread nD τ) (Pipeline.ucRefs τ sig) (Gen.V3 m (outsOf m) c) ∗ R c)
  post c := iprop(StableHlo.held (c : Thread nD τ) (Pipeline.ucRefs τ sig) (Gen.V4 m (outsOf m) c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 0 (the tiled product with the fused row sums) over the thread state: entered from every unscoped buffer at
    the valuation after the first host stretch, left at that valuation changed at the product array and the row-sum
    array. As for region 1, except that the invariant between points tracks the two accumulators: the scoped buffers
    and the generator register enter it through its first instance and come back out of its last. -/
def reg0 : RegionSeg (pcfgs (F := F)) Gen.adm (pdats m) () defs₀ Variants.none Lno lvno 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ Lno lvno 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsOf m) c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (VE0 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (VE0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run, given the regions' records -/

set_option backward.isDefEq.respectTransparency.types false in
/-- The program's run from the regions' records, with the result read as well: under the hypotheses of the generated
    conditional frame, every weakly fair execution from memory `m` with zero counters terminates, and in every final
    memory the result buffer holds the last valuation's value and each argument its launch contents. The last thread
    state holds every unscoped buffer at the last valuation; read against the final state it gives the memory at each
    of them, the result among them. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (outs : Gen.Outs (F := F))
    (pd : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pd ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pd ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v54) = V15 m outs c main_v54
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pd ι cellOf_inj EP defs₀ 𝒱₀ L lv m ρ main
    (segs m outs 𝒱₀ L lv E ι pd R0 R1)
    (fun c Q => by
      rewrite [main_chain c, Seg.run_eq_chain,
        show (segs m outs 𝒱₀ L lv E ι pd R0 R1 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V15 m outs c))
    (hch := fun c => ⟨.rfl, hpre0 c, hpost0 c, hpre1 c, hpost1 c, .rfl, .rfl, .rfl, .rfl, .rfl, .rfl, .rfl, .rfl, .rfl, .rfl, sep_mono .rfl (hE2 c)⟩)
    (hinit := ?_) (QY := fun c s => s.mem ((c.tc : Thread nD τ).loc main_v54) = V15 m outs c main_v54
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are held at the launch valuation; the rest makes the first rest state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's buffer and each argument's read off the last valuation
    unfold StableHlo.held
    iintro ⟨Hh, HSI⟩
    ihave Hr := (pointsTo_read_all (Pipeline.ucRefs τ sig) (fun b => ((c : Thread nD τ).1, b)) (V15 m outs c) s') $$ [Hh HSI]
    · isplitl [Hh] <;> iassumption
    icases Hr with ⟨%h, HSI⟩
    imodintro
    isplitr
    · ipureintro
      exact ⟨h (Proc.devRef .tc main_v54) (Finset.mem_filter.mpr ⟨StableHlo.devRef_mem_tcRefs main_v54, by decide⟩),
        (h (Proc.devRef .tc main_arg0) (Finset.mem_filter.mpr ⟨StableHlo.devRef_mem_tcRefs main_arg0, by decide⟩)).trans (V15_main_arg0 m outs c),
        (h (Proc.devRef .tc main_arg1) (Finset.mem_filter.mpr ⟨StableHlo.devRef_mem_tcRefs main_arg1, by decide⟩)).trans (V15_main_arg1 m outs c),
        (h (Proc.devRef .tc main_arg2) (Finset.mem_filter.mpr ⟨StableHlo.devRef_mem_tcRefs main_arg2, by decide⟩)).trans (V15_main_arg2 m outs c),
        (h (Proc.devRef .tc main_arg3) (Finset.mem_filter.mpr ⟨StableHlo.devRef_mem_tcRefs main_arg3, by decide⟩)).trans (V15_main_arg3 m outs c)⟩
    · iexact HSI

/-! ## The run -/

set_option backward.isDefEq.respectTransparency.types false in
/-- Every weakly fair execution of the program from memory `m` with zero counters terminates, and every final memory
    holds each argument as launched: the generated conditional frame at the two regions' records. The launch element is
    the pipelines' own; each core starts owing nothing with its generator register at the launch state, which is the
    rest state of every item. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m (EP := emb₁) (ι := ()) (𝒱₀ := Variants.none) (L := Lno) (lv := lvno) (hL := fun _ _ => rfl) (ρ := ρ)
    (outs := outsOf m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach Lno lvno fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

set_option backward.isDefEq.respectTransparency.types false in
/-- The same run with the result read: every final memory holds, in the result buffer, the last valuation's value
    over what the two regions leave. -/
theorem run_result : θ_run defs (onTc (τ := τ) (main (F := F))) ⟨m, fun _ => 0, ρ⟩ (fun r => ∀ c : Dev nD,
      r.2.mem ((c.tc : Thread nD τ).loc main_v54) = Gen.V15 m (outsOf m) c main_v54
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_cond m ρ (EP := emb₁) (ι := ()) (𝒱₀ := Variants.none) (L := Lno) (lv := lvno) (hL := fun _ _ => rfl)
    (outs := outsOf m) (pd := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach Lno lvno fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Cert.Kernel.Hand

end
-- ==== Proof.Claims.lean ====
/-
  THE TWO PROGRAMS COMPUTE ONE NUMBER

The kernel program's result is a host computation of its four arguments and of the three arrays its two regions
leave: the 64 x 2048 table of inner products of the flattened voxel rows with the flattened memory rows, the 2048
squared norms of the memory rows, and the 64 x 2048 table of inner products of the anchor rows with the key rows.
Each of the three is a plain finite sum of products of argument entries. With every anchor and key entry a real
number, that host computation of those sums is the reference program's result. -/
import proofs.«145568_j39152921870432_2_alg».proof.Defs
import proofs.«145568_j39152921870432_2_alg».proof.Proof.Gen.Kernel
import proofs.«145568_j39152921870432_2_alg».proof.Proof.Gen.KernelIdeal
import proofs.«145568_j39152921870432_2_alg».proof.Proof.Gen.ReferenceIdeal
import proofs.«145568_j39152921870432_2_alg».proof.Proof.Gen.Pre_finite_inputs
import proofs.«145568_j39152921870432_2_alg».proof.Proof.FiniteInputs
import proofs.«145568_j39152921870432_2_alg».proof.Proof.KernelHost
import proofs.«145568_j39152921870432_2_alg».proof.Proof.RefRun
import proofs.«145568_j39152921870432_2_alg».proof.Proof.RefRead
import proofs.«145568_j39152921870432_2_alg».proof.Proof.RefValue
import proofs.«145568_j39152921870432_2_alg».proof.Proof.Bridge
import proofs.«145568_j39152921870432_2_alg».proof.Proof.GemmValue
import proofs.«145568_j39152921870432_2_alg».proof.Proof.CosValue
import proofs.«145568_j39152921870432_2_alg».proof.Proof.Run
import proofs.«145568_j39152921870432_2_alg».proof.Proof.RunBits
import Idealize.ShloMosaic.Lib.ValueIdx
import Idealize.ShloMosaic.Adequacy
import Idealize.ShloMosaic.Init

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

/-! ## What the regions leave, as sums over the arguments -/

section Regions
variable (m : (ℓ : Loc nD τ sig) → Buf (Elt Ideal) ℓ) (c : Dev nD)

/-- The four arguments as launched on core `c`, each as an array of its literal shape over the extended reals. -/
abbrev anchorArg : Arr S64x512 .f32 := m ((c : Thread nD τ).loc main_arg0)
abbrev voxelArg : Arr S64x32x32x32 .f32 := m ((c : Thread nD τ).loc main_arg1)
abbrev keyArg : Arr S2048x512 .f32 := m ((c : Thread nD τ).loc main_arg2)
abbrev memoryArg : Arr S2048x32x32x32 .f32 := m ((c : Thread nD τ).loc main_arg3)

/-- The first region's table: voxel row p against memory row q, over the 32768 flattened positions. -/
theorem region_vw (p : Fin 64) (q : Fin 2048) :
    outsOf (F := Ideal) m 2 main_v2_0 c (ix2 p q)
      = ∑ n : Fin 32768, shapeCast S64x32768 (voxelArg m c) shapeCasts_S64x32x32x32_S64x32768 (ix2 p n)
          * shapeCast S2048x32768 (memoryArg m c) shapeCasts_S2048x32x32x32_S2048x32768 (ix2 q n) := by
  refine (congrFun (outsOf_vw m c) (ix2 p q)).trans ?_
  refine (vw_final (fun c b => V1 m c b) c p q).trans ?_
  have ev : vArr (fun c b => V1 m c b) c = shapeCast S64x32768 (voxelArg m c) shapeCasts_S64x32x32x32_S64x32768 := V1_v0 m c
  have ew : wArr (fun c b => V1 m c b) c = shapeCast S2048x32768 (memoryArg m c) shapeCasts_S2048x32x32x32_S2048x32768 := V1_v1 m c
  rw [ev, ew]

/-- The first region's squared norms: memory row q against itself. -/
theorem region_wsq (q : Fin 2048) :
    outsOf (F := Ideal) m 2 main_v2_1 c (ix1 q)
      = ∑ n : Fin 32768, shapeCast S2048x32768 (memoryArg m c) shapeCasts_S2048x32x32x32_S2048x32768 (ix2 q n)
          * shapeCast S2048x32768 (memoryArg m c) shapeCasts_S2048x32x32x32_S2048x32768 (ix2 q n) := by
  refine (congrFun (outsOf_wsq m c) (ix1 q)).trans ?_
  refine (wsq_final (fun c b => V1 m c b) c q).trans ?_
  have ew : wArr (fun c b => V1 m c b) c = shapeCast S2048x32768 (memoryArg m c) shapeCasts_S2048x32x32x32_S2048x32768 := V1_v1 m c
  rw [ew]

/-- The second region's table: anchor row p against key row q, over the 512 features. -/
theorem region_rd (p : Fin 64) (q : Fin 2048) :
    outsOf (F := Ideal) m 4 main_v21 c (ix2 p q)
      = ∑ k : Fin 512, anchorArg m c (ix2 p k) * keyArg m c (ix2 q k) := by
  refine (congrFun (outsOf_rd m c) (ix2 p q)).trans ?_
  refine (congrFun (arr1_final (fun c b => V3 m (outsOf m) c b) c) (ix2 p q)).trans ?_
  show out1_2 (F := Ideal) (V3 m (outsOf m) c main_arg0) (V3 m (outsOf m) c main_arg2) (ix2 p q) = _
  rw [V3_arg0, V3_arg2]
  exact out1_2_apply (anchorArg m c) (keyArg m c) p q

end Regions

end Cert.KernelIdeal.Hand

/-! ## The claims -/

namespace Cert.Proof.Claims

open Idealize.ShloMosaic Idealize.ShloMosaic.TcCoe Idealize.SL.Sem
open Cert.KernelIdeal.Hand

/-- The program as printed runs and leaves its arguments as launched. -/
theorem frame_k : Cert.frame_Kernel := fun m ρ _ => Cert.Kernel.Hand.frame m ρ

/-- So does the program read over the extended reals, -/
theorem frame_ki : Cert.frame_KernelIdeal := fun m ρ _ => Cert.KernelIdeal.Hand.frame m ρ

/-- and so does the reference. -/
theorem frame_ri : Cert.frame_ReferenceIdeal := fun m ρ _ =>
  (θ_run Cert.ReferenceIdeal.defs _ _).mono (fun _ h c => (h c).2) (Cert.ReferenceIdeal.ValueP.run (F := Ideal) m ρ)

/-- No operation was rewritten on the way to the extended reals: there is nothing to preserve. -/
theorem preserves : Cert.preserves_Kernel_KernelIdeal := trivial

/-- From memories that agree on the four arguments, every entry of which is a real, both programs run, leave the
    arguments as launched, and end with the same number: the kernel program's is the host computation of the three
    sums its regions leave, the reference's is its own term of the arguments, and the two are one function. -/
theorem algebraic : Cert.algebraic_KernelIdeal_ReferenceIdeal := by
  intro m ρ m' ρ' hpre hagree
  refine ⟨fun c => Cert.KernelIdeal.Gen.V15 m (outsOf m) c Cert.KernelIdeal.main_v54, run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, -, h2, -⟩ := finite_of_pre _ _ _ _ (hpre c)
  rw [Cert.ReferenceIdeal.ReadP.val_main_v57_eq m' c, (hagree c).1, (hagree c).2.1, (hagree c).2.2.1, (hagree c).2.2.2]
  refine (ref_res _ _ _ _).trans ?_
  refine (bridge _ _ _ _ _ _ _ h0 h2 (region_vw m c) (region_wsq m c) (region_rd m c)).symm.trans ?_
  exact (kernel_res m (outsOf m) c).symm

end Cert.Proof.Claims

end
-- ==== Proof.lean ====
/- From the same four arrays, every entry of them a real number, the kernel program and the reference end with the same
   scalar over the extended reals; each of the three programs terminates and leaves its four arguments as launched. -/
import proofs.«145568_j39152921870432_2_alg».proof.Defs
import proofs.«145568_j39152921870432_2_alg».proof.Proof.Gen.Kernel
import proofs.«145568_j39152921870432_2_alg».proof.Proof.Gen.Kernel.Skeleton
import proofs.«145568_j39152921870432_2_alg».proof.Proof.Gen.Kernel.Launch
import proofs.«145568_j39152921870432_2_alg».proof.Proof.Gen.Kernel.Regions
import proofs.«145568_j39152921870432_2_alg».proof.Proof.Gen.Kernel.Points
import proofs.«145568_j39152921870432_2_alg».proof.Proof.Gen.KernelIdeal
import proofs.«145568_j39152921870432_2_alg».proof.Proof.Gen.KernelIdeal.Skeleton
import proofs.«145568_j39152921870432_2_alg».proof.Proof.Gen.KernelIdeal.Launch
import proofs.«145568_j39152921870432_2_alg».proof.Proof.Gen.KernelIdeal.Regions
import proofs.«145568_j39152921870432_2_alg».proof.Proof.Gen.KernelIdeal.Points
import proofs.«145568_j39152921870432_2_alg».proof.Proof.Gen.ReferenceIdeal
import proofs.«145568_j39152921870432_2_alg».proof.Proof.Gen.Pre_finite_inputs
import Idealize.ShloMosaic.Adequacy
import Idealize.ShloMosaic.Init
import proofs.«145568_j39152921870432_2_alg».proof.Proof.Claims

noncomputable section

namespace Cert.Proof

open Idealize.ShloMosaic Idealize.SL.Sem Cert.Kernel
open Cert.Proof.Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
